-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096x9 : Shape := ⟨3, ![256, 4096, 9]⟩
abbrev S256x1x128x128 : Shape := ⟨4, ![256, 1, 128, 128]⟩
abbrev S_ : Shape := ⟨0, ![]⟩

class Facts : Prop where
  bcast_S_S256x4096x9 : S_.BroadcastsInDim S256x4096x9 (![] : Fin 0 → Fin S256x4096x9.rank)
  reducesTo_S256x4096x9_S_d0_1_2 : S256x4096x9.ReducesTo [0, 1, 2] S_
  h_S_ : 0 < S_.numel
  bcast_S_S256x1x128x128 : S_.BroadcastsInDim S256x1x128x128 (![] : Fin 0 → Fin S256x1x128x128.rank)
  reducesTo_S256x1x128x128_S_d0_1_2_3 : S256x1x128x128.ReducesTo [0, 1, 2, 3] S_

variable [Facts]

def fn_part1 {F : FTy → Type} [FloatOps F] (main_v13 : IVec S_ 1) (main_v16 : IVec S256x1x128x128 1) : IVec S_ 1 :=
  let main_c_5 : IVec S_ 1 := constantI S_ 1 1#1
  let main_v17 : IVec S_ 1 := (fun x v => Host.reduce IntOp.andi x v reducesTo_S256x1x128x128_S_d0_1_2_3 h_S_) main_v16 main_c_5
  let main_v18 : IVec S_ 1 := andi main_v13 main_v17
  main_v18

def fn {F : FTy → Type} [FloatOps F] (main_arg0 : FVec F S256x4096x9 .f32) (main_arg1 : FVec F S256x4096x9 .f32) (main_arg2 : FVec F S256x1x128x128 .f32) (main_arg3 : FVec F S256x1x128x128 .f32) : IVec S_ 1 :=
  let main_v0 : FVec F S256x4096x9 .f32 := Host.absf main_arg0
  let main_cst : FVec F S_ .f32 := constant S_ .f32 0x7F800000#32
  let main_v1 : FVec F S256x4096x9 .f32 := broadcastInDim S256x4096x9 ![] bcast_S_S256x4096x9 main_cst
  let main_v2 : IVec S256x4096x9 1 := cmpf .olt main_v0 main_v1
  let main_c : IVec S_ 1 := constantI S_ 1 1#1
  let main_v3 : IVec S_ 1 := (fun x v => Host.reduce IntOp.andi x v reducesTo_S256x4096x9_S_d0_1_2 h_S_) main_v2 main_c
  let main_v4 : FVec F S256x4096x9 .f32 := Host.absf main_arg1
  let main_cst_0 : FVec F S_ .f32 := constant S_ .f32 0x7F800000#32
  let main_v5 : FVec F S256x4096x9 .f32 := broadcastInDim S256x4096x9 ![] bcast_S_S256x4096x9 main_cst_0
  let main_v6 : IVec S256x4096x9 1 := cmpf .olt main_v4 main_v5
  let main_c_1 : IVec S_ 1 := constantI S_ 1 1#1
  let main_v7 : IVec S_ 1 := (fun x v => Host.reduce IntOp.andi x v reducesTo_S256x4096x9_S_d0_1_2 h_S_) main_v6 main_c_1
  let main_v8 : IVec S_ 1 := andi main_v3 main_v7
  let main_v9 : FVec F S256x1x128x128 .f32 := Host.absf main_arg2
  let main_cst_2 : FVec F S_ .f32 := constant S_ .f32 0x7F800000#32
  let main_v10 : FVec F S256x1x128x128 .f32 := broadcastInDim S256x1x128x128 ![] bcast_S_S256x1x128x128 main_cst_2
  let main_v11 : IVec S256x1x128x128 1 := cmpf .olt main_v9 main_v10
  let main_c_3 : IVec S_ 1 := constantI S_ 1 1#1
  let main_v12 : IVec S_ 1 := (fun x v => Host.reduce IntOp.andi x v reducesTo_S256x1x128x128_S_d0_1_2_3 h_S_) main_v11 main_c_3
  let main_v13 : IVec S_ 1 := andi main_v8 main_v12
  let main_v14 : FVec F S256x1x128x128 .f32 := Host.absf main_arg3
  let main_cst_4 : FVec F S_ .f32 := constant S_ .f32 0x7F800000#32
  let main_v15 : FVec F S256x1x128x128 .f32 := broadcastInDim S256x1x128x128 ![] bcast_S_S256x1x128x128 main_cst_4
  let main_v16 : IVec S256x1x128x128 1 := cmpf .olt main_v14 main_v15
  fn_part1 (F := F) main_v13 main_v16
-- ==== Kernel.lean ====
abbrev S256x4096x9 : Shape := ⟨3, ![256, 4096, 9]⟩
abbrev S256x1x128x128 : Shape := ⟨4, ![256, 1, 128, 128]⟩
abbrev S256x4096x1 : Shape := ⟨3, ![256, 4096, 1]⟩
abbrev S256x4096 : Shape := ⟨2, ![256, 4096]⟩
abbrev S_ : Shape := ⟨0, ![]⟩
abbrev S4096 : Shape := ⟨1, ![4096]⟩
abbrev S1x4096 : Shape := ⟨2, ![1, 4096]⟩
abbrev S256x4095 : Shape := ⟨2, ![256, 4095]⟩
abbrev S256x1 : Shape := ⟨2, ![256, 1]⟩
abbrev S256x4096x2 : Shape := ⟨3, ![256, 4096, 2]⟩
abbrev S1 : Shape := ⟨1, ![1]⟩
abbrev S1x1x1 : Shape := ⟨3, ![1, 1, 1]⟩
abbrev S1x1 : Shape := ⟨2, ![1, 1]⟩
abbrev S2x4096x9 : Shape := ⟨3, ![2, 4096, 9]⟩
abbrev S2x4096x2 : Shape := ⟨3, ![2, 4096, 2]⟩
abbrev S2x4096x1 : Shape := ⟨3, ![2, 4096, 1]⟩
abbrev S2x4096 : Shape := ⟨2, ![2, 4096]⟩
abbrev S2x4096x8 : Shape := ⟨3, ![2, 4096, 8]⟩
abbrev S2x4096x6 : Shape := ⟨3, ![2, 4096, 6]⟩
abbrev S1x2x4096 : Shape := ⟨3, ![1, 2, 4096]⟩
abbrev S32x1x128x128 : Shape := ⟨4, ![32, 1, 128, 128]⟩
abbrev S32x1x128 : Shape := ⟨3, ![32, 1, 128]⟩
abbrev S32x1 : Shape := ⟨2, ![32, 1]⟩
abbrev S1x32x1 : Shape := ⟨3, ![1, 32, 1]⟩

abbrev nBuf : Space → Nat
  | .hbm => 110
  | .vmem => 18
  | .smem => 0
  | _ => 0

abbrev bufTy : (tb : Table) → Fin (tcTables nBuf tb) → BufTy
  | .hbm, ⟨0, _⟩ => ⟨S256x4096x9, .f32⟩
  | .hbm, ⟨1, _⟩ => ⟨S256x4096x9, .f32⟩
  | .hbm, ⟨2, _⟩ => ⟨S256x1x128x128, .f32⟩
  | .hbm, ⟨3, _⟩ => ⟨S256x1x128x128, .f32⟩
  | .hbm, ⟨4, _⟩ => ⟨S256x4096x1, .f32⟩
  | .hbm, ⟨5, _⟩ => ⟨S256x4096, .f32⟩
  | .hbm, ⟨6, _⟩ => ⟨S_, .f32⟩
  | .hbm, ⟨7, _⟩ => ⟨S256x4096, .f32⟩
  | .hbm, ⟨8, _⟩ => ⟨S256x4096, .i1⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S256x4096, .i32⟩
  | .hbm, ⟨13, _⟩ => ⟨S256x4096, .i32⟩
  | .hbm, ⟨14, _⟩ => ⟨S256x4096, .i32⟩
  | .hbm, ⟨15, _⟩ => ⟨S256x4096, .i32⟩
  | .hbm, ⟨16, _⟩ => ⟨S_, .i32⟩
  | .hbm, ⟨17, _⟩ => ⟨S_, .i32⟩
  | .hbm, ⟨18, _⟩ => ⟨S256x4096, .i32⟩
  | .hbm, ⟨19, _⟩ => ⟨S256x4096, .i32⟩
  | .hbm, ⟨20, _⟩ => ⟨S256x4095, .i32⟩
  | .hbm, ⟨21, _⟩ => ⟨S_, .i32⟩
  | .hbm, ⟨22, _⟩ => ⟨S256x1, .i32⟩
  | .hbm, ⟨23, _⟩ => ⟨S256x4096, .i32⟩
  | .hbm, ⟨24, _⟩ => ⟨S_, .i32⟩
  | .hbm, ⟨25, _⟩ => ⟨S256x4096, .i32⟩
  | .hbm, ⟨26, _⟩ => ⟨S256x4096, .i1⟩
  | .hbm, ⟨27, _⟩ => ⟨S256x4096, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S256x4096, .i32⟩
  | .hbm, ⟨32, _⟩ => ⟨S256x4096, .i32⟩
  | .hbm, ⟨33, _⟩ => ⟨S_, .i32⟩
  | .hbm, ⟨34, _⟩ => ⟨S256x4096, .i32⟩
  | .hbm, ⟨35, _⟩ => ⟨S256x4096, .i32⟩
  | .hbm, ⟨36, _⟩ => ⟨S256x4096x2, .f32⟩
  | .hbm, ⟨37, _⟩ => ⟨S256x4096x1, .i32⟩
  | .hbm, ⟨38, _⟩ => ⟨S_, .i32⟩
  | .hbm, ⟨39, _⟩ => ⟨S256x4096x1, .i32⟩
  | .hbm, ⟨40, _⟩ => ⟨S256x4096x1, .i1⟩
  | .hbm, ⟨41, _⟩ => ⟨S_, .i32⟩
  | .hbm, ⟨42, _⟩ => ⟨S256x4096x1, .i32⟩
  | .hbm, ⟨43, _⟩ => ⟨S256x4096x1, .i32⟩
  | .hbm, ⟨44, _⟩ => ⟨S256x4096x1, .i32⟩
  | .hbm, ⟨45, _⟩ => ⟨S1, .i32⟩
  | .hbm, ⟨46, _⟩ => ⟨S_, .i32⟩
  | .hbm, ⟨47, _⟩ => ⟨S256x4096x1, .i32⟩
  | .hbm, ⟨48, _⟩ => ⟨S256x4096x1, .i1⟩
  | .hbm, ⟨49, _⟩ => ⟨S1x1x1, .i32⟩
  | .hbm, ⟨50, _⟩ => ⟨S256x4096x1, .i32⟩
  | .hbm, ⟨51, _⟩ => ⟨S256x4096x1, .i1⟩
  | .hbm, ⟨52, _⟩ => ⟨S256x4096x1, .i1⟩
  | .hbm, ⟨53, _⟩ => ⟨S_, .i1⟩
  | .hbm, ⟨54, _⟩ => ⟨S256x4096, .i1⟩
  | .hbm, ⟨55, _⟩ => ⟨S256x4096x2, .f32⟩
  | .hbm, ⟨56, _⟩ => ⟨S256x4096x2, .i1⟩
  | .hbm, ⟨57, _⟩ => ⟨S_, .f32⟩
  | .hbm, ⟨58, _⟩ => ⟨S256x4096x2, .f32⟩
  | .hbm, ⟨59, _⟩ => ⟨S256x4096x2, .f32⟩
  | .hbm, ⟨60, _⟩ => ⟨S256x4096, .f32⟩
  | .hbm, ⟨61, _⟩ => ⟨S256x4096x1, .f32⟩
  | .hbm, ⟨62, _⟩ => ⟨S1x1, .f32⟩
  | .hbm, ⟨63, _⟩ => ⟨S1x1, .f32⟩
  | .hbm, ⟨64, _⟩ => ⟨S1x1, .f32⟩
  | .hbm, ⟨65, _⟩ => ⟨S1x1, .f32⟩
  | .hbm, ⟨66, _⟩ => ⟨S1x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S1x1, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .local _ .vmem, ⟨0, _⟩ => ⟨S2x4096x9, .f32⟩
  | .local _ .vmem, ⟨1, _⟩ => ⟨S2x4096x9, .f32⟩
  | .local _ .vmem, ⟨2, _⟩ => ⟨S2x4096x9, .f32⟩
  | .local _ .vmem, ⟨3, _⟩ => ⟨S2x4096x9, .f32⟩
  | .local _ .vmem, ⟨4, _⟩ => ⟨S2x4096x2, .f32⟩
  | .local _ .vmem, ⟨5, _⟩ => ⟨S2x4096x2, .f32⟩
  | .local _ .vmem, ⟨6, _⟩ => ⟨S2x4096x1, .f32⟩
  | .local _ .vmem, ⟨7, _⟩ => ⟨S2x4096x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S32x1x128x128, .f32⟩
  | .local _ .vmem, ⟨14, _⟩ => ⟨S32x1x128x128, .f32⟩
  | .local _ .vmem, ⟨15, _⟩ => ⟨S32x1x128x128, .f32⟩
  | .local _ .vmem, ⟨16, _⟩ => ⟨S32x1x128x128, .f32⟩
  | .local _ .vmem, ⟨17, _⟩ => ⟨S1x1, .f32⟩
  | _, _ => ⟨S256x4096x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_call2_c : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_c_3 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call5_c : Ref sig .tc := ⟨.hbm, 38, rfl⟩
abbrev main_call5_v0 : Ref sig .tc := ⟨.hbm, 39, rfl⟩
abbrev main_call5_v1 : Ref sig .tc := ⟨.hbm, 40, rfl⟩
abbrev main_call5_c_0 : Ref sig .tc := ⟨.hbm, 41, rfl⟩
abbrev main_call5_v2 : Ref sig .tc := ⟨.hbm, 42, rfl⟩
abbrev main_call5_v3 : Ref sig .tc := ⟨.hbm, 43, rfl⟩
abbrev main_call5_v4 : Ref sig .tc := ⟨.hbm, 44, rfl⟩
abbrev main_call5_c_1 : Ref sig .tc := ⟨.hbm, 45, rfl⟩
abbrev main_call5_c_2 : Ref sig .tc := ⟨.hbm, 46, rfl⟩
abbrev main_call5_v5 : Ref sig .tc := ⟨.hbm, 47, rfl⟩
abbrev main_call5_v6 : Ref sig .tc := ⟨.hbm, 48, rfl⟩
abbrev main_call5_v7 : Ref sig .tc := ⟨.hbm, 49, rfl⟩
abbrev main_call5_v8 : Ref sig .tc := ⟨.hbm, 50, rfl⟩
abbrev main_call5_v9 : Ref sig .tc := ⟨.hbm, 51, rfl⟩
abbrev main_call5_v10 : Ref sig .tc := ⟨.hbm, 52, rfl⟩
abbrev main_call5_c_3 : Ref sig .tc := ⟨.hbm, 53, rfl⟩
abbrev main_call5_v11 : Ref sig .tc := ⟨.hbm, 54, rfl⟩
abbrev main_call5_v12 : Ref sig .tc := ⟨.hbm, 55, rfl⟩
abbrev main_call5_v13 : Ref sig .tc := ⟨.hbm, 56, rfl⟩
abbrev main_call5_cst : Ref sig .tc := ⟨.hbm, 57, rfl⟩
abbrev main_call5_v14 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22_0 : Ref sig .tc := ⟨.hbm, 62, rfl⟩
abbrev main_v22_1 : Ref sig .tc := ⟨.hbm, 63, rfl⟩
abbrev main_v22_2 : Ref sig .tc := ⟨.hbm, 64, rfl⟩
abbrev main_v22_3 : Ref sig .tc := ⟨.hbm, 65, rfl⟩
abbrev main_v22_4 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_4 : Ref sig .tc := ⟨.hbm, 72, rfl⟩
abbrev main_v28 : Ref sig .tc := ⟨.hbm, 73, rfl⟩
abbrev main_cst_5 : Ref sig .tc := ⟨.hbm, 74, rfl⟩
abbrev main_v29 : Ref sig .tc := ⟨.hbm, 75, rfl⟩
abbrev main_cst_6 : Ref sig .tc := ⟨.hbm, 76, rfl⟩
abbrev main_v30 : Ref sig .tc := ⟨.hbm, 77, rfl⟩
abbrev main_v31 : Ref sig .tc := ⟨.hbm, 78, rfl⟩
abbrev main_cst_7 : Ref sig .tc := ⟨.hbm, 79, rfl⟩
abbrev main_call6_v0 : Ref sig .tc := ⟨.hbm, 80, rfl⟩
abbrev main_v32 : Ref sig .tc := ⟨.hbm, 81, rfl⟩
abbrev main_cst_8 : Ref sig .tc := ⟨.hbm, 82, rfl⟩
abbrev main_v33 : Ref sig .tc := ⟨.hbm, 83, rfl⟩
abbrev main_cst_9 : Ref sig .tc := ⟨.hbm, 84, rfl⟩
abbrev main_v34 : Ref sig .tc := ⟨.hbm, 85, rfl⟩
abbrev main_cst_10 : Ref sig .tc := ⟨.hbm, 86, rfl⟩
abbrev main_v35 : Ref sig .tc := ⟨.hbm, 87, rfl⟩
abbrev main_v36 : Ref sig .tc := ⟨.hbm, 88, rfl⟩
abbrev main_cst_11 : Ref sig .tc := ⟨.hbm, 89, rfl⟩
abbrev main_call7_v0 : Ref sig .tc := ⟨.hbm, 90, rfl⟩
abbrev main_v37 : Ref sig .tc := ⟨.hbm, 91, rfl⟩
abbrev main_cst_12 : Ref sig .tc := ⟨.hbm, 92, rfl⟩
abbrev main_v38 : Ref sig .tc := ⟨.hbm, 93, rfl⟩
abbrev main_cst_13 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_cst_14 : Ref sig .tc := ⟨.hbm, 98, rfl⟩
abbrev main_v42 : Ref sig .tc := ⟨.hbm, 99, rfl⟩
abbrev main_v43 : Ref sig .tc := ⟨.hbm, 100, rfl⟩
abbrev main_cst_15 : Ref sig .tc := ⟨.hbm, 101, rfl⟩
abbrev main_v44 : Ref sig .tc := ⟨.hbm, 102, rfl⟩
abbrev main_v45 : Ref sig .tc := ⟨.hbm, 103, rfl⟩
abbrev main_cst_16 : Ref sig .tc := ⟨.hbm, 104, rfl⟩
abbrev main_v46 : Ref sig .tc := ⟨.hbm, 105, rfl⟩
abbrev main_v47 : Ref sig .tc := ⟨.hbm, 106, rfl⟩
abbrev main_cst_17 : Ref sig .tc := ⟨.hbm, 107, rfl⟩
abbrev main_v48 : Ref sig .tc := ⟨.hbm, 108, rfl⟩
abbrev main_v49 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4096x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S256x4096x9_S256x4096x1_0_0_8 : S256x4096x9.Slices ![0, 0, 8] S256x4096x1
  shapeCasts_S256x4096x1_S256x4096 : S256x4096x1.ShapeCasts S256x4096
  bcast_S_S256x4096 : S_.BroadcastsInDim S256x4096 (![] : Fin 0 → Fin S256x4096.rank)
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S_S_ : S_.BroadcastsInDim S_ (![] : Fin 0 → Fin S_.rank)
  reduceWindows_S256x4096_S256x4096_w1s1p0_0_w4096s1p4095_0 : S256x4096.ReduceWindows (![1, 4096] : Fin 2 → Nat) ![1, 1] ![0, 4095] ![0, 0] S256x4096
  h_S_ : 0 < S_.numel
  slices_S256x4096_S256x4095_0_1 : S256x4096.Slices ![0, 1] S256x4095
  bcast_S_S256x1 : S_.BroadcastsInDim S256x1 (![] : Fin 0 → Fin S256x1.rank)
  concatenates_S256x4095_S256x1_S256x4096_d1 : Shape.Concatenates [S256x4095, S256x1] S256x4096 1
  slices_S256x4096x9_S256x4096x2_0_0_4 : S256x4096x9.Slices ![0, 0, 4] S256x4096x2
  bcast_S256x4096_S256x4096x1_0_1 : S256x4096.BroadcastsInDim S256x4096x1 (![0, 1] : Fin 2 → Fin S256x4096x1.rank)
  bcast_S_S256x4096x1 : S_.BroadcastsInDim S256x4096x1 (![] : Fin 0 → Fin S256x4096x1.rank)
  bcast_S1_S1x1x1_2 : S1.BroadcastsInDim S1x1x1 (![2] : Fin 1 → Fin S1x1x1.rank)
  bcast_S1x1x1_S256x4096x1_0_1_2 : S1x1x1.BroadcastsInDim S256x4096x1 (![0, 1, 2] : Fin 3 → Fin S256x4096x1.rank)
  reducesTo_S256x4096x1_S256x4096_d2 : S256x4096x1.ReducesTo [2] S256x4096
  bcast_S256x4096_S256x4096x2_0_1 : S256x4096.BroadcastsInDim S256x4096x2 (![0, 1] : Fin 2 → Fin S256x4096x2.rank)
  bcast_S_S256x4096x2 : S_.BroadcastsInDim S256x4096x2 (![] : Fin 0 → Fin S256x4096x2.rank)
  inb_S1x1_S1x1_0_0 : ∀ a, (![0, 0] : Fin 2 → Nat) a + S1x1.size a ≤ S1x1.size a
  h_S1x1 : 0 < S1x1.numel
  inb_S2x4096x9_S2x4096x9_0_0_0 : ∀ a, (![0, 0, 0] : Fin 3 → Nat) a + S2x4096x9.size a ≤ S2x4096x9.size a
  h_S2x4096x9 : 0 < S2x4096x9.numel
  inb_S2x4096x2_S2x4096x2_0_0_0 : ∀ a, (![0, 0, 0] : Fin 3 → Nat) a + S2x4096x2.size a ≤ S2x4096x2.size a
  h_S2x4096x2 : 0 < S2x4096x2.numel
  shapeCasts_S2x4096x2_S2x4096x2 : S2x4096x2.ShapeCasts S2x4096x2
  inb_S2x4096x1_S2x4096x1_0_0_0 : ∀ a, (![0, 0, 0] : Fin 3 → Nat) a + S2x4096x1.size a ≤ S2x4096x1.size a
  h_S2x4096x1 : 0 < S2x4096x1.numel
  shapeCasts_S2x4096x1_S2x4096x1 : S2x4096x1.ShapeCasts S2x4096x1
  shapeCasts_S2x4096x1_S2x4096 : S2x4096x1.ShapeCasts S2x4096
  slices_S2x4096x9_o0_0_0_S2x4096x8 : S2x4096x9.Slices ![0, 0, 0] S2x4096x8
  slices_S2x4096x9_o0_0_8_S2x4096x1 : S2x4096x9.Slices ![0, 0, 8] S2x4096x1
  natLt_1_32 : 1 < 32
  slices_S2x4096x9_o0_0_0_S2x4096x6 : S2x4096x9.Slices ![0, 0, 0] S2x4096x6
  slices_S2x4096x8_o0_0_0_S2x4096x6 : S2x4096x8.Slices ![0, 0, 0] S2x4096x6
  shapeCasts_S2x4096_S2x4096x1 : S2x4096.ShapeCasts S2x4096x1
  broadcasts_S2x4096x1_S2x4096x6 : S2x4096x1.Broadcasts S2x4096x6
  reduces_S2x4096x6_S2x4096 : S2x4096x6.Reduces [2] S2x4096
  shapeCasts_S2x4096_S1x2x4096 : S2x4096.ShapeCasts S1x2x4096
  reduces_S1x2x4096_S1 : S1x2x4096.Reduces [1, 2] S1
  shapeCasts_S1_S1x1x1 : S1.ShapeCasts S1x1x1
  inpos_S1x1x1_p0_0_0 : ∀ a, (![0, 0, 0] : Fin 3 → Nat) a < S1x1x1.size a
  slices_S2x4096x9_o0_0_6_S2x4096x2 : S2x4096x9.Slices ![0, 0, 6] S2x4096x2
  slices_S2x4096x8_o0_0_6_S2x4096x2 : S2x4096x8.Slices ![0, 0, 6] S2x4096x2
  broadcasts_S2x4096x1_S2x4096x2 : S2x4096x1.Broadcasts S2x4096x2
  reduces_S2x4096x2_S2x4096 : S2x4096x2.Reduces [2] S2x4096
  reduces_S2x4096x1_S2x4096 : S2x4096x1.Reduces [2] S2x4096
  slices_S2x4096x9_o0_0_4_S2x4096x2 : S2x4096x9.Slices ![0, 0, 4] S2x4096x2
  shapeCasts_S1x1_S1x1 : S1x1.ShapeCasts S1x1
  shapeCasts_S1x1_S_ : S1x1.ShapeCasts S_
  inb_S32x1x128x128_S32x1x128x128_0_0_0_0 : ∀ a, (![0, 0, 0, 0] : Fin 4 → Nat) a + S32x1x128x128.size a ≤ S32x1x128x128.size a
  h_S32x1x128x128 : 0 < S32x1x128x128.numel
  reduces_S32x1x128x128_S32x1x128 : S32x1x128x128.Reduces [3] S32x1x128
  reduces_S32x1x128_S32x1 : S32x1x128.Reduces [2] S32x1
  shapeCasts_S32x1_S1x32x1 : S32x1.ShapeCasts S1x32x1
  reduces_S1x32x1_S1 : S1x32x1.Reduces [1, 2] S1
  gather_S256x4096x2_S256x4096x1_S256x4096x2_2_1_0_0_1_2_112_wf : GatherDims.WF S256x4096x2 S256x4096x1 S256x4096x2 [2] [1] [0] [1] [0] 2 ![1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x9.size a ≤ S256x4096x9.size a
  hwx0_0 : ∀ i : grid0.Coords, EltTy.bits .f32 = 32 ∨ (Rect.block (s := S256x4096x9) S2x4096x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x9.size a ≤ S256x4096x9.size a
  hwx0_1 : ∀ i : grid0.Coords, EltTy.bits .f32 = 32 ∨ (Rect.block (s := S256x4096x9) S2x4096x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4096x2.size a ≤ S256x4096x2.size a
  hwx0_2 : ∀ i : grid0.Coords, EltTy.bits .f32 = 32 ∨ (Rect.block (s := S256x4096x2) S2x4096x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4096x1.size a ≤ S256x4096x1.size a
  hwx0_3 : ∀ i : grid0.Coords, EltTy.bits .f32 = 32 ∨ (Rect.block (s := S256x4096x1) S2x4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x1x128x128.size a ≤ S256x1x128x128.size a
  hwx1_0 : ∀ i : grid1.Coords, EltTy.bits .f32 = 32 ∨ (Rect.block (s := S256x1x128x128) S32x1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1x128x128.size a ≤ S256x1x128x128.size a
  hwx1_1 : ∀ i : grid1.Coords, EltTy.bits .f32 = 32 ∨ (Rect.block (s := S256x1x128x128) S32x1x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def gather_S256x4096x2_S256x4096x1_S256x4096x2_2_1_0_0_1_2_112 : GatherDims S256x4096x2 S256x4096x1 S256x4096x2 where
  offsetDims := [2]
  collapsedSliceDims := [1]
  operandBatchingDims := [0]
  startIndicesBatchingDims := [0]
  startIndexMap := [1]
  indexVectorDim := 2
  sliceSizes := ![1, 1, 2]
  wf := gather_S256x4096x2_S256x4096x1_S256x4096x2_2_1_0_0_1_2_112_wf

abbrev win0_0 : Pipeline.Window sig grid0 :=
  Pipeline.Window.ofSpec (Memref.whole main_arg0) S2x4096x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4096x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2x4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2x4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_2) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_3) S1x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22_4) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg2) S32x1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x4096x9 : Shape := ⟨3, ![256, 4096, 9]⟩
abbrev S256x1x128x128 : Shape := ⟨4, ![256, 1, 128, 128]⟩
abbrev S256x4096x8 : Shape := ⟨3, ![256, 4096, 8]⟩
abbrev S256x4096x1 : Shape := ⟨3, ![256, 4096, 1]⟩
abbrev S256x4096 : Shape := ⟨2, ![256, 4096]⟩
abbrev S_ : Shape := ⟨0, ![]⟩
abbrev S256x4096x6 : Shape := ⟨3, ![256, 4096, 6]⟩
abbrev S256x4096x2 : Shape := ⟨3, ![256, 4096, 2]⟩
abbrev S4096 : Shape := ⟨1, ![4096]⟩
abbrev S1x4096 : Shape := ⟨2, ![1, 4096]⟩
abbrev S256x4095 : Shape := ⟨2, ![256, 4095]⟩
abbrev S256x1 : Shape := ⟨2, ![256, 1]⟩
abbrev S1 : Shape := ⟨1, ![1]⟩
abbrev S1x1x1 : Shape := ⟨3, ![1, 1, 1]⟩

abbrev nBuf : Space → Nat
  | .hbm => 156
  | .vmem => 0
  | .smem => 0
  | _ => 0

abbrev hbmTy0_0 (i : Nat) : BufTy := match i % 128 with
  | 0 => ⟨S256x4096x9, .f32⟩
  | 1 => ⟨S256x4096x9, .f32⟩
  | 2 => ⟨S256x1x128x128, .f32⟩
  | 3 => ⟨S256x1x128x128, .f32⟩
  | 4 => ⟨S256x4096x8, .f32⟩
  | 5 => ⟨S256x4096x1, .f32⟩
  | 6 => ⟨S256x4096, .f32⟩
  | 7 => ⟨S_, .f32⟩
  | 8 => ⟨S256x4096, .f32⟩
  | 9 => ⟨S256x4096, .i1⟩
  | 10 => ⟨S256x4096, .f32⟩
  | 11 => ⟨S_, .f32⟩
  | 12 => ⟨S_, .f32⟩
  | 13 => ⟨S256x4096x6, .f32⟩
  | 14 => ⟨S256x4096x6, .f32⟩
  | 15 => ⟨S256x4096x6, .f32⟩
  | 16 => ⟨S256x4096x6, .f32⟩
  | 17 => ⟨S256x4096x1, .f32⟩
  | 18 => ⟨S256x4096x6, .f32⟩
  | 19 => ⟨S256x4096x6, .f32⟩
  | 20 => ⟨S_, .f32⟩
  | 21 => ⟨S_, .f32⟩
  | 22 => ⟨S_, .f32⟩
  | 23 => ⟨S_, .i1⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S256x4096x2, .f32⟩
  | 33 => ⟨S256x4096x2, .f32⟩
  | 34 => ⟨S256x4096x2, .f32⟩
  | 35 => ⟨S256x4096x2, .f32⟩
  | 36 => ⟨S256x4096x1, .f32⟩
  | 37 => ⟨S256x4096x2, .f32⟩
  | 38 => ⟨S256x4096x2, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S256x4096x1, .f32⟩
  | 52 => ⟨S_, .f32⟩
  | 53 => ⟨S_, .f32⟩
  | 54 => ⟨S_, .f32⟩
  | 55 => ⟨S256x4096x1, .f32⟩
  | 56 => ⟨S256x4096x1, .f32⟩
  | 57 => ⟨S_, .f32⟩
  | 58 => ⟨S256x4096x1, .f32⟩
  | 59 => ⟨S256x4096x1, .f32⟩
  | 60 => ⟨S256x4096x1, .f32⟩
  | 61 => ⟨S256x4096x1, .f32⟩
  | 62 => ⟨S_, .f32⟩
  | 63 => ⟨S256x4096x1, .f32⟩
  | 64 => ⟨S256x4096x1, .f32⟩
  | 65 => ⟨S_, .f32⟩
  | 66 => ⟨S256x4096x1, .f32⟩
  | 67 => ⟨S256x4096x1, .f32⟩
  | 68 => ⟨S256x4096x1, .f32⟩
  | 69 => ⟨S256x4096x1, .f32⟩
  | 70 => ⟨S256x4096x1, .f32⟩
  | 71 => ⟨S256x4096x1, .f32⟩
  | 72 => ⟨S_, .f32⟩
  | 73 => ⟨S_, .f32⟩
  | 74 => ⟨S_, .f32⟩
  | 75 => ⟨S_, .f32⟩
  | 76 => ⟨S256x4096x2, .f32⟩
  | 77 => ⟨S4096, .i32⟩
  | 78 => ⟨S1x4096, .i32⟩
  | 79 => ⟨S_, .i32⟩
  | 80 => ⟨S256x4096, .i32⟩
  | 81 => ⟨S256x4096, .i32⟩
  | 82 => ⟨S256x4096, .i32⟩
  | 83 => ⟨S256x4096, .i32⟩
  | 84 => ⟨S_, .i32⟩
  | 85 => ⟨S_, .i32⟩
  | 86 => ⟨S256x4096, .i32⟩
  | 87 => ⟨S256x4096, .i32⟩
  | 88 => ⟨S256x4095, .i32⟩
  | 89 => ⟨S_, .i32⟩
  | 90 => ⟨S256x1, .i32⟩
  | 91 => ⟨S256x4096, .i32⟩
  | 92 => ⟨S_, .i32⟩
  | 93 => ⟨S256x4096, .i32⟩
  | 94 => ⟨S256x4096, .i1⟩
  | 95 => ⟨S256x4096, .i1⟩
  | 96 => ⟨S_, .i32⟩
  | 97 => ⟨S_, .i32⟩
  | 98 => ⟨S_, .i32⟩
  | 99 => ⟨S256x4096, .i32⟩
  | 100 => ⟨S256x4096, .i32⟩
  | 101 => ⟨S_, .i32⟩
  | 102 => ⟨S256x4096, .i32⟩
  | 103 => ⟨S256x4096, .i32⟩
  | 104 => ⟨S256x4096x1, .i32⟩
  | 105 => ⟨S_, .i32⟩
  | 106 => ⟨S256x4096x1, .i32⟩
  | 107 => ⟨S256x4096x1, .i1⟩
  | 108 => ⟨S_, .i32⟩
  | 109 => ⟨S256x4096x1, .i32⟩
  | 110 => ⟨S256x4096x1, .i32⟩
  | 111 => ⟨S256x4096x1, .i32⟩
  | 112 => ⟨S1, .i32⟩
  | 113 => ⟨S_, .i32⟩
  | 114 => ⟨S256x4096x1, .i32⟩
  | 115 => ⟨S256x4096x1, .i1⟩
  | 116 => ⟨S1x1x1, .i32⟩
  | 117 => ⟨S256x4096x1, .i32⟩
  | 118 => ⟨S256x4096x1, .i1⟩
  | 119 => ⟨S256x4096x1, .i1⟩
  | 120 => ⟨S_, .i1⟩
  | 121 => ⟨S256x4096, .i1⟩
  | 122 => ⟨S256x4096x2, .f32⟩
  | 123 => ⟨S256x4096x2, .i1⟩
  | 124 => ⟨S_, .f32⟩
  | 125 => ⟨S256x4096x2, .f32⟩
  | 126 => ⟨S256x4096x2, .f32⟩
  | 127 => ⟨S256x4096x2, .f32⟩
  | _ => ⟨S256x4096x9, .f32⟩

abbrev hbmTy0_1 (i : Nat) : BufTy := match i % 128 with
  | 0 => ⟨S256x4096x2, .f32⟩
  | 1 => ⟨S_, .f32⟩
  | 2 => ⟨S256x4096, .f32⟩
  | 3 => ⟨S_, .f32⟩
  | 4 => ⟨S256x4096, .f32⟩
  | 5 => ⟨S256x4096, .f32⟩
  | 6 => ⟨S256x4096, .f32⟩
  | 7 => ⟨S256x4096, .f32⟩
  | 8 => ⟨S_, .f32⟩
  | 9 => ⟨S_, .f32⟩
  | 10 => ⟨S_, .f32⟩
  | 11 => ⟨S_, .f32⟩
  | 12 => ⟨S256x1x128x128, .f32⟩
  | 13 => ⟨S256x1x128x128, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | _ => ⟨S256x4096x9, .f32⟩

abbrev hbmTy (i : Nat) : BufTy := match i / 128 with
  | 0 => hbmTy0_0 i
  | 1 => hbmTy0_1 i
  | _ => ⟨S256x4096x9, .f32⟩

abbrev bufTy : (tb : Table) → Fin (tcTables nBuf tb) → BufTy
  | .hbm, ⟨i, _⟩ => hbmTy i
  | _, _ => ⟨S256x4096x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_call1_v0 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_cst_12 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_13 : Ref sig .tc := ⟨.hbm, 62, rfl⟩
abbrev main_v37 : Ref sig .tc := ⟨.hbm, 63, rfl⟩
abbrev main_v38 : Ref sig .tc := ⟨.hbm, 64, rfl⟩
abbrev main_cst_14 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_cst_16 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c : Ref sig .tc := ⟨.hbm, 79, rfl⟩
abbrev main_call3_v0 : Ref sig .tc := ⟨.hbm, 80, rfl⟩
abbrev main_call3_v1 : Ref sig .tc := ⟨.hbm, 81, rfl⟩
abbrev main_v50 : Ref sig .tc := ⟨.hbm, 82, rfl⟩
abbrev main_v51 : Ref sig .tc := ⟨.hbm, 83, rfl⟩
abbrev main_call5_c : Ref sig .tc := ⟨.hbm, 84, rfl⟩
abbrev main_call5_v0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_17 : Ref sig .tc := ⟨.hbm, 89, rfl⟩
abbrev main_v55 : Ref sig .tc := ⟨.hbm, 90, rfl⟩
abbrev main_v56 : Ref sig .tc := ⟨.hbm, 91, rfl⟩
abbrev main_c_18 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_19 : Ref sig .tc := ⟨.hbm, 96, rfl⟩
abbrev main_c_20 : Ref sig .tc := ⟨.hbm, 97, rfl⟩
abbrev main_call7_v0 : Ref sig .tc := ⟨.hbm, 98, rfl⟩
abbrev main_call7_v1 : Ref sig .tc := ⟨.hbm, 99, rfl⟩
abbrev main_call7_v2 : Ref sig .tc := ⟨.hbm, 100, rfl⟩
abbrev main_call7_v3 : Ref sig .tc := ⟨.hbm, 101, rfl⟩
abbrev main_call7_v4 : Ref sig .tc := ⟨.hbm, 102, rfl⟩
abbrev main_v60 : Ref sig .tc := ⟨.hbm, 103, rfl⟩
abbrev main_v61 : Ref sig .tc := ⟨.hbm, 104, rfl⟩
abbrev main_call8_c : Ref sig .tc := ⟨.hbm, 105, rfl⟩
abbrev main_call8_v0 : Ref sig .tc := ⟨.hbm, 106, rfl⟩
abbrev main_call8_v1 : Ref sig .tc := ⟨.hbm, 107, rfl⟩
abbrev main_call8_c_0 : Ref sig .tc := ⟨.hbm, 108, rfl⟩
abbrev main_call8_v2 : Ref sig .tc := ⟨.hbm, 109, rfl⟩
abbrev main_call8_v3 : Ref sig .tc := ⟨.hbm, 110, rfl⟩
abbrev main_call8_v4 : Ref sig .tc := ⟨.hbm, 111, rfl⟩
abbrev main_call8_c_1 : Ref sig .tc := ⟨.hbm, 112, rfl⟩
abbrev main_call8_c_2 : Ref sig .tc := ⟨.hbm, 113, rfl⟩
abbrev main_call8_v5 : Ref sig .tc := ⟨.hbm, 114, rfl⟩
abbrev main_call8_v6 : Ref sig .tc := ⟨.hbm, 115, rfl⟩
abbrev main_call8_v7 : Ref sig .tc := ⟨.hbm, 116, rfl⟩
abbrev main_call8_v8 : Ref sig .tc := ⟨.hbm, 117, rfl⟩
abbrev main_call8_v9 : Ref sig .tc := ⟨.hbm, 118, rfl⟩
abbrev main_call8_v10 : Ref sig .tc := ⟨.hbm, 119, rfl⟩
abbrev main_call8_c_3 : Ref sig .tc := ⟨.hbm, 120, rfl⟩
abbrev main_call8_v11 : Ref sig .tc := ⟨.hbm, 121, rfl⟩
abbrev main_call8_v12 : Ref sig .tc := ⟨.hbm, 122, rfl⟩
abbrev main_call8_v13 : Ref sig .tc := ⟨.hbm, 123, rfl⟩
abbrev main_call8_cst : Ref sig .tc := ⟨.hbm, 124, rfl⟩
abbrev main_call8_v14 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_cst_21 : Ref sig .tc := ⟨.hbm, 129, rfl⟩
abbrev main_v65 : Ref sig .tc := ⟨.hbm, 130, rfl⟩
abbrev main_cst_22 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_23 : Ref sig .tc := ⟨.hbm, 136, rfl⟩
abbrev main_v70 : Ref sig .tc := ⟨.hbm, 137, rfl⟩
abbrev main_cst_24 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_25 : Ref sig .tc := ⟨.hbm, 142, rfl⟩
abbrev main_v74 : Ref sig .tc := ⟨.hbm, 143, rfl⟩
abbrev main_cst_26 : Ref sig .tc := ⟨.hbm, 144, rfl⟩
abbrev main_v75 : Ref sig .tc := ⟨.hbm, 145, rfl⟩
abbrev main_v76 : Ref sig .tc := ⟨.hbm, 146, rfl⟩
abbrev main_cst_27 : Ref sig .tc := ⟨.hbm, 147, rfl⟩
abbrev main_v77 : Ref sig .tc := ⟨.hbm, 148, rfl⟩
abbrev main_v78 : Ref sig .tc := ⟨.hbm, 149, rfl⟩
abbrev main_cst_28 : Ref sig .tc := ⟨.hbm, 150, rfl⟩
abbrev main_v79 : Ref sig .tc := ⟨.hbm, 151, rfl⟩
abbrev main_v80 : Ref sig .tc := ⟨.hbm, 152, rfl⟩
abbrev main_cst_29 : Ref sig .tc := ⟨.hbm, 153, rfl⟩
abbrev main_v81 : Ref sig .tc := ⟨.hbm, 154, rfl⟩
abbrev main_v82 : Ref sig .tc := ⟨.hbm, 155, rfl⟩

abbrev nD : Nat := 1
abbrev τ : Topo := Topo.v7x

variable {F : FTy → Type} [FloatOps F]

class Facts₀ : Prop where
  slices_S256x4096x9_S256x4096x8_0_0_0 : S256x4096x9.Slices ![0, 0, 0] S256x4096x8
  slices_S256x4096x9_S256x4096x1_0_0_8 : S256x4096x9.Slices ![0, 0, 8] S256x4096x1
  shapeCasts_S256x4096x1_S256x4096 : S256x4096x1.ShapeCasts S256x4096
  bcast_S_S256x4096 : S_.BroadcastsInDim S256x4096 (![] : Fin 0 → Fin S256x4096.rank)
  reducesTo_S256x4096_S_d0_1 : S256x4096.ReducesTo [0, 1] S_
  h_S_ : 0 < S_.numel
  slices_S256x4096x9_S256x4096x6_0_0_0 : S256x4096x9.Slices ![0, 0, 0] S256x4096x6
  slices_S256x4096x8_S256x4096x6_0_0_0 : S256x4096x8.Slices ![0, 0, 0] S256x4096x6
  bcast_S256x4096_S256x4096x1_0_1 : S256x4096.BroadcastsInDim S256x4096x1 (![0, 1] : Fin 2 → Fin S256x4096x1.rank)
  bcast_S256x4096x1_S256x4096x6_0_1_2 : S256x4096x1.BroadcastsInDim S256x4096x6 (![0, 1, 2] : Fin 3 → Fin S256x4096x6.rank)
  reducesTo_S256x4096x6_S_d0_1_2 : S256x4096x6.ReducesTo [0, 1, 2] S_
  slices_S256x4096x9_S256x4096x2_0_0_6 : S256x4096x9.Slices ![0, 0, 6] S256x4096x2
  slices_S256x4096x8_S256x4096x2_0_0_6 : S256x4096x8.Slices ![0, 0, 6] S256x4096x2
  bcast_S256x4096x1_S256x4096x2_0_1_2 : S256x4096x1.BroadcastsInDim S256x4096x2 (![0, 1, 2] : Fin 3 → Fin S256x4096x2.rank)
  reducesTo_S256x4096x2_S_d0_1_2 : S256x4096x2.ReducesTo [0, 1, 2] S_
  bcast_S_S256x4096x1 : S_.BroadcastsInDim S256x4096x1 (![] : Fin 0 → Fin S256x4096x1.rank)
  reducesTo_S256x4096x1_S_d0_1_2 : S256x4096x1.ReducesTo [0, 1, 2] S_
  slices_S256x4096x9_S256x4096x2_0_0_4 : S256x4096x9.Slices ![0, 0, 4] S256x4096x2
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S_S_ : S_.BroadcastsInDim S_ (![] : Fin 0 → Fin S_.rank)
  reduceWindows_S256x4096_S256x4096_w1s1p0_0_w4096s1p4095_0 : S256x4096.ReduceWindows (![1, 4096] : Fin 2 → Nat) ![1, 1] ![0, 4095] ![0, 0] S256x4096
  slices_S256x4096_S256x4095_0_1 : S256x4096.Slices ![0, 1] S256x4095
  bcast_S_S256x1 : S_.BroadcastsInDim S256x1 (![] : Fin 0 → Fin S256x1.rank)
  concatenates_S256x4095_S256x1_S256x4096_d1 : Shape.Concatenates [S256x4095, S256x1] S256x4096 1
  bcast_S1_S1x1x1_2 : S1.BroadcastsInDim S1x1x1 (![2] : Fin 1 → Fin S1x1x1.rank)
  bcast_S1x1x1_S256x4096x1_0_1_2 : S1x1x1.BroadcastsInDim S256x4096x1 (![0, 1, 2] : Fin 3 → Fin S256x4096x1.rank)
  reducesTo_S256x4096x1_S256x4096_d2 : S256x4096x1.ReducesTo [2] S256x4096
  bcast_S256x4096_S256x4096x2_0_1 : S256x4096.BroadcastsInDim S256x4096x2 (![0, 1] : Fin 2 → Fin S256x4096x2.rank)
  bcast_S_S256x4096x2 : S_.BroadcastsInDim S256x4096x2 (![] : Fin 0 → Fin S256x4096x2.rank)
  reducesTo_S256x4096x2_S256x4096_d2 : S256x4096x2.ReducesTo [2] S256x4096
  reducesTo_S256x1x128x128_S_d0_1_2_3 : S256x1x128x128.ReducesTo [0, 1, 2, 3] S_
  gather_S256x4096x2_S256x4096x1_S256x4096x2_2_1_0_0_1_2_112_wf : GatherDims.WF S256x4096x2 S256x4096x1 S256x4096x2 [2] [1] [0] [1] [0] 2 ![1, 1, 2]

variable [Facts₀]

def gather_S256x4096x2_S256x4096x1_S256x4096x2_2_1_0_0_1_2_112 : GatherDims S256x4096x2 S256x4096x1 S256x4096x2 where
  offsetDims := [2]
  collapsedSliceDims := [1]
  operandBatchingDims := [0]
  startIndicesBatchingDims := [0]
  startIndexMap := [1]
  indexVectorDim := 2
  sliceSizes := ![1, 1, 2]
  wf := gather_S256x4096x2_S256x4096x1_S256x4096x2_2_1_0_0_1_2_112_wf

class Facts : Prop extends Facts₀ where

variable [Facts]
-- ==== Proof.KRun.lean ====
/-
  The idealized kernel's run with its result named.

  @main is a chain of host stretches and two kernel regions; the launch theorem for such a chain gives every weakly fair
  execution a final state in which every buffer that outlives the regions holds the contents of the last segment
  boundary. The generated frame reads only the four argument arrays out of that state; read here is also the result
  buffer: it ends at the last boundary's contents at that buffer, which the later modules compute.
-/
import proofs.«162210_j73057393705419_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the four argument arrays as launched. -/
theorem run_value : θ_run defs (onTc (τ := τ) (main (F := F))) ⟨m, fun _ => 0, ρ⟩ (fun r => ∀ c : Dev nD,
      r.2.mem ((c.tc : Thread nD τ).loc main_v49) = W18 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v49 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c)⟩)

end Cert.KernelIdeal.KRun

end
-- ==== Proof.Reg0Body.lean ====
/-
  The first kernel (the five sums over predictions and targets), one grid point at a time.

  Its body loads a block of two batch rows of the predictions, of the targets, of the gathered next-slot channels and of
  the pair-validity mask, forms five block sums — of the masked coordinate differences, of the masked width differences,
  of the cross-entropy terms, of the validity mask and of the continuity terms — and adds each to its own one-entry
  accumulator; at the first grid point the five accumulators are first set to zero. So each accumulator ends a later
  point at `acc + s` and the first point at `0-block + s`, `s` its block sum: below, one lemma per accumulator and case,
  each naming the pure term of the input blocks (and of the accumulator's previous contents) that the body stored.
-/
import proofs.«162210_j73057393705419_2_alg».proof.Proof.Gen.KernelIdeal.Frame
import Idealize.ShloMosaic.Lib.Pipeline.Value
import Idealize.ShloMosaic.Lib.Tactic

set_option maxRecDepth 16384

noncomputable section

namespace Cert.KernelIdeal.Reg0

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later grid point, the accumulator of the masked coordinate differences: its previous contents plus the block's sum. -/
theorem out_later_4 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : ¬cond0_0 i) (x0 x1 : Vec F S2x4096x9 .f32) (x2 : Vec F S2x4096x2 .f32) (x3 : Vec F S2x4096x1 .f32) (xo4 xo5 xo6 xo7 xo8 : Vec F S1x1 .f32) :
    out0_B_4 c i a1 h1 a2 h2 a3 h3 a4 h4 a5 h5 a6 h6 a7 h7 a8 h8 a9 h9 hc x0 x1 x2 x3 xo4 xo5 xo6 xo7 xo8 = k0_pay21 (k0_pay15 x0 x1) xo4 := by
  unfold out0_B_4
  rw [View.read_writes_eq_canon _ _ _ (cover0_B_4 c i a1 h1 a2 h2 a3 h3 a4 h4 a5 h5 a6 h6 a7 h7 a8 h8 a9 h9 hc x0 x1 x2 x3 xo4 xo5 xo6 xo7 xo8)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- The first grid point, the accumulator of the masked coordinate differences: the zero block plus the block's sum. -/
theorem out_first_4 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : cond0_0 i) (x0 x1 : Vec F S2x4096x9 .f32) (x2 : Vec F S2x4096x2 .f32) (x3 : Vec F S2x4096x1 .f32) :
    out0_A_4 c i a1 h1 a2 h2 a3 h3 a4 h4 a5 h5 a6 h6 a7 h7 a8 h8 a9 h9 hc x0 x1 x2 x3 = k0_pay21 (k0_pay15 x0 x1) (k0_pay5 (F := F)) := by
  unfold out0_A_4
  rw [View.read_writes_eq_canon _ _ _ (cover0_A_4 c i a1 h1 a2 h2 a3 h3 a4 h4 a5 h5 a6 h6 a7 h7 a8 h8 a9 h9 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- A later grid point, the accumulator of the masked width differences: its previous contents plus the block's sum. -/
theorem out_later_5 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : ¬cond0_0 i) (x0 x1 : Vec F S2x4096x9 .f32) (x2 : Vec F S2x4096x2 .f32) (x3 : Vec F S2x4096x1 .f32) (xo4 xo5 xo6 xo7 xo8 : Vec F S1x1 .f32) :
    out0_B_5 c i a1 h1 a2 h2 a3 h3 a4 h4 a5 h5 a6 h6 a7 h7 a8 h8 a9 h9 hc x0 x1 x2 x3 xo4 xo5 xo6 xo7 xo8 = k0_pay1 (k0_pay17 (k0_pay16 x0 x1)) xo5 := by
  unfold out0_B_5
  rw [View.read_writes_eq_canon _ _ _ (cover0_B_5 c i a1 h1 a2 h2 a3 h3 a4 h4 a5 h5 a6 h6 a7 h7 a8 h8 a9 h9 hc x0 x1 x2 x3 xo4 xo5 xo6 xo7 xo8)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- The first grid point, the accumulator of the masked width differences: the zero block plus the block's sum. -/
theorem out_first_5 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : cond0_0 i) (x0 x1 : Vec F S2x4096x9 .f32) (x2 : Vec F S2x4096x2 .f32) (x3 : Vec F S2x4096x1 .f32) :
    out0_A_5 c i a1 h1 a2 h2 a3 h3 a4 h4 a5 h5 a6 h6 a7 h7 a8 h8 a9 h9 hc x0 x1 x2 x3 = k0_pay1 (k0_pay17 (k0_pay16 x0 x1)) (k0_pay6 (F := F)) := by
  unfold out0_A_5
  rw [View.read_writes_eq_canon _ _ _ (cover0_A_5 c i a1 h1 a2 h2 a3 h3 a4 h4 a5 h5 a6 h6 a7 h7 a8 h8 a9 h9 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- A later grid point, the accumulator of the cross-entropy terms: its previous contents plus the block's sum. -/
theorem out_later_6 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : ¬cond0_0 i) (x0 x1 : Vec F S2x4096x9 .f32) (x2 : Vec F S2x4096x2 .f32) (x3 : Vec F S2x4096x1 .f32) (xo4 xo5 xo6 xo7 xo8 : Vec F S1x1 .f32) :
    out0_B_6 c i a1 h1 a2 h2 a3 h3 a4 h4 a5 h5 a6 h6 a7 h7 a8 h8 a9 h9 hc x0 x1 x2 x3 xo4 xo5 xo6 xo7 xo8 = k0_pay2 (k0_pay18 x0 (k0_pay13 x1)) xo6 := by
  unfold out0_B_6
  rw [View.read_writes_eq_canon _ _ _ (cover0_B_6 c i a1 h1 a2 h2 a3 h3 a4 h4 a5 h5 a6 h6 a7 h7 a8 h8 a9 h9 hc x0 x1 x2 x3 xo4 xo5 xo6 xo7 xo8)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- The first grid point, the accumulator of the cross-entropy terms: the zero block plus the block's sum. -/
theorem out_first_6 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : cond0_0 i) (x0 x1 : Vec F S2x4096x9 .f32) (x2 : Vec F S2x4096x2 .f32) (x3 : Vec F S2x4096x1 .f32) :
    out0_A_6 c i a1 h1 a2 h2 a3 h3 a4 h4 a5 h5 a6 h6 a7 h7 a8 h8 a9 h9 hc x0 x1 x2 x3 = k0_pay2 (k0_pay18 x0 (k0_pay13 x1)) (k0_pay7 (F := F)) := by
  unfold out0_A_6
  rw [View.read_writes_eq_canon _ _ _ (cover0_A_6 c i a1 h1 a2 h2 a3 h3 a4 h4 a5 h5 a6 h6 a7 h7 a8 h8 a9 h9 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- A later grid point, the accumulator of the validity mask: its previous contents plus the block's sum. -/
theorem out_later_7 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : ¬cond0_0 i) (x0 x1 : Vec F S2x4096x9 .f32) (x2 : Vec F S2x4096x2 .f32) (x3 : Vec F S2x4096x1 .f32) (xo4 xo5 xo6 xo7 xo8 : Vec F S1x1 .f32) :
    out0_B_7 c i a1 h1 a2 h2 a3 h3 a4 h4 a5 h5 a6 h6 a7 h7 a8 h8 a9 h9 hc x0 x1 x2 x3 xo4 xo5 xo6 xo7 xo8 = k0_pay3 (k0_pay19 (k0_pay14 x1)) xo7 := by
  unfold out0_B_7
  rw [View.read_writes_eq_canon _ _ _ (cover0_B_7 c i a1 h1 a2 h2 a3 h3 a4 h4 a5 h5 a6 h6 a7 h7 a8 h8 a9 h9 hc x0 x1 x2 x3 xo4 xo5 xo6 xo7 xo8)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- The first grid point, the accumulator of the validity mask: the zero block plus the block's sum. -/
theorem out_first_7 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : cond0_0 i) (x0 x1 : Vec F S2x4096x9 .f32) (x2 : Vec F S2x4096x2 .f32) (x3 : Vec F S2x4096x1 .f32) :
    out0_A_7 c i a1 h1 a2 h2 a3 h3 a4 h4 a5 h5 a6 h6 a7 h7 a8 h8 a9 h9 hc x0 x1 x2 x3 = k0_pay3 (k0_pay19 (k0_pay14 x1)) (k0_pay8 (F := F)) := by
  unfold out0_A_7
  rw [View.read_writes_eq_canon _ _ _ (cover0_A_7 c i a1 h1 a2 h2 a3 h3 a4 h4 a5 h5 a6 h6 a7 h7 a8 h8 a9 h9 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- A later grid point, the accumulator of the continuity terms: its previous contents plus the block's sum. -/
theorem out_later_8 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : ¬cond0_0 i) (x0 x1 : Vec F S2x4096x9 .f32) (x2 : Vec F S2x4096x2 .f32) (x3 : Vec F S2x4096x1 .f32) (xo4 xo5 xo6 xo7 xo8 : Vec F S1x1 .f32) :
    out0_B_8 c i a1 h1 a2 h2 a3 h3 a4 h4 a5 h5 a6 h6 a7 h7 a8 h8 a9 h9 hc x0 x1 x2 x3 xo4 xo5 xo6 xo7 xo8 = k0_pay4 (k0_pay20 x0 (k0_pay10 x2) (k0_pay11 x3)) xo8 := by
  unfold out0_B_8
  rw [View.read_writes_eq_canon _ _ _ (cover0_B_8 c i a1 h1 a2 h2 a3 h3 a4 h4 a5 h5 a6 h6 a7 h7 a8 h8 a9 h9 hc x0 x1 x2 x3 xo4 xo5 xo6 xo7 xo8)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

/-- The first grid point, the accumulator of the continuity terms: the zero block plus the block's sum. -/
theorem out_first_8 (c : Dev nD) (i : grid0.Coords) (a1 : Memref sig .tc .vmem S2x4096x9 .f32) (h1 : a1.IsWhole) (a2 : Memref sig .tc .vmem S2x4096x9 .f32) (h2 : a2.IsWhole) (a3 : Memref sig .tc .vmem S2x4096x2 .f32) (h3 : a3.IsWhole) (a4 : Memref sig .tc .vmem S2x4096x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc : cond0_0 i) (x0 x1 : Vec F S2x4096x9 .f32) (x2 : Vec F S2x4096x2 .f32) (x3 : Vec F S2x4096x1 .f32) :
    out0_A_8 c i a1 h1 a2 h2 a3 h3 a4 h4 a5 h5 a6 h6 a7 h7 a8 h8 a9 h9 hc x0 x1 x2 x3 = k0_pay4 (k0_pay20 x0 (k0_pay10 x2) (k0_pay11 x3)) (k0_pay9 (F := F)) := by
  unfold out0_A_8
  rw [View.read_writes_eq_canon _ _ _ (cover0_A_8 c i a1 h1 a2 h2 a3 h3 a4 h4 a5 h5 a6 h6 a7 h7 a8 h8 a9 h9 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread,
    h7.read_unread, h8.read_unread, h9.read_unread, View.ld_unit_zero (S := S2x4096x9) hz3, View.ld_unit_zero (S := S2x4096x2) hz3,
    View.ld_unit_zero (S := S2x4096x1) hz3, View.ld_unit_zero (S := S1x1) hz2]

end Cert.KernelIdeal.Reg0

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.LossTerms.lean ====
/-
  The six totals of the loss, entry by entry, over the extended reals.

  Arrays: `x0` = predictions and `x1` = targets, both [256, 4096, 9]; `nx` [256, 4096, 2], the prediction's channels 4..5
  gathered at each slot's next valid slot; `pv` [256, 4096], 1 where a slot is valid and has a next valid slot, else 0;
  `r`, `g` [256, 1, 128, 128], the reconstruction and the image.

  With `msk = 1` where the target's channel 8 exceeds 1/2 (else 0), per batch row `B` and slot `m`:
    coordinate term (channel k < 6)   |x0[B,m,k] − x1[B,m,k]| · msk
    width term (channel 6 + k, k < 2) |x0[B,m,6+k] − x1[B,m,6+k]| · msk
    cross-entropy term                −(t·log p + (1 − t)·log(1 − p)),  t = x1[B,m,8],  p = x0[B,m,8] clipped to [ε, 1 − ε]
    count term                        msk
    continuity term                   ((0 + Σ_{k<2} |x0[B,m,4+k] − nx[B,m,k]|) / 2) · pv[B,m]
  and per pixel the squared error (r − g)². Each total is `0 +` the sum of its term over every index.
  The literals are kept as float words: the same word reads the same on both sides and is never evaluated.
-/
import Idealize.ShloMosaic.PureOps
import Idealize.ShloMosaic.Lib.ValueIdx

noncomputable section

namespace Cert.Loss

open Idealize.ShloMosaic Idealize.ShloMosaic.ValueIdx

abbrev A9 : Shape := ⟨3, ![256, 4096, 9]⟩
abbrev A6 : Shape := ⟨3, ![256, 4096, 6]⟩
abbrev A2 : Shape := ⟨3, ![256, 4096, 2]⟩
abbrev A1 : Shape := ⟨3, ![256, 4096, 1]⟩
abbrev M2 : Shape := ⟨2, ![256, 4096]⟩
abbrev Img : Shape := ⟨4, ![256, 1, 128, 128]⟩

/-- Channel `o + k` of the nine. -/
abbrev ch (o : Nat) {n : Nat} (k : Fin n) (h : o + n ≤ 9) : Fin 9 := ⟨o + k.val, by have := k.isLt; omega⟩

/-- The float words of 0, 1/2, 1, 2, ε = 1e-7 and 1 − ε, read as extended reals. -/
abbrev zero : Ideal .f32 := Ideal.ofBits .f32 0x00000000#32
abbrev half : Ideal .f32 := Ideal.ofBits .f32 0x3F000000#32
abbrev one : Ideal .f32 := Ideal.ofBits .f32 0x3F800000#32
abbrev two : Ideal .f32 := Ideal.ofBits .f32 0x40000000#32
abbrev epsLo : Ideal .f32 := Ideal.ofBits .f32 0x33D6BF95#32
abbrev epsHi : Ideal .f32 := Ideal.ofBits .f32 0x3F7FFFFE#32

/-- 1 where `v > 1/2`, else 0: the comparison's bit read as an unsigned integer. -/
def msk (v : Ideal .f32) : Ideal .f32 := FloatOps.uitofp (F := Ideal) .f32 (FloatOps.cmpf (F := Ideal) .ogt v half)

variable (x0 x1 : A9.Idx → Ideal .f32) (nx : A2.Idx → Ideal .f32) (pv : M2.Idx → Ideal .f32) (r g : Img.Idx → Ideal .f32)

/-- |a − b| on the extended reals. -/
abbrev adiff (a b : Ideal .f32) : Ideal .f32 := max (a - b) (-(a - b))

def coordT (B : Fin 256) (m : Fin 4096) (k : Fin 6) : Ideal .f32 :=
  adiff (x0 (ix3 B m (ch 0 k (by omega)))) (x1 (ix3 B m (ch 0 k (by omega)))) * msk (x1 (ix3 B m 8))

def widthT (B : Fin 256) (m : Fin 4096) (k : Fin 2) : Ideal .f32 :=
  adiff (x0 (ix3 B m (ch 6 k (by omega)))) (x1 (ix3 B m (ch 6 k (by omega)))) * msk (x1 (ix3 B m 8))

/-- The clipped probability. -/
abbrev clipP (v : Ideal .f32) : Ideal .f32 := min epsHi (max epsLo v)

def bceT (B : Fin 256) (m : Fin 4096) : Ideal .f32 :=
  -(x1 (ix3 B m 8) * Ideal.log (clipP (x0 (ix3 B m 8))) + (one - x1 (ix3 B m 8)) * Ideal.log (one - clipP (x0 (ix3 B m 8))))

def nvT (B : Fin 256) (m : Fin 4096) : Ideal .f32 := msk (x1 (ix3 B m 8))

def contT (B : Fin 256) (m : Fin 4096) : Ideal .f32 :=
  Ideal.div (zero + ∑ k : Fin 2, adiff (x0 (ix3 B m (ch 4 k (by omega)))) (nx (ix3 B m k))) two * pv (ix2 B m)

def sqT (j : Img.Idx) : Ideal .f32 := (r j - g j) * (r j - g j)

/-- The six totals. -/
def totCoord : Ideal .f32 := zero + ∑ j : A6.Idx, coordT x0 x1 (j 0) (j 1) (j 2)
def totWidth : Ideal .f32 := zero + ∑ j : A2.Idx, widthT x0 x1 (j 0) (j 1) (j 2)
def totBce : Ideal .f32 := zero + ∑ j : A1.Idx, bceT x0 x1 (j 0) (j 1)
def totValid : Ideal .f32 := zero + ∑ j : M2.Idx, nvT x1 (j 0) (j 1)
def totCont : Ideal .f32 := zero + ∑ j : M2.Idx, contT x0 nx pv (j 0) (j 1)
def totSq : Ideal .f32 := zero + ∑ j : Img.Idx, sqT r g j

end Cert.Loss

end
-- ==== Proof.IdealScalars.lean ====
/-
  Four facts about the extended reals behind the loss's literals: a comparison bit widened and read signed is the bit
  read unsigned; multiplying by the word of 1/2 is dividing by the word of 2; the word of 0 is the neutral element.
-/
import Idealize.ShloMosaic.PureOps
import Idealize.ShloMosaic.PureOps.Ideal.Laws
import proofs.«162210_j73057393705419_2_alg».proof.Proof.LossTerms

noncomputable section

namespace Cert.Loss

open Idealize.ShloMosaic

/-- A one-bit word zero-extended to 32 bits and read as a signed integer is the bit read as an unsigned integer:
    both are `0` or `1`. -/
theorem sitofp_extui_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    rcases BitVec.eq_zero_or_eq_one b with rfl | rfl <;> decide
  rw [h, Int.cast_natCast]

/-- The float word `0x40000000` denotes the real number 2. -/
theorem two_eq : two = ((2 : ℝ) : EReal) := by
  simp [Ideal.ofBits, Ideal.ieee, -EReal.coe_mul]
  norm_num

/-- The float word `0x3F000000` denotes the real number 1/2. -/
theorem half_eq : half = ((1 / 2 : ℝ) : EReal) := by
  simp [Ideal.ofBits, Ideal.ieee, -EReal.coe_mul]
  norm_num

/-- Multiplying by 1/2 is dividing by 2, at the infinities too. -/
theorem mul_half_eq_div_two (x : Ideal .f32) : x * half = Ideal.div x two := by
  rw [two_eq, half_eq]
  exact (Ideal.div_coe (by norm_num) x).symm

/-- The float word `0x00000000` denotes 0. -/
theorem zero_eq : zero = (0 : EReal) := Ideal.ofBits_zero_f32

/-- `0 − x = −x`. -/
theorem zero_sub (x : Ideal .f32) : zero - x = -x := by
  rw [zero_eq]; exact _root_.zero_sub x

/-- `0 + x = x`. -/
theorem zero_add' (x : Ideal .f32) : zero + x = x := by
  rw [zero_eq]; exact _root_.zero_add x

end Cert.Loss

end
-- ==== Proof.Reg0Sum.lean ====
/-
  The first kernel's five block sums, read on the extended reals.

  At a grid point the body holds a block of two batch rows: `x0` (predictions) and `x1` (targets), both [2,4096,9], `x2`
  (the gathered next-slot channels, [2,4096,2]) and `x3` (the pair-validity mask, [2,4096,1]). Each of its five sums is
  formed the same way: a sum along the channel axis where there is one, the [2,4096] array recast as [1,2,4096], a sum
  of that to one entry, added to the accumulator. On the extended reals every reduction is the plain sum of its entries,
  so the value stored is the accumulator's previous entry plus Σ_{b<2} Σ_{m<4096} of:
    coordinates   Σ_{k<6} |x0[b,m,k] − x1[b,m,k]| · msk(x1[b,m,8])
    widths        Σ_{k<2} |x0[b,m,6+k] − x1[b,m,6+k]| · msk(x1[b,m,8])
    cross-entropy Σ_{u<1} (0 − (t·log p + (1 − t)·log(1 − p))),  t = x1[b,m,8], p = x0[b,m,8] clipped
    valid count   msk(x1[b,m,8])
    continuity    ((Σ_{k<2} |x0[b,m,4+k] − x2[b,m,k]|) · ½) · x3[b,m,0]
  where msk is 1 above ½ and 0 otherwise: the body's comparison bit, zero-extended to 32 bits and read as a signed
  integer, is the bit read unsigned.
-/
import proofs.«162210_j73057393705419_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«162210_j73057393705419_2_alg».proof.Proof.LibIdxSums
import proofs.«162210_j73057393705419_2_alg».proof.Proof.IdealScalars

set_option maxRecDepth 16384

noncomputable section

namespace Cert.KernelIdeal.Reg0

open Idealize.ShloMosaic Idealize.ShloMosaic.ValueIdx
open Cert.KernelIdeal Cert.KernelIdeal.Gen

/-- Two indices of a one-entry vector are equal. -/
theorem idx1_eq (a b : (⟨1, ![1]⟩ : Shape).Idx) : a = b := funext fun d => Fin.ext (by
  match d with
  | ⟨0, _⟩ =>
    have h1 : (a 0 : Nat) < 1 := (a 0).isLt
    have h2 : (b 0 : Nat) < 1 := (b 0).isLt
    show (a 0 : Nat) = (b 0 : Nat)
    omega)

/-- A one-entry vector recast as [1,1,1] and read at its one position is its entry. -/
theorem extract_unit {α : Type} (v : (⟨1, ![1]⟩ : Shape).Idx → α) (h : (⟨1, ![1]⟩ : Shape).ShapeCasts ⟨3, ![1, 1, 1]⟩)
    (h' : ∀ a, (![0, 0, 0] : Fin 3 → Nat) a < (⟨3, ![1, 1, 1]⟩ : Shape).size a) :
    extractAt ![0, 0, 0] (shapeCast ⟨3, ![1, 1, 1]⟩ v h) h' = v (ix1 0) := by
  unfold extractAt shapeCast
  exact congrArg v (idx1_eq _ _)

/-- Channels `o … o+n-1` of a [2,4096,c] block, read at (b, m, k): the block at (b, m, o + k). -/
theorem slice_last {α : Type} {c n : Nat} (o : Nat) (x : (⟨3, ![2, 4096, c]⟩ : Shape).Idx → α)
    (h : (⟨3, ![2, 4096, c]⟩ : Shape).Slices ![0, 0, o] ⟨3, ![2, 4096, n]⟩) (b : Fin 2) (m : Fin 4096) (k : Fin n) (hk : o + k.val < c) :
    extractStridedSlice ⟨3, ![2, 4096, n]⟩ ![0, 0, o] x h (ix3 b m k) = x (ix3 b m ⟨o + k.val, hk⟩) :=
  extractStridedSlice_apply _ x h _ _ (fun a => by
    match a with
    | ⟨0, _⟩ => show b.val = 0 + b.val; omega
    | ⟨1, _⟩ => show m.val = 0 + m.val; omega
    | ⟨2, _⟩ => rfl)

/-- A [2,4096] array recast with a trailing unit axis, read at (b, m, u): the array at (b, m). -/
theorem cast_add_last {α : Type} (v : (⟨2, ![2, 4096]⟩ : Shape).Idx → α) (h : (⟨2, ![2, 4096]⟩ : Shape).ShapeCasts ⟨3, ![2, 4096, 1]⟩)
    (b : Fin 2) (m : Fin 4096) (u : Fin 1) : shapeCast ⟨3, ![2, 4096, 1]⟩ v h (ix3 b m u) = v (ix2 b m) :=
  shapeCast_apply v h _ _ (by
    have hu : u.val = 0 := by omega
    rw [Shape.rowMajor_val_three, Shape.rowMajor_val_two]
    show b.val * 4096 + m.val = (b.val * 4096 + m.val) * 1 + u.val
    omega)

/-- A [2,4096,1] array with its trailing unit axis dropped, read at (b, m): the array at (b, m, 0). -/
theorem cast_drop_last {α : Type} (v : (⟨3, ![2, 4096, 1]⟩ : Shape).Idx → α) (h : (⟨3, ![2, 4096, 1]⟩ : Shape).ShapeCasts ⟨2, ![2, 4096]⟩)
    (b : Fin 2) (m : Fin 4096) : shapeCast ⟨2, ![2, 4096]⟩ v h (ix2 b m) = v (ix3 b m 0) :=
  shapeCast_apply v h _ _ (by
    rw [Shape.rowMajor_val_three, Shape.rowMajor_val_two]
    show (b.val * 4096 + m.val) * 1 + 0 = b.val * 4096 + m.val
    omega)

/-- A [2,4096,1] column spread over n channels, read at (b, m, k): the column at (b, m, 0). -/
theorem bcast_last {α : Type} {n : Nat} (v : (⟨3, ![2, 4096, 1]⟩ : Shape).Idx → α)
    (h : (⟨3, ![2, 4096, 1]⟩ : Shape).Broadcasts ⟨3, ![2, 4096, n]⟩) (b : Fin 2) (m : Fin 4096) (k : Fin n) :
    broadcastTo ⟨3, ![2, 4096, n]⟩ v h (ix3 b m k) = v (ix3 b m 0) :=
  broadcastTo_apply v h _ _ (fun a => by
    match a with
    | ⟨0, _⟩ => rfl
    | ⟨1, _⟩ => rfl
    | ⟨2, _⟩ => rfl)

/-- The sum over the last axis of a S2x4096x6 array, read at an index: the sum of the entries along that axis. -/
theorem lane6 (v : FVec Ideal S2x4096x6 .f32) (hφ : FKind.Formats .f32) (hacc : (0x00000000#32 : BitVec 32) = FKind.add.neutral .f32 hφ) (c0 : Fin 2) (c1 : Fin 4096) :
    multiReduction .add [2] S2x4096 v 0x00000000#32 reduces_S2x4096x6_S2x4096 hφ hacc (ix2 c0 c1) = ∑ k : Fin 6, v (ix3 c0 c1 k) :=
  (Ideal.multiReduction_add_single v _ reduces_S2x4096x6_S2x4096 hφ hacc (ix2 c0 c1)).trans
    (Finset.sum_congr rfl fun k _ => congrArg v (funext fun d => Fin.ext (by match d with | ⟨0, _⟩ => rfl | ⟨1, _⟩ => rfl | ⟨2, _⟩ => rfl)))

/-- The sum over the last axis of a S2x4096x2 array, read at an index: the sum of the entries along that axis. -/
theorem lane2 (v : FVec Ideal S2x4096x2 .f32) (hφ : FKind.Formats .f32) (hacc : (0x00000000#32 : BitVec 32) = FKind.add.neutral .f32 hφ) (c0 : Fin 2) (c1 : Fin 4096) :
    multiReduction .add [2] S2x4096 v 0x00000000#32 reduces_S2x4096x2_S2x4096 hφ hacc (ix2 c0 c1) = ∑ k : Fin 2, v (ix3 c0 c1 k) :=
  (Ideal.multiReduction_add_single v _ reduces_S2x4096x2_S2x4096 hφ hacc (ix2 c0 c1)).trans
    (Finset.sum_congr rfl fun k _ => congrArg v (funext fun d => Fin.ext (by match d with | ⟨0, _⟩ => rfl | ⟨1, _⟩ => rfl | ⟨2, _⟩ => rfl)))

/-- The sum over the last axis of a S2x4096x1 array, read at an index: the sum of the entries along that axis. -/
theorem lane1 (v : FVec Ideal S2x4096x1 .f32) (hφ : FKind.Formats .f32) (hacc : (0x00000000#32 : BitVec 32) = FKind.add.neutral .f32 hφ) (c0 : Fin 2) (c1 : Fin 4096) :
    multiReduction .add [2] S2x4096 v 0x00000000#32 reduces_S2x4096x1_S2x4096 hφ hacc (ix2 c0 c1) = ∑ k : Fin 1, v (ix3 c0 c1 k) :=
  (Ideal.multiReduction_add_single v _ reduces_S2x4096x1_S2x4096 hφ hacc (ix2 c0 c1)).trans
    (Finset.sum_congr rfl fun k _ => congrArg v (funext fun d => Fin.ext (by match d with | ⟨0, _⟩ => rfl | ⟨1, _⟩ => rfl | ⟨2, _⟩ => rfl)))

/-- The common tail of the five sums: the accumulator's entry plus the total of a [1,2,4096] array. -/
theorem acc_total (w : FVec Ideal S1x2x4096 .f32) (xo : Vec Ideal S1x1 .f32) (hφ : FKind.Formats .f32)
    (hacc : (0x00000000#32 : BitVec 32) = FKind.add.neutral .f32 hφ) (h1 : S1x1.ShapeCasts S1x1) (h2 : S1.ShapeCasts S1x1x1)
    (h3 : ∀ a, (![0, 0, 0] : Fin 3 → Nat) a < S1x1x1.size a) (j : S1x1.Idx) :
    addf (shapeCast S1x1 xo h1) (broadcast S1x1 (extractAt ![0, 0, 0] (shapeCast S1x1x1
        (multiReduction .add [1, 2] S1 w 0x00000000#32 reduces_S1x2x4096_S1 hφ hacc) h2) h3)) j
      = xo j + ∑ b : Fin 2, ∑ m : Fin 4096, w (ix3 (0 : Fin 1) b m) := by
  refine (ValueIdx.addf_apply _ _ j).trans ?_
  refine congrArg₂ (· + ·) (congrFun (shapeCast_self xo _) j) ?_
  refine (extract_unit _ _ _).trans ?_
  refine (Ideal.multiReduction_add_total _ _ reduces_S1x2x4096_S1 (fun b => by match b with | ⟨0, _⟩ => rfl) _ _ (ix1 0)).trans ?_
  rw [Cert.LibIdxSums.sum_idx3, Fin.sum_univ_one]

/-- Channels of a [2,4096,c] block from channel 0, read at (b, m, k): the block at (b, m, k). -/
theorem slice_last0 {α : Type} {c n : Nat} (x : (⟨3, ![2, 4096, c]⟩ : Shape).Idx → α)
    (h : (⟨3, ![2, 4096, c]⟩ : Shape).Slices ![0, 0, 0] ⟨3, ![2, 4096, n]⟩) (b : Fin 2) (m : Fin 4096) (k : Fin n) (hk : k.val < c) :
    extractStridedSlice ⟨3, ![2, 4096, n]⟩ ![0, 0, 0] x h (ix3 b m k) = x (ix3 b m ⟨k.val, hk⟩) :=
  extractStridedSlice_apply _ x h _ _ (fun a => by
    match a with
    | ⟨0, _⟩ => show b.val = 0 + b.val; omega
    | ⟨1, _⟩ => show m.val = 0 + m.val; omega
    | ⟨2, _⟩ => show k.val = 0 + k.val; omega)

/-- The mask the body computes from a block of targets, at (b, m): 1 where channel 8 exceeds ½, else 0. -/
theorem mask_apply (x1 : Vec Ideal S2x4096x9 .f32) (b : Fin 2) (m : Fin 4096) :
    k0_pay14 (F := Ideal) x1 (ix2 b m) = Cert.Loss.msk (x1 (ix3 b m 8)) := by
  unfold k0_pay14 k0_pay13
  dsimp only
  refine (Cert.Loss.sitofp_extui_bit _).trans ?_
  unfold Cert.Loss.msk
  refine congrArg (FloatOps.uitofp (F := Ideal) .f32) ?_
  refine congrArg₂ (FloatOps.cmpf (F := Ideal) .ogt) ?_ rfl
  exact (cast_drop_last _ _ b m).trans (slice_last 8 x1 _ b m 0 (by decide))

/-- The mask spread over the channels, at (b, m, k). -/
theorem mask_bcast {n : Nat} (x1 : Vec Ideal S2x4096x9 .f32) (h1 : S2x4096.ShapeCasts S2x4096x1)
    (h2 : S2x4096x1.Broadcasts ⟨3, ![2, 4096, n]⟩) (b : Fin 2) (m : Fin 4096) (k : Fin n) :
    broadcastTo ⟨3, ![2, 4096, n]⟩ (shapeCast S2x4096x1 (k0_pay14 (F := Ideal) x1) h1) h2 (ix3 b m k) = Cert.Loss.msk (x1 (ix3 b m 8)) :=
  (bcast_last _ _ b m k).trans ((cast_add_last _ _ b m 0).trans (mask_apply x1 b m))

/-- The five block sums, as functions of the blocks. -/
def sCoord (x0 x1 : Vec Ideal S2x4096x9 .f32) : Ideal .f32 := ∑ b : Fin 2, ∑ m : Fin 4096, ∑ k : Fin 6,
  Cert.Loss.adiff (x0 (ix3 b m (Cert.Loss.ch 0 k (by omega)))) (x1 (ix3 b m (Cert.Loss.ch 0 k (by omega)))) * Cert.Loss.msk (x1 (ix3 b m 8))
def sWidth (x0 x1 : Vec Ideal S2x4096x9 .f32) : Ideal .f32 := ∑ b : Fin 2, ∑ m : Fin 4096, ∑ k : Fin 2,
  Cert.Loss.adiff (x0 (ix3 b m (Cert.Loss.ch 6 k (by omega)))) (x1 (ix3 b m (Cert.Loss.ch 6 k (by omega)))) * Cert.Loss.msk (x1 (ix3 b m 8))
/-- One cross-entropy term as the body forms it: `0 − (t·log p + (1 − t)·log(1 − p))`, `p` the clipped prediction. -/
def bceK (t v : Ideal .f32) : Ideal .f32 :=
  Cert.Loss.zero - (t * Ideal.log (Cert.Loss.clipP v) + (Cert.Loss.one - t) * Ideal.log (Cert.Loss.one - Cert.Loss.clipP v))
def sBce (x0 x1 : Vec Ideal S2x4096x9 .f32) : Ideal .f32 := ∑ b : Fin 2, ∑ m : Fin 4096, ∑ u : Fin 1, bceK (x1 (ix3 b m 8)) (x0 (ix3 b m 8))
def sValid (x1 : Vec Ideal S2x4096x9 .f32) : Ideal .f32 := ∑ b : Fin 2, ∑ m : Fin 4096, Cert.Loss.msk (x1 (ix3 b m 8))
def sCont (x0 : Vec Ideal S2x4096x9 .f32) (x2 : Vec Ideal S2x4096x2 .f32) (x3 : Vec Ideal S2x4096x1 .f32) : Ideal .f32 :=
  ∑ b : Fin 2, ∑ m : Fin 4096,
    ((∑ k : Fin 2, Cert.Loss.adiff (x0 (ix3 b m (Cert.Loss.ch 4 k (by omega)))) (x2 (ix3 b m k))) * Cert.Loss.half) * x3 (ix3 b m 0)

/-- The coordinate sum. -/
theorem pay_coord (x0 x1 : Vec Ideal S2x4096x9 .f32) (xo : Vec Ideal S1x1 .f32) (j : S1x1.Idx) :
    k0_pay21 (F := Ideal) (k0_pay15 x0 x1) xo j = xo j + sCoord x0 x1 := by
  unfold sCoord k0_pay21 k0_pay15
  dsimp only
  refine (acc_total _ _ _ _ _ _ _ j).trans ?_
  refine congrArg (xo j + ·) (Finset.sum_congr rfl fun b _ => Finset.sum_congr rfl fun m _ => ?_)
  refine (shapeCast_ab_1ab_apply _ _ 0 b m).trans ?_
  refine (lane6 _ _ _ b m).trans ?_
  refine Finset.sum_congr rfl fun k _ => ?_
  refine (ValueIdx.mulf_apply _ _ _).trans (congrArg₂ (· * ·) ?_ (mask_bcast x1 _ _ b m k))
  exact congrArg₂ Cert.Loss.adiff (slice_last 0 x0 slices_S2x4096x9_o0_0_0_S2x4096x6 b m k (by omega))
    ((slice_last 0 (k0_pay12 (F := Ideal) x1) slices_S2x4096x8_o0_0_0_S2x4096x6 b m k (by omega)).trans
      (slice_last0 x1 slices_S2x4096x9_o0_0_0_S2x4096x8 b m ⟨0 + k.val, by omega⟩ (by show 0 + k.val < 9; omega)))

/-- The width sum. -/
theorem pay_width (x0 x1 : Vec Ideal S2x4096x9 .f32) (xo : Vec Ideal S1x1 .f32) (j : S1x1.Idx) :
    k0_pay1 (F := Ideal) (k0_pay17 (k0_pay16 x0 x1)) xo j = xo j + sWidth x0 x1 := by
  unfold sWidth k0_pay1 k0_pay17 k0_pay16
  dsimp only
  refine (acc_total _ _ _ _ _ _ _ j).trans ?_
  refine congrArg (xo j + ·) (Finset.sum_congr rfl fun b _ => Finset.sum_congr rfl fun m _ => ?_)
  refine (shapeCast_ab_1ab_apply _ _ 0 b m).trans ?_
  refine (lane2 _ _ _ b m).trans ?_
  refine Finset.sum_congr rfl fun k _ => ?_
  refine (ValueIdx.mulf_apply _ _ _).trans (congrArg₂ (· * ·) ?_ (mask_bcast x1 _ _ b m k))
  exact congrArg₂ Cert.Loss.adiff (slice_last 6 x0 slices_S2x4096x9_o0_0_6_S2x4096x2 b m k (by omega))
    ((slice_last 6 (k0_pay12 (F := Ideal) x1) slices_S2x4096x8_o0_0_6_S2x4096x2 b m k (by omega)).trans
      (slice_last0 x1 slices_S2x4096x9_o0_0_0_S2x4096x8 b m ⟨6 + k.val, by omega⟩ (by show 6 + k.val < 9; omega)))

/-- The cross-entropy sum. -/
theorem pay_bce (x0 x1 : Vec Ideal S2x4096x9 .f32) (xo : Vec Ideal S1x1 .f32) (j : S1x1.Idx) :
    k0_pay2 (F := Ideal) (k0_pay18 x0 (k0_pay13 x1)) xo j = xo j + sBce x0 x1 := by
  unfold sBce k0_pay2 k0_pay18
  dsimp only
  refine (acc_total _ _ _ _ _ _ _ j).trans ?_
  refine congrArg (xo j + ·) (Finset.sum_congr rfl fun b _ => Finset.sum_congr rfl fun m _ => ?_)
  refine (shapeCast_ab_1ab_apply _ _ 0 b m).trans ?_
  refine (lane1 _ _ _ b m).trans ?_
  refine Finset.sum_congr rfl fun u _ => ?_
  have hu : u = 0 := Subsingleton.elim _ _
  subst hu
  exact congrArg₂ bceK (slice_last 8 x1 slices_S2x4096x9_o0_0_8_S2x4096x1 b m 0 (by decide)) (slice_last 8 x0 slices_S2x4096x9_o0_0_8_S2x4096x1 b m 0 (by decide))

/-- The count of valid slots. -/
theorem pay_valid (x1 : Vec Ideal S2x4096x9 .f32) (xo : Vec Ideal S1x1 .f32) (j : S1x1.Idx) :
    k0_pay3 (F := Ideal) (k0_pay19 (k0_pay14 x1)) xo j = xo j + sValid x1 := by
  unfold sValid k0_pay3 k0_pay19
  dsimp only
  refine (acc_total _ _ _ _ _ _ _ j).trans ?_
  refine congrArg (xo j + ·) (Finset.sum_congr rfl fun b _ => Finset.sum_congr rfl fun m _ => ?_)
  exact (shapeCast_ab_1ab_apply _ _ 0 b m).trans (mask_apply x1 b m)

/-- The continuity sum. -/
theorem pay_cont (x0 : Vec Ideal S2x4096x9 .f32) (x2 : Vec Ideal S2x4096x2 .f32) (x3 : Vec Ideal S2x4096x1 .f32)
    (xo : Vec Ideal S1x1 .f32) (j : S1x1.Idx) :
    k0_pay4 (F := Ideal) (k0_pay20 x0 (k0_pay10 x2) (k0_pay11 x3)) xo j = xo j + sCont x0 x2 x3 := by
  unfold sCont k0_pay4 k0_pay20 k0_pay10 k0_pay11
  dsimp only
  refine (acc_total _ _ _ _ _ _ _ j).trans ?_
  refine congrArg (xo j + ·) (Finset.sum_congr rfl fun b _ => Finset.sum_congr rfl fun m _ => ?_)
  refine (shapeCast_ab_1ab_apply _ _ 0 b m).trans ?_
  refine (ValueIdx.mulf_apply _ _ _).trans (congrArg₂ (· * ·) ?_ ?_)
  · refine (ValueIdx.mulf_apply _ _ _).trans (congrArg₂ (· * ·) ?_ rfl)
    refine (lane2 _ _ _ b m).trans (Finset.sum_congr rfl fun k _ => ?_)
    exact congrArg₂ Cert.Loss.adiff (slice_last 4 x0 slices_S2x4096x9_o0_0_4_S2x4096x2 b m k (by omega)) (congrFun (shapeCast_self x2 _) (ix3 b m k))
  · exact (cast_drop_last _ _ b m).trans (congrFun (shapeCast_self x3 _) (ix3 b m 0))

/-- The zero block the first grid point stores in each accumulator: the float word of 0. -/
theorem zero5 (j : S1x1.Idx) : k0_pay5 (F := Ideal) j = Cert.Loss.zero := rfl
theorem zero6 (j : S1x1.Idx) : k0_pay6 (F := Ideal) j = Cert.Loss.zero := rfl
theorem zero7 (j : S1x1.Idx) : k0_pay7 (F := Ideal) j = Cert.Loss.zero := rfl
theorem zero8 (j : S1x1.Idx) : k0_pay8 (F := Ideal) j = Cert.Loss.zero := rfl
theorem zero9 (j : S1x1.Idx) : k0_pay9 (F := Ideal) j = Cert.Loss.zero := rfl

end Cert.KernelIdeal.Reg0

end
-- ==== Proof.Reg0Value.lean ====
/-
  The first kernel's five result arrays.

  Each of the five accumulators has a block that never moves and is written back after the last of the 128 grid points
  only, so each result array ends holding what the body left in its accumulator at point 127 (the one block is the whole
  [1,1] array). Point by point an accumulator is set to `0 + s₀` at point 0 and to `acc + sₙ` afterwards (`sₙ` its block
  sum at point `n`), so its entry after point `n` is `0 + Σ_{s ≤ n} s_s` on the extended reals: by induction on the point.
-/
import proofs.«162210_j73057393705419_2_alg».proof.Proof.Reg0Body
import proofs.«162210_j73057393705419_2_alg».proof.Proof.Reg0Sum

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen

section Final

variable {F : FTy → Type} [FloatOps F]
variable (V : (c : Dev nD) → (b : Ref sig .tc) → Buf (Elt F) ((c : Thread nD τ).loc b))

theorem lt127 : 127 < cfg0.N := by rw [show cfg0.N = 128 from N_0]; decide

/-- The accumulators' contents depend on the point's number only. -/
theorem outsAt_congr (c : Dev nD) {n n' : ℕ} (h : n < cfg0.N) (h' : n' < cfg0.N) (e : n = n') :
    outsAt0 V c n h = outsAt0 V c n' h' := by subst e; rfl

/-- What the coordinate accumulator holds after the last point, as contents of its result array. -/
abbrev result4 (c : Dev nD) : Buf (Elt F) ((c : Thread nD τ).loc main_v22_0) := (outsAt0 V c 127 lt127).1

/-- The coordinate accumulator's block sits at its array's origin at every point. -/
theorem idx_out4 : ∀ t : Fin cfg0.N, ∀ a : Fin 2, win0_4.index t a = 0 :=
  (by decide +kernel : ∀ t : Fin grid0.N, ∀ a : Fin 2, win0_4.index t a = 0)

theorem xsize_out4 : ∀ t : Fin cfg0.N, ∀ a : Fin 2, win0_4.xsize (grid0.coords t) a = 1 :=
  (by decide +kernel : ∀ t : Fin grid0.N, ∀ a : Fin 2, win0_4.xsize (grid0.coords t) a = 1)

/-- Its one write-back, at point 127, writes the accumulator. -/
theorem flushed4_eq (c : Dev nD) (t : Fin cfg0.N) (hf : (cfg0.win 4).flush t = true) :
    (dat0 V c).flushed 4 t = ((cfg0.win 4).blk t).view.read (Elt F) (result4 V c) := by
  have hN : cfg0.N = 128 := N_0
  have h7 : t.val = 127 := by have := (flush0_4 t).mp hf; have := t.isLt; omega
  show (cfg0.win 4).cut (grid0.coords t) ((dat0 V c).after 4 t) = _
  rw [after0_4, outsAt_congr V c t.isLt lt127 h7]
  have hz' : (fun a => win0_4.index t a * main_v22_0.ty.shape.size a) = fun _ => 0 :=
    funext fun a => by rw [idx_out4 t a, Nat.zero_mul]
  exact (Memref.read_access_unit_zero (Elt F) main_v22_0 hz' (fun a => by rw [congrFun hz' a]; simp) (result4 V c)).symm

/-- Every index of the [1,1] array lies in the accumulator's block, at any point. -/
theorem mem_blk4 (c : Dev nD) (t : Fin cfg0.N) (i : ((cfg0.win 4).arr.view.loc (c.tc : Thread nD τ)).2.ty.Idx) :
    i ∈ ((cfg0.win 4).blk t).view.set := by
  show i ∈ ((View.whole main_v22_0).slice (win0_4.rect t)).set
  rw [View.set_slice_whole, Rect.mem_set_unit]
  intro a
  have h0 : (i 0 : Nat) < 1 := (i 0).isLt
  have h1 : (i 1 : Nat) < 1 := (i 1).isLt
  match a with
  | ⟨0, _⟩ => show win0_4.index t 0 * win0_4.size 0 ≤ (i 0 : Nat) ∧ (i 0 : Nat) < win0_4.index t 0 * win0_4.size 0 + win0_4.xsize (grid0.coords t) 0
              rw [idx_out4 t 0, xsize_out4 t 0]; omega
  | ⟨1, _⟩ => show win0_4.index t 1 * win0_4.size 1 ≤ (i 1 : Nat) ∧ (i 1 : Nat) < win0_4.index t 1 * win0_4.size 1 + win0_4.xsize (grid0.coords t) 1
              rw [idx_out4 t 1, xsize_out4 t 1]; omega

/-- So its result array ends holding the accumulator's contents after point 127. -/
theorem final4 (c : Dev nD) : (dat0 V c).arrAt 4 cfg0.N = result4 V c :=
  (dat0 V c).arrAt_eq_of_cover 4 (result4 V c) (flushed4_eq V c) fun i =>
    ⟨⟨127, lt127⟩, (flush0_4 ⟨127, lt127⟩).mpr rfl, mem_blk4 c ⟨127, lt127⟩ i⟩

/-- What the width accumulator holds after the last point, as contents of its result array. -/
abbrev result5 (c : Dev nD) : Buf (Elt F) ((c : Thread nD τ).loc main_v22_1) := (outsAt0 V c 127 lt127).2.1

/-- The width accumulator's block sits at its array's origin at every point. -/
theorem idx_out5 : ∀ t : Fin cfg0.N, ∀ a : Fin 2, win0_5.index t a = 0 :=
  (by decide +kernel : ∀ t : Fin grid0.N, ∀ a : Fin 2, win0_5.index t a = 0)

theorem xsize_out5 : ∀ t : Fin cfg0.N, ∀ a : Fin 2, win0_5.xsize (grid0.coords t) a = 1 :=
  (by decide +kernel : ∀ t : Fin grid0.N, ∀ a : Fin 2, win0_5.xsize (grid0.coords t) a = 1)

/-- Its one write-back, at point 127, writes the accumulator. -/
theorem flushed5_eq (c : Dev nD) (t : Fin cfg0.N) (hf : (cfg0.win 5).flush t = true) :
    (dat0 V c).flushed 5 t = ((cfg0.win 5).blk t).view.read (Elt F) (result5 V c) := by
  have hN : cfg0.N = 128 := N_0
  have h7 : t.val = 127 := by have := (flush0_5 t).mp hf; have := t.isLt; omega
  show (cfg0.win 5).cut (grid0.coords t) ((dat0 V c).after 5 t) = _
  rw [after0_5, outsAt_congr V c t.isLt lt127 h7]
  have hz' : (fun a => win0_5.index t a * main_v22_1.ty.shape.size a) = fun _ => 0 :=
    funext fun a => by rw [idx_out5 t a, Nat.zero_mul]
  exact (Memref.read_access_unit_zero (Elt F) main_v22_1 hz' (fun a => by rw [congrFun hz' a]; simp) (result5 V c)).symm

/-- Every index of the [1,1] array lies in the accumulator's block, at any point. -/
theorem mem_blk5 (c : Dev nD) (t : Fin cfg0.N) (i : ((cfg0.win 5).arr.view.loc (c.tc : Thread nD τ)).2.ty.Idx) :
    i ∈ ((cfg0.win 5).blk t).view.set := by
  show i ∈ ((View.whole main_v22_1).slice (win0_5.rect t)).set
  rw [View.set_slice_whole, Rect.mem_set_unit]
  intro a
  have h0 : (i 0 : Nat) < 1 := (i 0).isLt
  have h1 : (i 1 : Nat) < 1 := (i 1).isLt
  match a with
  | ⟨0, _⟩ => show win0_5.index t 0 * win0_5.size 0 ≤ (i 0 : Nat) ∧ (i 0 : Nat) < win0_5.index t 0 * win0_5.size 0 + win0_5.xsize (grid0.coords t) 0
              rw [idx_out5 t 0, xsize_out5 t 0]; omega
  | ⟨1, _⟩ => show win0_5.index t 1 * win0_5.size 1 ≤ (i 1 : Nat) ∧ (i 1 : Nat) < win0_5.index t 1 * win0_5.size 1 + win0_5.xsize (grid0.coords t) 1
              rw [idx_out5 t 1, xsize_out5 t 1]; omega

/-- So its result array ends holding the accumulator's contents after point 127. -/
theorem final5 (c : Dev nD) : (dat0 V c).arrAt 5 cfg0.N = result5 V c :=
  (dat0 V c).arrAt_eq_of_cover 5 (result5 V c) (flushed5_eq V c) fun i =>
    ⟨⟨127, lt127⟩, (flush0_5 ⟨127, lt127⟩).mpr rfl, mem_blk5 c ⟨127, lt127⟩ i⟩

/-- What the cross-entropy accumulator holds after the last point, as contents of its result array. -/
abbrev result6 (c : Dev nD) : Buf (Elt F) ((c : Thread nD τ).loc main_v22_2) := (outsAt0 V c 127 lt127).2.2.1

/-- The cross-entropy accumulator's block sits at its array's origin at every point. -/
theorem idx_out6 : ∀ t : Fin cfg0.N, ∀ a : Fin 2, win0_6.index t a = 0 :=
  (by decide +kernel : ∀ t : Fin grid0.N, ∀ a : Fin 2, win0_6.index t a = 0)

theorem xsize_out6 : ∀ t : Fin cfg0.N, ∀ a : Fin 2, win0_6.xsize (grid0.coords t) a = 1 :=
  (by decide +kernel : ∀ t : Fin grid0.N, ∀ a : Fin 2, win0_6.xsize (grid0.coords t) a = 1)

/-- Its one write-back, at point 127, writes the accumulator. -/
theorem flushed6_eq (c : Dev nD) (t : Fin cfg0.N) (hf : (cfg0.win 6).flush t = true) :
    (dat0 V c).flushed 6 t = ((cfg0.win 6).blk t).view.read (Elt F) (result6 V c) := by
  have hN : cfg0.N = 128 := N_0
  have h7 : t.val = 127 := by have := (flush0_6 t).mp hf; have := t.isLt; omega
  show (cfg0.win 6).cut (grid0.coords t) ((dat0 V c).after 6 t) = _
  rw [after0_6, outsAt_congr V c t.isLt lt127 h7]
  have hz' : (fun a => win0_6.index t a * main_v22_2.ty.shape.size a) = fun _ => 0 :=
    funext fun a => by rw [idx_out6 t a, Nat.zero_mul]
  exact (Memref.read_access_unit_zero (Elt F) main_v22_2 hz' (fun a => by rw [congrFun hz' a]; simp) (result6 V c)).symm

/-- Every index of the [1,1] array lies in the accumulator's block, at any point. -/
theorem mem_blk6 (c : Dev nD) (t : Fin cfg0.N) (i : ((cfg0.win 6).arr.view.loc (c.tc : Thread nD τ)).2.ty.Idx) :
    i ∈ ((cfg0.win 6).blk t).view.set := by
  show i ∈ ((View.whole main_v22_2).slice (win0_6.rect t)).set
  rw [View.set_slice_whole, Rect.mem_set_unit]
  intro a
  have h0 : (i 0 : Nat) < 1 := (i 0).isLt
  have h1 : (i 1 : Nat) < 1 := (i 1).isLt
  match a with
  | ⟨0, _⟩ => show win0_6.index t 0 * win0_6.size 0 ≤ (i 0 : Nat) ∧ (i 0 : Nat) < win0_6.index t 0 * win0_6.size 0 + win0_6.xsize (grid0.coords t) 0
              rw [idx_out6 t 0, xsize_out6 t 0]; omega
  | ⟨1, _⟩ => show win0_6.index t 1 * win0_6.size 1 ≤ (i 1 : Nat) ∧ (i 1 : Nat) < win0_6.index t 1 * win0_6.size 1 + win0_6.xsize (grid0.coords t) 1
              rw [idx_out6 t 1, xsize_out6 t 1]; omega

/-- So its result array ends holding the accumulator's contents after point 127. -/
theorem final6 (c : Dev nD) : (dat0 V c).arrAt 6 cfg0.N = result6 V c :=
  (dat0 V c).arrAt_eq_of_cover 6 (result6 V c) (flushed6_eq V c) fun i =>
    ⟨⟨127, lt127⟩, (flush0_6 ⟨127, lt127⟩).mpr rfl, mem_blk6 c ⟨127, lt127⟩ i⟩

/-- What the valid-count accumulator holds after the last point, as contents of its result array. -/
abbrev result7 (c : Dev nD) : Buf (Elt F) ((c : Thread nD τ).loc main_v22_3) := (outsAt0 V c 127 lt127).2.2.2.1

/-- The valid-count accumulator's block sits at its array's origin at every point. -/
theorem idx_out7 : ∀ t : Fin cfg0.N, ∀ a : Fin 2, win0_7.index t a = 0 :=
  (by decide +kernel : ∀ t : Fin grid0.N, ∀ a : Fin 2, win0_7.index t a = 0)

theorem xsize_out7 : ∀ t : Fin cfg0.N, ∀ a : Fin 2, win0_7.xsize (grid0.coords t) a = 1 :=
  (by decide +kernel : ∀ t : Fin grid0.N, ∀ a : Fin 2, win0_7.xsize (grid0.coords t) a = 1)

/-- Its one write-back, at point 127, writes the accumulator. -/
theorem flushed7_eq (c : Dev nD) (t : Fin cfg0.N) (hf : (cfg0.win 7).flush t = true) :
    (dat0 V c).flushed 7 t = ((cfg0.win 7).blk t).view.read (Elt F) (result7 V c) := by
  have hN : cfg0.N = 128 := N_0
  have h7 : t.val = 127 := by have := (flush0_7 t).mp hf; have := t.isLt; omega
  show (cfg0.win 7).cut (grid0.coords t) ((dat0 V c).after 7 t) = _
  rw [after0_7, outsAt_congr V c t.isLt lt127 h7]
  have hz' : (fun a => win0_7.index t a * main_v22_3.ty.shape.size a) = fun _ => 0 :=
    funext fun a => by rw [idx_out7 t a, Nat.zero_mul]
  exact (Memref.read_access_unit_zero (Elt F) main_v22_3 hz' (fun a => by rw [congrFun hz' a]; simp) (result7 V c)).symm

/-- Every index of the [1,1] array lies in the accumulator's block, at any point. -/
theorem mem_blk7 (c : Dev nD) (t : Fin cfg0.N) (i : ((cfg0.win 7).arr.view.loc (c.tc : Thread nD τ)).2.ty.Idx) :
    i ∈ ((cfg0.win 7).blk t).view.set := by
  show i ∈ ((View.whole main_v22_3).slice (win0_7.rect t)).set
  rw [View.set_slice_whole, Rect.mem_set_unit]
  intro a
  have h0 : (i 0 : Nat) < 1 := (i 0).isLt
  have h1 : (i 1 : Nat) < 1 := (i 1).isLt
  match a with
  | ⟨0, _⟩ => show win0_7.index t 0 * win0_7.size 0 ≤ (i 0 : Nat) ∧ (i 0 : Nat) < win0_7.index t 0 * win0_7.size 0 + win0_7.xsize (grid0.coords t) 0
              rw [idx_out7 t 0, xsize_out7 t 0]; omega
  | ⟨1, _⟩ => show win0_7.index t 1 * win0_7.size 1 ≤ (i 1 : Nat) ∧ (i 1 : Nat) < win0_7.index t 1 * win0_7.size 1 + win0_7.xsize (grid0.coords t) 1
              rw [idx_out7 t 1, xsize_out7 t 1]; omega

/-- So its result array ends holding the accumulator's contents after point 127. -/
theorem final7 (c : Dev nD) : (dat0 V c).arrAt 7 cfg0.N = result7 V c :=
  (dat0 V c).arrAt_eq_of_cover 7 (result7 V c) (flushed7_eq V c) fun i =>
    ⟨⟨127, lt127⟩, (flush0_7 ⟨127, lt127⟩).mpr rfl, mem_blk7 c ⟨127, lt127⟩ i⟩

/-- What the continuity accumulator holds after the last point, as contents of its result array. -/
abbrev result8 (c : Dev nD) : Buf (Elt F) ((c : Thread nD τ).loc main_v22_4) := (outsAt0 V c 127 lt127).2.2.2.2

/-- The continuity accumulator's block sits at its array's origin at every point. -/
theorem idx_out8 : ∀ t : Fin cfg0.N, ∀ a : Fin 2, win0_8.index t a = 0 :=
  (by decide +kernel : ∀ t : Fin grid0.N, ∀ a : Fin 2, win0_8.index t a = 0)

theorem xsize_out8 : ∀ t : Fin cfg0.N, ∀ a : Fin 2, win0_8.xsize (grid0.coords t) a = 1 :=
  (by decide +kernel : ∀ t : Fin grid0.N, ∀ a : Fin 2, win0_8.xsize (grid0.coords t) a = 1)

/-- Its one write-back, at point 127, writes the accumulator. -/
theorem flushed8_eq (c : Dev nD) (t : Fin cfg0.N) (hf : (cfg0.win 8).flush t = true) :
    (dat0 V c).flushed 8 t = ((cfg0.win 8).blk t).view.read (Elt F) (result8 V c) := by
  have hN : cfg0.N = 128 := N_0
  have h7 : t.val = 127 := by have := (flush0_8 t).mp hf; have := t.isLt; omega
  show (cfg0.win 8).cut (grid0.coords t) ((dat0 V c).after 8 t) = _
  rw [after0_8, outsAt_congr V c t.isLt lt127 h7]
  have hz' : (fun a => win0_8.index t a * main_v22_4.ty.shape.size a) = fun _ => 0 :=
    funext fun a => by rw [idx_out8 t a, Nat.zero_mul]
  exact (Memref.read_access_unit_zero (Elt F) main_v22_4 hz' (fun a => by rw [congrFun hz' a]; simp) (result8 V c)).symm

/-- Every index of the [1,1] array lies in the accumulator's block, at any point. -/
theorem mem_blk8 (c : Dev nD) (t : Fin cfg0.N) (i : ((cfg0.win 8).arr.view.loc (c.tc : Thread nD τ)).2.ty.Idx) :
    i ∈ ((cfg0.win 8).blk t).view.set := by
  show i ∈ ((View.whole main_v22_4).slice (win0_8.rect t)).set
  rw [View.set_slice_whole, Rect.mem_set_unit]
  intro a
  have h0 : (i 0 : Nat) < 1 := (i 0).isLt
  have h1 : (i 1 : Nat) < 1 := (i 1).isLt
  match a with
  | ⟨0, _⟩ => show win0_8.index t 0 * win0_8.size 0 ≤ (i 0 : Nat) ∧ (i 0 : Nat) < win0_8.index t 0 * win0_8.size 0 + win0_8.xsize (grid0.coords t) 0
              rw [idx_out8 t 0, xsize_out8 t 0]; omega
  | ⟨1, _⟩ => show win0_8.index t 1 * win0_8.size 1 ≤ (i 1 : Nat) ∧ (i 1 : Nat) < win0_8.index t 1 * win0_8.size 1 + win0_8.xsize (grid0.coords t) 1
              rw [idx_out8 t 1, xsize_out8 t 1]; omega

/-- So its result array ends holding the accumulator's contents after point 127. -/
theorem final8 (c : Dev nD) : (dat0 V c).arrAt 8 cfg0.N = result8 V c :=
  (dat0 V c).arrAt_eq_of_cover 8 (result8 V c) (flushed8_eq V c) fun i =>
    ⟨⟨127, lt127⟩, (flush0_8 ⟨127, lt127⟩).mpr rfl, mem_blk8 c ⟨127, lt127⟩ i⟩

end Final

section Sum

variable (V : (c : Dev nD) → (b : Ref sig .tc) → Buf (Elt Ideal) ((c : Thread nD τ).loc b))

/-- The coordinate block sum at point `n` (0 past the grid: never used). -/
def blockCoord (c : Dev nD) (n : ℕ) : Ideal .f32 :=
  if h : n < cfg0.N then sCoord (iblk0 V c 0 ⟨n, h⟩) (iblk0 V c 1 ⟨n, h⟩) else 0

/-- The coordinate accumulator's entry after point `n`: zero plus its block sums up to `n`. -/
theorem outsAt4_apply (c : Dev nD) (j : S1x1.Idx) : ∀ (n : ℕ) (h : n < cfg0.N),
    ((outsAt0 V c n h).1 : Vec Ideal S1x1 .f32) j = Cert.Loss.zero + ∑ s ∈ Finset.range (n + 1), blockCoord V c s
  | 0, h => by
    rw [outsAt0_A V c ⟨0, h⟩ rfl]
    dsimp only
    rw [out_first_4]
    refine (pay_coord _ _ _ j).trans ?_
    rw [zero5, Finset.sum_range_one, blockCoord, dif_pos h]
  | n + 1, h => by
    have hN : cfg0.N = 128 := N_0
    have hB : ¬(⟨n + 1, h⟩ : Fin cfg0.N).val % 128 = 0 := by dsimp only; omega
    rw [outsAt0_B V c ⟨n + 1, h⟩ hB]
    dsimp only
    rw [out_later_4]
    refine (pay_coord _ _ _ j).trans ?_
    show ((outsAt0 V c n _).1 : Vec Ideal S1x1 .f32) j + _ = _
    rw [outsAt4_apply c j n, Finset.sum_range_succ _ (n + 1), add_assoc, blockCoord, dif_pos h]

/-- The coordinate result array's entry: zero plus the 128 block sums. -/
theorem final4_apply (c : Dev nD) (j : S1x1.Idx) :
    ((dat0 V c).arrAt 4 cfg0.N : Vec Ideal S1x1 .f32) j = Cert.Loss.zero + ∑ s ∈ Finset.range 128, blockCoord V c s := by
  rw [final4 V c]
  exact outsAt4_apply V c j 127 lt127

/-- The width block sum at point `n` (0 past the grid: never used). -/
def blockWidth (c : Dev nD) (n : ℕ) : Ideal .f32 :=
  if h : n < cfg0.N then sWidth (iblk0 V c 0 ⟨n, h⟩) (iblk0 V c 1 ⟨n, h⟩) else 0

/-- The width accumulator's entry after point `n`: zero plus its block sums up to `n`. -/
theorem outsAt5_apply (c : Dev nD) (j : S1x1.Idx) : ∀ (n : ℕ) (h : n < cfg0.N),
    ((outsAt0 V c n h).2.1 : Vec Ideal S1x1 .f32) j = Cert.Loss.zero + ∑ s ∈ Finset.range (n + 1), blockWidth V c s
  | 0, h => by
    rw [outsAt0_A V c ⟨0, h⟩ rfl]
    dsimp only
    rw [out_first_5]
    refine (pay_width _ _ _ j).trans ?_
    rw [zero6, Finset.sum_range_one, blockWidth, dif_pos h]
  | n + 1, h => by
    have hN : cfg0.N = 128 := N_0
    have hB : ¬(⟨n + 1, h⟩ : Fin cfg0.N).val % 128 = 0 := by dsimp only; omega
    rw [outsAt0_B V c ⟨n + 1, h⟩ hB]
    dsimp only
    rw [out_later_5]
    refine (pay_width _ _ _ j).trans ?_
    show ((outsAt0 V c n _).2.1 : Vec Ideal S1x1 .f32) j + _ = _
    rw [outsAt5_apply c j n, Finset.sum_range_succ _ (n + 1), add_assoc, blockWidth, dif_pos h]

/-- The width result array's entry: zero plus the 128 block sums. -/
theorem final5_apply (c : Dev nD) (j : S1x1.Idx) :
    ((dat0 V c).arrAt 5 cfg0.N : Vec Ideal S1x1 .f32) j = Cert.Loss.zero + ∑ s ∈ Finset.range 128, blockWidth V c s := by
  rw [final5 V c]
  exact outsAt5_apply V c j 127 lt127

/-- The cross-entropy block sum at point `n` (0 past the grid: never used). -/
def blockBce (c : Dev nD) (n : ℕ) : Ideal .f32 :=
  if h : n < cfg0.N then sBce (iblk0 V c 0 ⟨n, h⟩) (iblk0 V c 1 ⟨n, h⟩) else 0

/-- The cross-entropy accumulator's entry after point `n`: zero plus its block sums up to `n`. -/
theorem outsAt6_apply (c : Dev nD) (j : S1x1.Idx) : ∀ (n : ℕ) (h : n < cfg0.N),
    ((outsAt0 V c n h).2.2.1 : Vec Ideal S1x1 .f32) j = Cert.Loss.zero + ∑ s ∈ Finset.range (n + 1), blockBce V c s
  | 0, h => by
    rw [outsAt0_A V c ⟨0, h⟩ rfl]
    dsimp only
    rw [out_first_6]
    refine (pay_bce _ _ _ j).trans ?_
    rw [zero7, Finset.sum_range_one, blockBce, dif_pos h]
  | n + 1, h => by
    have hN : cfg0.N = 128 := N_0
    have hB : ¬(⟨n + 1, h⟩ : Fin cfg0.N).val % 128 = 0 := by dsimp only; omega
    rw [outsAt0_B V c ⟨n + 1, h⟩ hB]
    dsimp only
    rw [out_later_6]
    refine (pay_bce _ _ _ j).trans ?_
    show ((outsAt0 V c n _).2.2.1 : Vec Ideal S1x1 .f32) j + _ = _
    rw [outsAt6_apply c j n, Finset.sum_range_succ _ (n + 1), add_assoc, blockBce, dif_pos h]

/-- The cross-entropy result array's entry: zero plus the 128 block sums. -/
theorem final6_apply (c : Dev nD) (j : S1x1.Idx) :
    ((dat0 V c).arrAt 6 cfg0.N : Vec Ideal S1x1 .f32) j = Cert.Loss.zero + ∑ s ∈ Finset.range 128, blockBce V c s := by
  rw [final6 V c]
  exact outsAt6_apply V c j 127 lt127

/-- The valid-count block sum at point `n` (0 past the grid: never used). -/
def blockValid (c : Dev nD) (n : ℕ) : Ideal .f32 :=
  if h : n < cfg0.N then sValid (iblk0 V c 1 ⟨n, h⟩) else 0

/-- The valid-count accumulator's entry after point `n`: zero plus its block sums up to `n`. -/
theorem outsAt7_apply (c : Dev nD) (j : S1x1.Idx) : ∀ (n : ℕ) (h : n < cfg0.N),
    ((outsAt0 V c n h).2.2.2.1 : Vec Ideal S1x1 .f32) j = Cert.Loss.zero + ∑ s ∈ Finset.range (n + 1), blockValid V c s
  | 0, h => by
    rw [outsAt0_A V c ⟨0, h⟩ rfl]
    dsimp only
    rw [out_first_7]
    refine (pay_valid _ _ j).trans ?_
    rw [zero8, Finset.sum_range_one, blockValid, dif_pos h]
  | n + 1, h => by
    have hN : cfg0.N = 128 := N_0
    have hB : ¬(⟨n + 1, h⟩ : Fin cfg0.N).val % 128 = 0 := by dsimp only; omega
    rw [outsAt0_B V c ⟨n + 1, h⟩ hB]
    dsimp only
    rw [out_later_7]
    refine (pay_valid _ _ j).trans ?_
    show ((outsAt0 V c n _).2.2.2.1 : Vec Ideal S1x1 .f32) j + _ = _
    rw [outsAt7_apply c j n, Finset.sum_range_succ _ (n + 1), add_assoc, blockValid, dif_pos h]

/-- The valid-count result array's entry: zero plus the 128 block sums. -/
theorem final7_apply (c : Dev nD) (j : S1x1.Idx) :
    ((dat0 V c).arrAt 7 cfg0.N : Vec Ideal S1x1 .f32) j = Cert.Loss.zero + ∑ s ∈ Finset.range 128, blockValid V c s := by
  rw [final7 V c]
  exact outsAt7_apply V c j 127 lt127

/-- The continuity block sum at point `n` (0 past the grid: never used). -/
def blockCont (c : Dev nD) (n : ℕ) : Ideal .f32 :=
  if h : n < cfg0.N then sCont (iblk0 V c 0 ⟨n, h⟩) (iblk0 V c 2 ⟨n, h⟩) (iblk0 V c 3 ⟨n, h⟩) else 0

/-- The continuity accumulator's entry after point `n`: zero plus its block sums up to `n`. -/
theorem outsAt8_apply (c : Dev nD) (j : S1x1.Idx) : ∀ (n : ℕ) (h : n < cfg0.N),
    ((outsAt0 V c n h).2.2.2.2 : Vec Ideal S1x1 .f32) j = Cert.Loss.zero + ∑ s ∈ Finset.range (n + 1), blockCont V c s
  | 0, h => by
    rw [outsAt0_A V c ⟨0, h⟩ rfl]
    dsimp only
    rw [out_first_8]
    refine (pay_cont _ _ _ _ j).trans ?_
    rw [zero9, Finset.sum_range_one, blockCont, dif_pos h]
  | n + 1, h => by
    have hN : cfg0.N = 128 := N_0
    have hB : ¬(⟨n + 1, h⟩ : Fin cfg0.N).val % 128 = 0 := by dsimp only; omega
    rw [outsAt0_B V c ⟨n + 1, h⟩ hB]
    dsimp only
    rw [out_later_8]
    refine (pay_cont _ _ _ _ j).trans ?_
    show ((outsAt0 V c n _).2.2.2.2 : Vec Ideal S1x1 .f32) j + _ = _
    rw [outsAt8_apply c j n, Finset.sum_range_succ _ (n + 1), add_assoc, blockCont, dif_pos h]

/-- The continuity result array's entry: zero plus the 128 block sums. -/
theorem final8_apply (c : Dev nD) (j : S1x1.Idx) :
    ((dat0 V c).arrAt 8 cfg0.N : Vec Ideal S1x1 .f32) j = Cert.Loss.zero + ∑ s ∈ Finset.range 128, blockCont V c s := by
  rw [final8 V c]
  exact outsAt8_apply V c j 127 lt127

end Sum

end Cert.KernelIdeal.Reg0

end
-- ==== Proof.Reg1Body.lean ====
/-
  The second kernel (the reconstruction error), one grid point at a time.

  Its body loads a block of 32 reconstructions and the matching 32 images, forms the sum of the squared differences of
  the block, and adds it to the one-entry accumulator; at the first grid point the accumulator is first set to zero.
  What the body leaves in the accumulator's buffer is therefore, at the first point, `0-block + s` and, at every later
  point, `acc + s`, where `s` is the block's sum: one pure term `k1_pay2` of the two input blocks and of the
  accumulator's previous contents.
-/
import proofs.«162210_j73057393705419_2_alg».proof.Proof.Gen.KernelIdeal.Frame
import Idealize.ShloMosaic.Lib.Pipeline.Value
import Idealize.ShloMosaic.Lib.Tactic

set_option maxRecDepth 16384

noncomputable section

namespace Cert.KernelIdeal.Reg1

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A later grid point: the accumulator holding `xo` ends at the body's one store, `xo` plus the block's sum. -/
theorem out_later (c : Dev nD) (i : grid1.Coords) (a1 : Memref sig .tc .vmem S32x1x128x128 .f32) (h1 : a1.IsWhole)
    (a2 : Memref sig .tc .vmem S32x1x128x128 .f32) (h2 : a2.IsWhole) (a3 : Memref sig .tc .vmem S1x1 .f32) (h3 : a3.IsWhole)
    (hc : ¬cond1_0 i) (x0 x1 : Vec F S32x1x128x128 .f32) (xo : Vec F S1x1 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  rw [View.canon_unit_zero hz2]
  simp only [View.readAt_eq_ld, h1.read_unread, h2.read_unread, h3.read_unread,
    View.ld_unit_zero (S := S32x1x128x128) hz4, View.ld_unit_zero (S := S1x1) hz2]

/-- The first grid point: the accumulator is set to the zero block, read back, and ends at zero plus the block's sum. -/
theorem out_first (c : Dev nD) (i : grid1.Coords) (a1 : Memref sig .tc .vmem S32x1x128x128 .f32) (h1 : a1.IsWhole)
    (a2 : Memref sig .tc .vmem S32x1x128x128 .f32) (h2 : a2.IsWhole) (a3 : Memref sig .tc .vmem S1x1 .f32) (h3 : a3.IsWhole)
    (hc : cond1_0 i) (x0 x1 : Vec F S32x1x128x128 .f32) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x1) hz2, View.readCov_unit_zero (S := S1x1) _ hz2]
  simp only [View.readAt_eq_ld, h1.read_unread, h2.read_unread,
    View.ld_unit_zero (S := S32x1x128x128) hz4, View.ld_unit_zero (S := S1x1) hz2]

end Cert.KernelIdeal.Reg1

end
-- ==== Proof.Reg1Sum.lean ====
/-
  The second kernel's block sum, read on the extended reals.

  At a grid point the body reduces the squared differences of a [32,1,128,128] block along its last axis, then along
  the next, recasts the [32,1] column as [1,32,1], sums it to one entry and adds that to the accumulator. On the
  extended reals each reduction is the plain sum of its entries (no accumulator term: it starts from the neutral
  element), so the value stored is the accumulator's previous entry plus
      Σ_{b < 32} Σ_{h < 128} Σ_{w < 128} (x0[b,0,h,w] − x1[b,0,h,w])².
-/
import proofs.«162210_j73057393705419_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«162210_j73057393705419_2_alg».proof.Proof.LibIdxSums

set_option maxRecDepth 16384

noncomputable section

namespace Cert.KernelIdeal.Reg1

open Idealize.ShloMosaic Idealize.ShloMosaic.ValueIdx
open Cert.KernelIdeal Cert.KernelIdeal.Gen

/-- Two indices of a one-entry vector are equal. -/
theorem idx1_eq (a b : (⟨1, ![1]⟩ : Shape).Idx) : a = b := funext fun d => Fin.ext (by
  match d with
  | ⟨0, _⟩ =>
    have h1 : (a 0 : Nat) < 1 := (a 0).isLt
    have h2 : (b 0 : Nat) < 1 := (b 0).isLt
    show (a 0 : Nat) = (b 0 : Nat)
    omega)

/-- A one-entry vector recast as [1,1,1] and read at its one position is its entry. -/
theorem extract_unit {α : Type} (v : (⟨1, ![1]⟩ : Shape).Idx → α) (h : (⟨1, ![1]⟩ : Shape).ShapeCasts ⟨3, ![1, 1, 1]⟩)
    (h' : ∀ a, (![0, 0, 0] : Fin 3 → Nat) a < (⟨3, ![1, 1, 1]⟩ : Shape).size a) :
    extractAt ![0, 0, 0] (shapeCast ⟨3, ![1, 1, 1]⟩ v h) h' = v (ix1 0) := by
  unfold extractAt shapeCast
  exact congrArg v (idx1_eq _ _)

/-- The sum over the last axis of a S32x1x128x128 array, read at an index: the sum of the entries along that axis. -/
theorem lane4 (v : FVec Ideal S32x1x128x128 .f32) (hφ : FKind.Formats .f32) (hacc : (0x00000000#32 : BitVec 32) = FKind.add.neutral .f32 hφ) (c0 : Fin 32) (c1 : Fin 1) (c2 : Fin 128) :
    multiReduction .add [3] S32x1x128 v 0x00000000#32 reduces_S32x1x128x128_S32x1x128 hφ hacc (ix3 c0 c1 c2) = ∑ k : Fin 128, v (ix4 c0 c1 c2 k) :=
  (Ideal.multiReduction_add_single v _ reduces_S32x1x128x128_S32x1x128 hφ hacc (ix3 c0 c1 c2)).trans
    (Finset.sum_congr rfl fun k _ => congrArg v (funext fun d => Fin.ext (by match d with | ⟨0, _⟩ => rfl | ⟨1, _⟩ => rfl | ⟨2, _⟩ => rfl | ⟨3, _⟩ => rfl)))

/-- The sum over the last axis of a S32x1x128 array, read at an index: the sum of the entries along that axis. -/
theorem lane3 (v : FVec Ideal S32x1x128 .f32) (hφ : FKind.Formats .f32) (hacc : (0x00000000#32 : BitVec 32) = FKind.add.neutral .f32 hφ) (c0 : Fin 32) (c1 : Fin 1) :
    multiReduction .add [2] S32x1 v 0x00000000#32 reduces_S32x1x128_S32x1 hφ hacc (ix2 c0 c1) = ∑ k : Fin 128, v (ix3 c0 c1 k) :=
  (Ideal.multiReduction_add_single v _ reduces_S32x1x128_S32x1 hφ hacc (ix2 c0 c1)).trans
    (Finset.sum_congr rfl fun k _ => congrArg v (funext fun d => Fin.ext (by match d with | ⟨0, _⟩ => rfl | ⟨1, _⟩ => rfl | ⟨2, _⟩ => rfl)))

/-- The block's sum of squared differences. -/
def sSq (x0 x1 : Vec Ideal S32x1x128x128 .f32) : Ideal .f32 := ∑ b : Fin 32, ∑ h : Fin 128, ∑ w : Fin 128,
  ((x0 (ix4 b 0 h w) - x1 (ix4 b 0 h w)) * (x0 (ix4 b 0 h w) - x1 (ix4 b 0 h w)) : EReal)

theorem pay2_apply (x0 x1 : Vec Ideal S32x1x128x128 .f32) (xo : Vec Ideal S1x1 .f32) (j : S1x1.Idx) :
    k1_pay2 (F := Ideal) x0 x1 xo j = xo j + sSq x0 x1 := by
  unfold sSq k1_pay2
  dsimp only
  refine (ValueIdx.addf_apply _ _ j).trans ?_
  refine congrArg₂ (· + ·) (congrFun (shapeCast_self xo _) j) ?_
  refine (extract_unit _ _ _).trans ?_
  refine (Ideal.multiReduction_add_total _ _ reduces_S1x32x1_S1 (fun b => by match b with | ⟨0, _⟩ => rfl) _ _ (ix1 0)).trans ?_
  rw [Cert.LibIdxSums.sum_idx3]
  rw [Fin.sum_univ_one]
  refine Finset.sum_congr rfl fun b _ => ?_
  rw [Fin.sum_univ_one]
  refine (shapeCast_ab_1ab_apply _ _ 0 b 0).trans ?_
  refine (lane3 _ _ _ b 0).trans ?_
  refine Finset.sum_congr rfl fun h _ => ?_
  refine (lane4 _ _ _ b 0 h).trans ?_
  rfl

/-- The zero block the first grid point stores: the float word of 0. -/
theorem pay1_apply (j : S1x1.Idx) : k1_pay1 (F := Ideal) j = Ideal.ofBits .f32 0x00000000#32 := rfl

end Cert.KernelIdeal.Reg1

end
-- ==== Proof.Reg1Value.lean ====
/-
  The second kernel's result array.

  The accumulator's block never moves and is written back after the last of the 8 grid points only, so the result array
  ends holding what the body left at point 7 (its one block is the whole [1,1] array). Point by point the accumulator
  is set to `0 + s₀` at point 0 and to `acc + sₙ` afterwards (`sₙ` the block's sum of squared differences at point `n`), so
  its entry after point `n` is `0 + Σ_{s ≤ n} s_s` on the extended reals: by induction on the point, never by
  enumerating the grid.
-/
import proofs.«162210_j73057393705419_2_alg».proof.Proof.Reg1Body
import proofs.«162210_j73057393705419_2_alg».proof.Proof.Reg1Sum

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen

section Final

variable {F : FTy → Type} [FloatOps F]
variable (V : (c : Dev nD) → (b : Ref sig .tc) → Buf (Elt F) ((c : Thread nD τ).loc b))

theorem lt7 : 7 < cfg1.N := by rw [show cfg1.N = 8 from N_1]; decide

/-- What the accumulator holds after the last point, as contents of the result array. -/
abbrev result (c : Dev nD) : Buf (Elt F) ((c : Thread nD τ).loc main_v40) := outsAt1 V c 7 lt7

/-- The accumulator's block sits at the array's origin at every point. -/
theorem idx_out : ∀ t : Fin cfg1.N, ∀ a : Fin 2, win1_2.index t a = 0 :=
  (by decide +kernel : ∀ t : Fin grid1.N, ∀ a : Fin 2, win1_2.index t a = 0)

/-- The one write-back, at point 7, writes the accumulator: block (0,0) of the [1,1] array read through zero offsets is the array. -/
theorem flushed_eq (c : Dev nD) (t : Fin cfg1.N) (hf : (cfg1.win 2).flush t = true) :
    (dat1 V c).flushed 2 t = ((cfg1.win 2).blk t).view.read (Elt F) (result V c) := by
  have hN : cfg1.N = 8 := N_1
  have h7 : t.val = 7 := by have := (flush1_2 t).mp hf; have := t.isLt; omega
  obtain rfl : t = ⟨7, lt7⟩ := Fin.ext h7
  show (cfg1.win 2).cut (grid1.coords ⟨7, lt7⟩) ((dat1 V c).after 2 ⟨7, lt7⟩) = _
  rw [after1_2]
  have hz' : (fun a => win1_2.index ⟨7, lt7⟩ a * main_v40.ty.shape.size a) = fun _ => 0 :=
    funext fun a => by rw [idx_out ⟨7, lt7⟩ a, Nat.zero_mul]
  exact (Memref.read_access_unit_zero (Elt F) main_v40 hz' (fun a => by rw [congrFun hz' a]; simp) (result V c)).symm

/-- So the result array ends holding the accumulator's contents after point 7. -/
theorem final (c : Dev nD) : (dat1 V c).arrAt 2 cfg1.N = result V c :=
  (dat1 V c).arrAt_eq_of_cover 2 (result V c) (flushed_eq V c) fun i =>
    ⟨⟨7, lt7⟩, (flush1_2 ⟨7, lt7⟩).mpr rfl, by
      show i ∈ ((View.whole main_v40).slice (win1_2.rect ⟨7, lt7⟩)).set
      rw [View.set_slice_whole, Rect.mem_set_unit]
      intro a
      have h0 : (i 0 : Nat) < 1 := (i 0).isLt
      have h1 : (i 1 : Nat) < 1 := (i 1).isLt
      match a with
      | ⟨0, _⟩ => show win1_2.index ⟨7, lt7⟩ 0 * win1_2.size 0 ≤ (i 0 : Nat) ∧ (i 0 : Nat) < win1_2.index ⟨7, lt7⟩ 0 * win1_2.size 0 + win1_2.xsize (grid1.coords ⟨7, lt7⟩) 0
                  rw [idx_out ⟨7, lt7⟩ 0, show win1_2.xsize (grid1.coords ⟨7, lt7⟩) 0 = 1 from by decide +kernel]; omega
      | ⟨1, _⟩ => show win1_2.index ⟨7, lt7⟩ 1 * win1_2.size 1 ≤ (i 1 : Nat) ∧ (i 1 : Nat) < win1_2.index ⟨7, lt7⟩ 1 * win1_2.size 1 + win1_2.xsize (grid1.coords ⟨7, lt7⟩) 1
                  rw [idx_out ⟨7, lt7⟩ 1, show win1_2.xsize (grid1.coords ⟨7, lt7⟩) 1 = 1 from by decide +kernel]; omega⟩

end Final

section Sum

variable (V : (c : Dev nD) → (b : Ref sig .tc) → Buf (Elt Ideal) ((c : Thread nD τ).loc b))

/-- The sum of squared differences of the two input blocks at point `n` (0 past the grid: never used). -/
def blockSq (c : Dev nD) (n : ℕ) : Ideal .f32 :=
  if h : n < cfg1.N then sSq (iblk1 V c 0 ⟨n, h⟩) (iblk1 V c 1 ⟨n, h⟩) else 0

/-- The accumulator's entry after point `n`: zero plus the block sums of the points up to `n`. -/
theorem outsAt_apply (c : Dev nD) (j : S1x1.Idx) : ∀ (n : ℕ) (h : n < cfg1.N),
    (outsAt1 V c n h : Vec Ideal S1x1 .f32) j = Ideal.ofBits .f32 0x00000000#32 + ∑ s ∈ Finset.range (n + 1), blockSq V c s
  | 0, h => by
    rw [outsAt1_A V c ⟨0, h⟩ rfl, out_first]
    refine (pay2_apply _ _ _ j).trans ?_
    rw [pay1_apply, Finset.sum_range_one, blockSq, dif_pos h]
  | n + 1, h => by
    have hN : cfg1.N = 8 := N_1
    have hB : ¬(⟨n + 1, h⟩ : Fin cfg1.N).val % 8 = 0 := by dsimp only; omega
    rw [outsAt1_B V c ⟨n + 1, h⟩ hB, out_later]
    refine (pay2_apply _ _ _ j).trans ?_
    show (outsAt1 V c n _ : Vec Ideal S1x1 .f32) j + _ = _
    rw [outsAt_apply c j n, Finset.sum_range_succ _ (n + 1), add_assoc, blockSq, dif_pos h]

/-- The result array's entry: zero plus the eight block sums. -/
theorem final_apply (c : Dev nD) (j : S1x1.Idx) :
    ((dat1 V c).arrAt 2 cfg1.N : Vec Ideal S1x1 .f32) j = Ideal.ofBits .f32 0x00000000#32 + ∑ s ∈ Finset.range 8, blockSq V c s := by
  rw [final V c]
  exact outsAt_apply V c j 7 lt7

end Sum

end Cert.KernelIdeal.Reg1

end
-- ==== Proof.KBlocks.lean ====
/-
  The blocks the two kernels read, as entries of the whole arrays.

  Every input window of both kernels cuts its array along the batch axis only: at grid point `t` the first kernel's
  blocks are the batch rows `2t` and `2t + 1` of its four arrays, the second kernel's the rows `32t … 32t + 31` of its two.
  So a block read at (b, …) is the array read at (rows·t + b, …): the block's coordinate on an axis is always the window's
  index there times the block's extent plus the coordinate inside the block, and the index maps are decided once over
  the grid.
-/
import proofs.«162210_j73057393705419_2_alg».proof.Proof.Gen.KernelIdeal.Frame
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.SL.Sem Idealize.ShloMosaic.ValueIdx
open Cert.KernelIdeal Cert.KernelIdeal.Gen

variable {F : FTy → Type} [FloatOps F]
variable (V : (c : Dev nD) → (b : Ref sig .tc) → Buf (Elt F) ((c : Thread nD τ).loc b))

/-- Window 0 of kernel 0 moves along the batch axis only. -/
theorem idx0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Its block at point `t`, read at an index: the array `main_arg0` at batch row `2·t + b`. -/
theorem blk0_0 (c : Dev nD) (t : Fin cfg0.N) (b : Fin 2) (m : Fin 4096) (k : Fin 9) (hB : 2 * t.val + b.val < 256) :
    (iblk0 V c 0 t : Vec F S2x4096x9 .f32) (ix3 b m k) = (V c main_arg0 : Vec F S256x4096x9 .f32) (ix3 ⟨2 * t.val + b.val, hB⟩ m k) := by
  unfold iblk0
  rw [View.read_apply]
  show V c main_arg0 _ = V c main_arg0 _
  refine congrArg (V c main_arg0) (funext fun a => Fin.ext ?_)
  match a with
  | ⟨0, _⟩ => show win0_0.index t 0 * 2 + 1 * b.val = 2 * t.val + b.val; rw [(idx0_0 t).1]; omega
  | ⟨1, _⟩ => show win0_0.index t 1 * 4096 + 1 * m.val = m.val; rw [(idx0_0 t).2.1]; omega
  | ⟨2, _⟩ => show win0_0.index t 2 * 9 + 1 * k.val = k.val; rw [(idx0_0 t).2.2]; omega

/-- Window 1 of kernel 0 moves along the batch axis only. -/
theorem idx0_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Its block at point `t`, read at an index: the array `main_arg1` at batch row `2·t + b`. -/
theorem blk0_1 (c : Dev nD) (t : Fin cfg0.N) (b : Fin 2) (m : Fin 4096) (k : Fin 9) (hB : 2 * t.val + b.val < 256) :
    (iblk0 V c 1 t : Vec F S2x4096x9 .f32) (ix3 b m k) = (V c main_arg1 : Vec F S256x4096x9 .f32) (ix3 ⟨2 * t.val + b.val, hB⟩ m k) := by
  unfold iblk0
  rw [View.read_apply]
  show V c main_arg1 _ = V c main_arg1 _
  refine congrArg (V c main_arg1) (funext fun a => Fin.ext ?_)
  match a with
  | ⟨0, _⟩ => show win0_1.index t 0 * 2 + 1 * b.val = 2 * t.val + b.val; rw [(idx0_1 t).1]; omega
  | ⟨1, _⟩ => show win0_1.index t 1 * 4096 + 1 * m.val = m.val; rw [(idx0_1 t).2.1]; omega
  | ⟨2, _⟩ => show win0_1.index t 2 * 9 + 1 * k.val = k.val; rw [(idx0_1 t).2.2]; omega

/-- Window 2 of kernel 0 moves along the batch axis only. -/
theorem idx0_2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Its block at point `t`, read at an index: the array `main_v19` at batch row `2·t + b`. -/
theorem blk0_2 (c : Dev nD) (t : Fin cfg0.N) (b : Fin 2) (m : Fin 4096) (k : Fin 2) (hB : 2 * t.val + b.val < 256) :
    (iblk0 V c 2 t : Vec F S2x4096x2 .f32) (ix3 b m k) = (V c main_v19 : Vec F S256x4096x2 .f32) (ix3 ⟨2 * t.val + b.val, hB⟩ m k) := by
  unfold iblk0
  rw [View.read_apply]
  show V c main_v19 _ = V c main_v19 _
  refine congrArg (V c main_v19) (funext fun a => Fin.ext ?_)
  match a with
  | ⟨0, _⟩ => show win0_2.index t 0 * 2 + 1 * b.val = 2 * t.val + b.val; rw [(idx0_2 t).1]; omega
  | ⟨1, _⟩ => show win0_2.index t 1 * 4096 + 1 * m.val = m.val; rw [(idx0_2 t).2.1]; omega
  | ⟨2, _⟩ => show win0_2.index t 2 * 2 + 1 * k.val = k.val; rw [(idx0_2 t).2.2]; omega

/-- Window 3 of kernel 0 moves along the batch axis only. -/
theorem idx0_3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- Its block at point `t`, read at an index: the array `main_v21` at batch row `2·t + b`. -/
theorem blk0_3 (c : Dev nD) (t : Fin cfg0.N) (b : Fin 2) (m : Fin 4096) (k : Fin 1) (hB : 2 * t.val + b.val < 256) :
    (iblk0 V c 3 t : Vec F S2x4096x1 .f32) (ix3 b m k) = (V c main_v21 : Vec F S256x4096x1 .f32) (ix3 ⟨2 * t.val + b.val, hB⟩ m k) := by
  unfold iblk0
  rw [View.read_apply]
  show V c main_v21 _ = V c main_v21 _
  refine congrArg (V c main_v21) (funext fun a => Fin.ext ?_)
  match a with
  | ⟨0, _⟩ => show win0_3.index t 0 * 2 + 1 * b.val = 2 * t.val + b.val; rw [(idx0_3 t).1]; omega
  | ⟨1, _⟩ => show win0_3.index t 1 * 4096 + 1 * m.val = m.val; rw [(idx0_3 t).2.1]; omega
  | ⟨2, _⟩ => show win0_3.index t 2 * 1 + 1 * k.val = k.val; rw [(idx0_3 t).2.2]; omega

/-- Window 0 of kernel 1 moves along the batch axis only. -/
theorem idx1_0 : ∀ t : Fin cfg1.N, win1_0.index t 0 = t.val ∧ win1_0.index t 1 = 0 ∧ win1_0.index t 2 = 0 ∧ win1_0.index t 3 = 0 :=
  (by decide +kernel : ∀ t : Fin grid1.N, win1_0.index t 0 = t.val ∧ win1_0.index t 1 = 0 ∧ win1_0.index t 2 = 0 ∧ win1_0.index t 3 = 0)

/-- Its block at point `t`, read at an index: the array `main_arg2` at batch row `32·t + b`. -/
theorem blk1_0 (c : Dev nD) (t : Fin cfg1.N) (b : Fin 32) (u : Fin 1) (h : Fin 128) (w : Fin 128) (hB : 32 * t.val + b.val < 256) :
    (iblk1 V c 0 t : Vec F S32x1x128x128 .f32) (ix4 b u h w) = (V c main_arg2 : Vec F S256x1x128x128 .f32) (ix4 ⟨32 * t.val + b.val, hB⟩ u h w) := by
  unfold iblk1
  rw [View.read_apply]
  show V c main_arg2 _ = V c main_arg2 _
  refine congrArg (V c main_arg2) (funext fun a => Fin.ext ?_)
  match a with
  | ⟨0, _⟩ => show win1_0.index t 0 * 32 + 1 * b.val = 32 * t.val + b.val; rw [(idx1_0 t).1]; omega
  | ⟨1, _⟩ => show win1_0.index t 1 * 1 + 1 * u.val = u.val; rw [(idx1_0 t).2.1]; omega
  | ⟨2, _⟩ => show win1_0.index t 2 * 128 + 1 * h.val = h.val; rw [(idx1_0 t).2.2.1]; omega
  | ⟨3, _⟩ => show win1_0.index t 3 * 128 + 1 * w.val = w.val; rw [(idx1_0 t).2.2.2]; omega

/-- Window 1 of kernel 1 moves along the batch axis only. -/
theorem idx1_1 : ∀ t : Fin cfg1.N, win1_1.index t 0 = t.val ∧ win1_1.index t 1 = 0 ∧ win1_1.index t 2 = 0 ∧ win1_1.index t 3 = 0 :=
  (by decide +kernel : ∀ t : Fin grid1.N, win1_1.index t 0 = t.val ∧ win1_1.index t 1 = 0 ∧ win1_1.index t 2 = 0 ∧ win1_1.index t 3 = 0)

/-- Its block at point `t`, read at an index: the array `main_arg3` at batch row `32·t + b`. -/
theorem blk1_1 (c : Dev nD) (t : Fin cfg1.N) (b : Fin 32) (u : Fin 1) (h : Fin 128) (w : Fin 128) (hB : 32 * t.val + b.val < 256) :
    (iblk1 V c 1 t : Vec F S32x1x128x128 .f32) (ix4 b u h w) = (V c main_arg3 : Vec F S256x1x128x128 .f32) (ix4 ⟨32 * t.val + b.val, hB⟩ u h w) := by
  unfold iblk1
  rw [View.read_apply]
  show V c main_arg3 _ = V c main_arg3 _
  refine congrArg (V c main_arg3) (funext fun a => Fin.ext ?_)
  match a with
  | ⟨0, _⟩ => show win1_1.index t 0 * 32 + 1 * b.val = 32 * t.val + b.val; rw [(idx1_1 t).1]; omega
  | ⟨1, _⟩ => show win1_1.index t 1 * 1 + 1 * u.val = u.val; rw [(idx1_1 t).2.1]; omega
  | ⟨2, _⟩ => show win1_1.index t 2 * 128 + 1 * h.val = h.val; rw [(idx1_1 t).2.2.1]; omega
  | ⟨3, _⟩ => show win1_1.index t 3 * 128 + 1 * w.val = w.val; rw [(idx1_1 t).2.2.2]; omega

end Cert.KernelIdeal.KBlocks

end
-- ==== Proof.KEntry.lean ====
/-
  The buffer contents the two TensorCore regions of the kernel's @main are entered with.

  The generated frame states the contents at every segment boundary as a fold `W0 … W18` over the launch memory: a
  stretch of host operations rewrites the buffers it writes, a region rewrites its output arrays. Here the fold is read
  at the buffers the regions take as inputs: the four arguments, which nothing writes, so that they hold their launch
  contents; and the two arrays the host prefix computes for region 0 — the next valid point's coordinates and the mask of
  the slots that have a next valid point — which are the same compositions of host operations the reference applies.
-/
import proofs.«162210_j73057393705419_2_alg».proof.Proof.Gen.KernelIdeal.Frame
import proofs.«162210_j73057393705419_2_alg».proof.Proof.RefReadP
import Idealize.ShloMosaic.Lib.StableHlo.Run

noncomputable section

namespace Cert.KernelIdeal.KFold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- A buffer that no operation of a stretch writes holds after the stretch what it held before: the stretch's written
    references are read off its literal list and each differs from the buffer's. -/
local macro "not_written " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The arguments at the regions' entries

No host operation writes an argument, and region 0 does not write the two arguments region 1 reads: walking the fold
back from a region's entry to the launch memory, every step leaves the argument's buffer as it was. -/

theorem W10_main_arg0 : W10 m ρ c (Proc.devRef .tc main_arg0) = m ((c : Thread nD τ).loc main_arg0) :=
  calc W10 m ρ c (Proc.devRef .tc main_arg0)
    _ = W9 m ρ c (Proc.devRef .tc main_arg0) := not_written hostOps0_9
    _ = W8 m ρ c (Proc.devRef .tc main_arg0) := not_written hostOps0_8
    _ = W7 m ρ c (Proc.devRef .tc main_arg0) := not_written hostOps0_7
    _ = W6 m ρ c (Proc.devRef .tc main_arg0) := not_written hostOps0_6
    _ = W5 m ρ c (Proc.devRef .tc main_arg0) := not_written hostOps0_5
    _ = W4 m ρ c (Proc.devRef .tc main_arg0) := not_written hostOps0_4
    _ = W3 m ρ c (Proc.devRef .tc main_arg0) := not_written hostOps0_3
    _ = W2 m ρ c (Proc.devRef .tc main_arg0) := not_written hostOps0_2
    _ = W1 m ρ c (Proc.devRef .tc main_arg0) := not_written hostOps0_1
    _ = W0 m ρ c (Proc.devRef .tc main_arg0) := not_written hostOps0
    _ = m ((c : Thread nD τ).loc main_arg0) := rfl

theorem W10_main_arg1 : W10 m ρ c (Proc.devRef .tc main_arg1) = m ((c : Thread nD τ).loc main_arg1) :=
  calc W10 m ρ c (Proc.devRef .tc main_arg1)
    _ = W9 m ρ c (Proc.devRef .tc main_arg1) := not_written hostOps0_9
    _ = W8 m ρ c (Proc.devRef .tc main_arg1) := not_written hostOps0_8
    _ = W7 m ρ c (Proc.devRef .tc main_arg1) := not_written hostOps0_7
    _ = W6 m ρ c (Proc.devRef .tc main_arg1) := not_written hostOps0_6
    _ = W5 m ρ c (Proc.devRef .tc main_arg1) := not_written hostOps0_5
    _ = W4 m ρ c (Proc.devRef .tc main_arg1) := not_written hostOps0_4
    _ = W3 m ρ c (Proc.devRef .tc main_arg1) := not_written hostOps0_3
    _ = W2 m ρ c (Proc.devRef .tc main_arg1) := not_written hostOps0_2
    _ = W1 m ρ c (Proc.devRef .tc main_arg1) := not_written hostOps0_1
    _ = W0 m ρ c (Proc.devRef .tc main_arg1) := not_written hostOps0
    _ = m ((c : Thread nD τ).loc main_arg1) := rfl

theorem W10_main_arg2 : W10 m ρ c (Proc.devRef .tc main_arg2) = m ((c : Thread nD τ).loc main_arg2) :=
  calc W10 m ρ c (Proc.devRef .tc main_arg2)
    _ = W9 m ρ c (Proc.devRef .tc main_arg2) := not_written hostOps0_9
    _ = W8 m ρ c (Proc.devRef .tc main_arg2) := not_written hostOps0_8
    _ = W7 m ρ c (Proc.devRef .tc main_arg2) := not_written hostOps0_7
    _ = W6 m ρ c (Proc.devRef .tc main_arg2) := not_written hostOps0_6
    _ = W5 m ρ c (Proc.devRef .tc main_arg2) := not_written hostOps0_5
    _ = W4 m ρ c (Proc.devRef .tc main_arg2) := not_written hostOps0_4
    _ = W3 m ρ c (Proc.devRef .tc main_arg2) := not_written hostOps0_3
    _ = W2 m ρ c (Proc.devRef .tc main_arg2) := not_written hostOps0_2
    _ = W1 m ρ c (Proc.devRef .tc main_arg2) := not_written hostOps0_1
    _ = W0 m ρ c (Proc.devRef .tc main_arg2) := not_written hostOps0
    _ = m ((c : Thread nD τ).loc main_arg2) := rfl

theorem W10_main_arg3 : W10 m ρ c (Proc.devRef .tc main_arg3) = m ((c : Thread nD τ).loc main_arg3) :=
  calc W10 m ρ c (Proc.devRef .tc main_arg3)
    _ = W9 m ρ c (Proc.devRef .tc main_arg3) := not_written hostOps0_9
    _ = W8 m ρ c (Proc.devRef .tc main_arg3) := not_written hostOps0_8
    _ = W7 m ρ c (Proc.devRef .tc main_arg3) := not_written hostOps0_7
    _ = W6 m ρ c (Proc.devRef .tc main_arg3) := not_written hostOps0_6
    _ = W5 m ρ c (Proc.devRef .tc main_arg3) := not_written hostOps0_5
    _ = W4 m ρ c (Proc.devRef .tc main_arg3) := not_written hostOps0_4
    _ = W3 m ρ c (Proc.devRef .tc main_arg3) := not_written hostOps0_3
    _ = W2 m ρ c (Proc.devRef .tc main_arg3) := not_written hostOps0_2
    _ = W1 m ρ c (Proc.devRef .tc main_arg3) := not_written hostOps0_1
    _ = W0 m ρ c (Proc.devRef .tc main_arg3) := not_written hostOps0
    _ = m ((c : Thread nD τ).loc main_arg3) := rfl

/-- Region 0 is entered with the first argument as launched. -/
theorem entry0_arg0 : V10 m ρ c main_arg0 = m ((c : Thread nD τ).loc main_arg0) := W10_main_arg0 m ρ c
/-- Region 0 is entered with the second argument as launched. -/
theorem entry0_arg1 : V10 m ρ c main_arg1 = m ((c : Thread nD τ).loc main_arg1) := W10_main_arg1 m ρ c

/-- Region 1 is entered with the third argument as launched. -/
theorem entry1_arg2 : V16 m ρ c main_arg2 = m ((c : Thread nD τ).loc main_arg2) :=
  calc W16 m ρ c (Proc.devRef .tc main_arg2)
    _ = W15 m ρ c (Proc.devRef .tc main_arg2) := not_written hostOps1_4
    _ = W14 m ρ c (Proc.devRef .tc main_arg2) := not_written hostOps1_3
    _ = W13 m ρ c (Proc.devRef .tc main_arg2) := not_written hostOps1_2
    _ = W12 m ρ c (Proc.devRef .tc main_arg2) := not_written hostOps1_1
    _ = W11 m ρ c (Proc.devRef .tc main_arg2) := not_written hostOps1
    _ = W10 m ρ c (Proc.devRef .tc main_arg2) := W11_of_ne m ρ c main_arg2 (by decide)
    _ = m ((c : Thread nD τ).loc main_arg2) := W10_main_arg2 m ρ c

/-- Region 1 is entered with the fourth argument as launched. -/
theorem entry1_arg3 : V16 m ρ c main_arg3 = m ((c : Thread nD τ).loc main_arg3) :=
  calc W16 m ρ c (Proc.devRef .tc main_arg3)
    _ = W15 m ρ c (Proc.devRef .tc main_arg3) := not_written hostOps1_4
    _ = W14 m ρ c (Proc.devRef .tc main_arg3) := not_written hostOps1_3
    _ = W13 m ρ c (Proc.devRef .tc main_arg3) := not_written hostOps1_2
    _ = W12 m ρ c (Proc.devRef .tc main_arg3) := not_written hostOps1_1
    _ = W11 m ρ c (Proc.devRef .tc main_arg3) := not_written hostOps1
    _ = W10 m ρ c (Proc.devRef .tc main_arg3) := W11_of_ne m ρ c main_arg3 (by decide)
    _ = m ((c : Thread nD τ).loc main_arg3) := W10_main_arg3 m ρ c

open Cert.ReferenceIdeal.ReadP

/-! ## Concatenation of two operands

The concatenation takes its operands as a list of shaped arrays and a proof about the list's shapes, so an equation
between operands is not carried through it by rewriting; it is by this congruence. -/

theorem cat2_congr {α : Type} {t : Shape} {ax : Fin t.rank} {s1 s2 : Shape} {a a' : s1.Idx → α} {b b' : s2.Idx → α}
    (h : Shape.Concatenates [s1, s2] t ax) (ha : a = a') (hb : b = b') :
    concatenate t ax [⟨s1, a⟩, ⟨s2, b⟩] h = concatenate t ax [⟨s1, a'⟩, ⟨s2, b'⟩] h := by
  subst ha; subst hb; rfl

/-! ## The called functions' operations, at the buffers

A called function's operation is printed over references that carry the tensor type and moves its function to the
buffer's own type along that equation; at literal references the transport is the identity. Each such stretch is
restated here with the bare functions, so that the transports never enter a term. The window fold, the reversal, the
axis fold and the gather are compared as they stand, never opened. -/

section Plain

seal Host.reduceWindow Host.reverse Host.gather Host.reduce

set_option maxRecDepth 16384

theorem hostOps0_1_plain : (hostOps0_1 : List (HloOp τ sig (Elt F))) =
  [ StableHlo.unary main_v5 main_call0_v0 ((broadcastInDim S256x4096 ![0, 1] bcast_S1x4096_S256x4096_0_1) : (⟨S1x4096, .i32⟩ : BufTy).Contents (Elt F) → (⟨S256x4096, .i32⟩ : BufTy).Contents (Elt F)),
    StableHlo.unary main_c main_call0_v1 ((broadcastInDim S256x4096 ![] bcast_S_S256x4096) : (⟨S_, .i32⟩ : BufTy).Contents (Elt F) → (⟨S256x4096, .i32⟩ : BufTy).Contents (Elt F)),
    StableHlo.ternary main_v3 main_call0_v0 main_call0_v1 main_v6 (select : (⟨S256x4096, .i1⟩ : BufTy).Contents (Elt F) → (⟨S256x4096, .i32⟩ : BufTy).Contents (Elt F) → (⟨S256x4096, .i32⟩ : BufTy).Contents (Elt F) → (⟨S256x4096, .i32⟩ : BufTy).Contents (Elt F)) ] := rfl

theorem hostOps0_2_plain : (hostOps0_2 : List (HloOp τ sig (Elt F))) =
  [ StableHlo.unary main_v6 main_v7 ((Host.reverse [1]) : (⟨S256x4096, .i32⟩ : BufTy).Contents (Elt F) → (⟨S256x4096, .i32⟩ : BufTy).Contents (Elt F)) ] := rfl

theorem hostOps0_3_plain : (hostOps0_3 : List (HloOp τ sig (Elt F))) =
  [ StableHlo.nullary main_call2_c (constantI S_ 32 2147483647#32),
    StableHlo.unary main_call2_c main_call2_v0 ((broadcastInDim S_ ![] bcast_S_S_) : (⟨S_, .i32⟩ : BufTy).Contents (Elt F) → (⟨S_, .i32⟩ : BufTy).Contents (Elt F)),
    StableHlo.binary main_v7 main_call2_v0 main_v8 ((fun x v => Host.reduceWindow IntOp.minsi ![1, 4096] ![1, 1] ![0, 4095] ![0, 0] x v reduceWindows_S256x4096_S256x4096_w1s1p0_0_w4096s1p4095_0 h_S_) : (⟨S256x4096, .i32⟩ : BufTy).Contents (Elt F) → (⟨S_, .i32⟩ : BufTy).Contents (Elt F) → (⟨S256x4096, .i32⟩ : BufTy).Contents (Elt F)) ] := rfl

theorem hostOps0_4_plain : (hostOps0_4 : List (HloOp τ sig (Elt F))) =
  [ StableHlo.unary main_v8 main_v9 ((Host.reverse [1]) : (⟨S256x4096, .i32⟩ : BufTy).Contents (Elt F) → (⟨S256x4096, .i32⟩ : BufTy).Contents (Elt F)) ] := rfl

theorem hostOps0_6_plain : (hostOps0_6 : List (HloOp τ sig (Elt F))) =
  [ StableHlo.unary main_c_2 main_call4_v0 (id : (⟨S_, .i32⟩ : BufTy).Contents (Elt F) → (⟨S_, .i32⟩ : BufTy).Contents (Elt F)),
    StableHlo.unary main_call4_v0 main_call4_v1 ((broadcastInDim S256x4096 ![] bcast_S_S256x4096) : (⟨S_, .i32⟩ : BufTy).Contents (Elt F) → (⟨S256x4096, .i32⟩ : BufTy).Contents (Elt F)),
    StableHlo.binary main_call4_v1 main_v12 main_call4_v2 (maxsi : (⟨S256x4096, .i32⟩ : BufTy).Contents (Elt F) → (⟨S256x4096, .i32⟩ : BufTy).Contents (Elt F) → (⟨S256x4096, .i32⟩ : BufTy).Contents (Elt F)),
    StableHlo.unary main_c_3 main_call4_v3 (id : (⟨S_, .i32⟩ : BufTy).Contents (Elt F) → (⟨S_, .i32⟩ : BufTy).Contents (Elt F)),
    StableHlo.unary main_call4_v3 main_call4_v4 ((broadcastInDim S256x4096 ![] bcast_S_S256x4096) : (⟨S_, .i32⟩ : BufTy).Contents (Elt F) → (⟨S256x4096, .i32⟩ : BufTy).Contents (Elt F)),
    StableHlo.binary main_call4_v4 main_call4_v2 main_v16 (minsi : (⟨S256x4096, .i32⟩ : BufTy).Contents (Elt F) → (⟨S256x4096, .i32⟩ : BufTy).Contents (Elt F) → (⟨S256x4096, .i32⟩ : BufTy).Contents (Elt F)) ] := rfl

theorem hostOps0_8_plain : (hostOps0_8 : List (HloOp τ sig (Elt F))) =
  [ StableHlo.nullary main_call5_c (constantI S_ 32 0#32),
    StableHlo.unary main_call5_c main_call5_v0 ((broadcastInDim S256x4096x1 ![] bcast_S_S256x4096x1) : (⟨S_, .i32⟩ : BufTy).Contents (Elt F) → (⟨S256x4096x1, .i32⟩ : BufTy).Contents (Elt F)),
    StableHlo.binary main_v18 main_call5_v0 main_call5_v1 ((cmpi .slt) : (⟨S256x4096x1, .i32⟩ : BufTy).Contents (Elt F) → (⟨S256x4096x1, .i32⟩ : BufTy).Contents (Elt F) → (⟨S256x4096x1, .i1⟩ : BufTy).Contents (Elt F)),
    StableHlo.nullary main_call5_c_0 (constantI S_ 32 4096#32),
    StableHlo.unary main_call5_c_0 main_call5_v2 ((broadcastInDim S256x4096x1 ![] bcast_S_S256x4096x1) : (⟨S_, .i32⟩ : BufTy).Contents (Elt F) → (⟨S256x4096x1, .i32⟩ : BufTy).Contents (Elt F)),
    StableHlo.binary main_v18 main_call5_v2 main_call5_v3 (addi : (⟨S256x4096x1, .i32⟩ : BufTy).Contents (Elt F) → (⟨S256x4096x1, .i32⟩ : BufTy).Contents (Elt F) → (⟨S256x4096x1, .i32⟩ : BufTy).Contents (Elt F)),
    StableHlo.ternary main_call5_v1 main_call5_v3 main_v18 main_call5_v4 (select : (⟨S256x4096x1, .i1⟩ : BufTy).Contents (Elt F) → (⟨S256x4096x1, .i32⟩ : BufTy).Contents (Elt F) → (⟨S256x4096x1, .i32⟩ : BufTy).Contents (Elt F) → (⟨S256x4096x1, .i32⟩ : BufTy).Contents (Elt F)),
    StableHlo.nullary main_call5_c_1 (constantI S1 32 4095#32),
    StableHlo.nullary main_call5_c_2 (constantI S_ 32 0#32),
    StableHlo.unary main_call5_c_2 main_call5_v5 ((broadcastInDim S256x4096x1 ![] bcast_S_S256x4096x1) : (⟨S_, .i32⟩ : BufTy).Contents (Elt F) → (⟨S256x4096x1, .i32⟩ : BufTy).Contents (Elt F)),
    StableHlo.binary main_call5_v4 main_call5_v5 main_call5_v6 ((cmpi .sge) : (⟨S256x4096x1, .i32⟩ : BufTy).Contents (Elt F) → (⟨S256x4096x1, .i32⟩ : BufTy).Contents (Elt F) → (⟨S256x4096x1, .i1⟩ : BufTy).Contents (Elt F)),
    StableHlo.unary main_call5_c_1 main_call5_v7 ((broadcastInDim S1x1x1 ![2] bcast_S1_S1x1x1_2) : (⟨S1, .i32⟩ : BufTy).Contents (Elt F) → (⟨S1x1x1, .i32⟩ : BufTy).Contents (Elt F)),
    StableHlo.unary main_call5_v7 main_call5_v8 ((broadcastInDim S256x4096x1 ![0, 1, 2] bcast_S1x1x1_S256x4096x1_0_1_2) : (⟨S1x1x1, .i32⟩ : BufTy).Contents (Elt F) → (⟨S256x4096x1, .i32⟩ : BufTy).Contents (Elt F)),
    StableHlo.binary main_call5_v4 main_call5_v8 main_call5_v9 ((cmpi .sle) : (⟨S256x4096x1, .i32⟩ : BufTy).Contents (Elt F) → (⟨S256x4096x1, .i32⟩ : BufTy).Contents (Elt F) → (⟨S256x4096x1, .i1⟩ : BufTy).Contents (Elt F)),
    StableHlo.binary main_call5_v6 main_call5_v9 main_call5_v10 (andi : (⟨S256x4096x1, .i1⟩ : BufTy).Contents (Elt F) → (⟨S256x4096x1, .i1⟩ : BufTy).Contents (Elt F) → (⟨S256x4096x1, .i1⟩ : BufTy).Contents (Elt F)),
    StableHlo.nullary main_call5_c_3 (constantI S_ 1 1#1),
    StableHlo.binary main_call5_v10 main_call5_c_3 main_call5_v11 ((fun x v => Host.reduce IntOp.andi x v reducesTo_S256x4096x1_S256x4096_d2 h_S_) : (⟨S256x4096x1, .i1⟩ : BufTy).Contents (Elt F) → (⟨S_, .i1⟩ : BufTy).Contents (Elt F) → (⟨S256x4096, .i1⟩ : BufTy).Contents (Elt F)),
    StableHlo.binary main_v17 main_call5_v4 main_call5_v12 ((fun x i => Host.gather gather_S256x4096x2_S256x4096x1_S256x4096x2_2_1_0_0_1_2_112 x i) : (⟨S256x4096x2, .f32⟩ : BufTy).Contents (Elt F) → (⟨S256x4096x1, .i32⟩ : BufTy).Contents (Elt F) → (⟨S256x4096x2, .f32⟩ : BufTy).Contents (Elt F)),
    StableHlo.unary main_call5_v11 main_call5_v13 ((broadcastInDim S256x4096x2 ![0, 1] bcast_S256x4096_S256x4096x2_0_1) : (⟨S256x4096, .i1⟩ : BufTy).Contents (Elt F) → (⟨S256x4096x2, .i1⟩ : BufTy).Contents (Elt F)),
    StableHlo.nullary main_call5_cst (constant S_ .f32 0x7FC00000#32),
    StableHlo.unary main_call5_cst main_call5_v14 ((broadcastInDim S256x4096x2 ![] bcast_S_S256x4096x2) : (⟨S_, .f32⟩ : BufTy).Contents (Elt F) → (⟨S256x4096x2, .f32⟩ : BufTy).Contents (Elt F)),
    StableHlo.ternary main_call5_v13 main_call5_v12 main_call5_v14 main_v19 (select : (⟨S256x4096x2, .i1⟩ : BufTy).Contents (Elt F) → (⟨S256x4096x2, .f32⟩ : BufTy).Contents (Elt F) → (⟨S256x4096x2, .f32⟩ : BufTy).Contents (Elt F) → (⟨S256x4096x2, .f32⟩ : BufTy).Contents (Elt F)) ] := rfl

end Plain

/-! ## The host operations before region 0, over any contents

The prefix is read in three pieces: the stretches up to the second reversal (the validity mask and, per slot, the index
of the next valid slot as a reversed running minimum), the stretch that shifts that index by one slot and tests it (a
concatenation), and the stretches after it (the clip, the gather along the slot axis, the conversion of the mask).
Each piece is stated over any contents `V`; the two programs apply the same operations in the same order, so each
buffer's term is the reference's stage of the same name, up to unfolding the stages. -/

/-- The stretches up to the second reversal, composed. -/
def preA (V : Valuation τ sig (Elt F)) : Valuation τ sig (Elt F) :=
  StableHlo.after hostOps0_4 (StableHlo.after hostOps0_3 (StableHlo.after hostOps0_2
    (StableHlo.after hostOps0_1 (StableHlo.after hostOps0 V))))

/-- The stretches after the shift, up to region 0's entry, composed. -/
def post (V : Valuation τ sig (Elt F)) : Valuation τ sig (Elt F) :=
  StableHlo.after hostOps0_9 (StableHlo.after hostOps0_8 (StableHlo.after hostOps0_7 (StableHlo.after hostOps0_6 V)))

set_option maxHeartbeats 4000000 in
/-- The validity mask: the last channel of the second argument above one half. -/
theorem preA_v3 (V : Valuation τ sig (Elt F)) :
    preA V (Proc.devRef .tc main_v3) = val_main_v4 (F := F) (V (Proc.devRef .tc main_arg1)) := by
  unfold preA
  rw [hostOps0_1_plain, hostOps0_2_plain, hostOps0_3_plain, hostOps0_4_plain]
  after_results_simp
  unfold val_main_v4 val_main_v3 val_main_cst val_main_v2 val_main_v1
  rfl

set_option maxHeartbeats 4000000 in
/-- Per slot, the index of the nearest valid slot at or after it (the slot count where there is none): the running
    minimum, taken from the right, of the slot index where valid and the slot count elsewhere. -/
theorem preA_v9 (V : Valuation τ sig (Elt F)) :
    preA V (Proc.devRef .tc main_v9) = val_main_v53 (F := F) (V (Proc.devRef .tc main_arg1)) := by
  unfold preA
  rw [hostOps0_1_plain, hostOps0_2_plain, hostOps0_3_plain, hostOps0_4_plain]
  after_results_simp
  unfold val_main_v53 val_main_v52 val_main_call5_v0 val_main_call5_c val_main_v51 val_main_v50 val_main_call3_v1 val_main_c val_main_call3_v0 val_main_v49 val_main_v48 val_main_v4 val_main_v3 val_main_cst val_main_v2 val_main_v1
  rfl

set_option maxHeartbeats 4000000 in
/-- These stretches do not write the first argument. -/
theorem preA_arg0 (V : Valuation τ sig (Elt F)) :
    preA V (Proc.devRef .tc main_arg0) = V (Proc.devRef .tc main_arg0) := by
  unfold preA
  rw [hostOps0_1_plain, hostOps0_2_plain, hostOps0_3_plain, hostOps0_4_plain]
  after_results_simp

set_option maxHeartbeats 4000000 in
/-- The index of the next valid slot strictly after each slot: the previous array shifted left by one slot, the slot
    count in the last column. -/
theorem shift_v12 (V : Valuation τ sig (Elt F)) (x1 : (⟨S256x4096x9, .f32⟩ : BufTy).Contents (Elt F))
    (h9 : V (Proc.devRef .tc main_v9) = val_main_v53 (F := F) x1) :
    StableHlo.after hostOps0_5 V (Proc.devRef .tc main_v12) = val_main_v56 (F := F) x1 := by
  after_results_simp
  unfold val_main_v56 val_main_v55 val_main_c_17 val_main_v54
  refine cat2_congr _ ?_ ?_
  · after_results_simp
    rw [h9]
  · after_results_simp

set_option maxHeartbeats 4000000 in
/-- The mask of the valid slots that have a next valid slot. -/
theorem shift_v15 (V : Valuation τ sig (Elt F)) (x1 : (⟨S256x4096x9, .f32⟩ : BufTy).Contents (Elt F))
    (h3 : V (Proc.devRef .tc main_v3) = val_main_v4 (F := F) x1)
    (h9 : V (Proc.devRef .tc main_v9) = val_main_v53 (F := F) x1) :
    StableHlo.after hostOps0_5 V (Proc.devRef .tc main_v15) = val_main_v59 (F := F) x1 := by
  after_results_simp
  unfold val_main_v59 val_main_v58 val_main_v57 val_main_c_18
  rw [h3]
  refine congrArg (andi _) (congrArg (fun z => cmpi .slt z _) ?_)
  unfold val_main_v56 val_main_v55 val_main_c_17 val_main_v54
  refine cat2_congr _ ?_ ?_
  · after_results_simp
    rw [h9]
  · after_results_simp

set_option maxHeartbeats 4000000 in
/-- The clip's lower bound. -/
theorem shift_c2 (V : Valuation τ sig (Elt F)) :
    StableHlo.after hostOps0_5 V (Proc.devRef .tc main_c_2) = val_main_c_19 (F := F) := by
  after_results_simp
  rfl

set_option maxHeartbeats 4000000 in
/-- The clip's upper bound. -/
theorem shift_c3 (V : Valuation τ sig (Elt F)) :
    StableHlo.after hostOps0_5 V (Proc.devRef .tc main_c_3) = val_main_c_20 (F := F) := by
  after_results_simp
  rfl

set_option maxHeartbeats 4000000 in
/-- This stretch does not write the first argument. -/
theorem shift_arg0 (V : Valuation τ sig (Elt F)) :
    StableHlo.after hostOps0_5 V (Proc.devRef .tc main_arg0) = V (Proc.devRef .tc main_arg0) := by
  after_results_simp

set_option maxRecDepth 16384 in
set_option maxHeartbeats 4000000 in
/-- The next valid point's coordinates: the first argument's two coordinate channels gathered along the slot axis at
    the clipped next-valid index. -/
theorem post_v19 (V : Valuation τ sig (Elt F)) (x0 x1 : (⟨S256x4096x9, .f32⟩ : BufTy).Contents (Elt F))
    (h0 : V (Proc.devRef .tc main_arg0) = x0)
    (h12 : V (Proc.devRef .tc main_v12) = val_main_v56 (F := F) x1)
    (hc2 : V (Proc.devRef .tc main_c_2) = val_main_c_19 (F := F))
    (hc3 : V (Proc.devRef .tc main_c_3) = val_main_c_20 (F := F)) :
    post V (Proc.devRef .tc main_v19) = val_main_v62 (F := F) x0 x1 := by
  unfold post
  rw [hostOps0_6_plain, hostOps0_8_plain]
  after_results_simp
  rw [h0, h12, hc2, hc3]
  unfold val_main_v62 val_main_call8_v14 val_main_call8_cst val_main_call8_v12 val_main_v47 val_main_call8_v13 val_main_call8_v11 val_main_call8_c_3 val_main_call8_v10 val_main_call8_v9 val_main_call8_v8 val_main_call8_v7 val_main_call8_c_1 val_main_call8_v6 val_main_call8_v5 val_main_call8_c_2 val_main_call8_v4 val_main_call8_v3 val_main_call8_v2 val_main_call8_c_0 val_main_call8_v1 val_main_call8_v0 val_main_call8_c val_main_v61 val_main_v60 val_main_call7_v2 val_main_call7_v1 val_main_call7_v0 val_main_call7_v4 val_main_call7_v3
  rfl

set_option maxHeartbeats 4000000 in
/-- The mask of the slots with a next valid slot, as floats, with a unit channel axis. -/
theorem post_v21 (V : Valuation τ sig (Elt F)) (x1 : (⟨S256x4096x9, .f32⟩ : BufTy).Contents (Elt F))
    (h15 : V (Proc.devRef .tc main_v15) = val_main_v59 (F := F) x1) :
    post V (Proc.devRef .tc main_v21)
      = broadcastInDim S256x4096x1 ![0, 1] bcast_S256x4096_S256x4096x1_0_1 (val_main_v68 (F := F) x1) := by
  unfold post
  rw [hostOps0_6_plain, hostOps0_8_plain]
  after_results_simp
  rw [h15]
  unfold val_main_v68
  rfl

/-! ## Region 0's two computed inputs -/

/-- Region 0 is entered with the next valid point's coordinates in its third input array. -/
theorem entry0_next :
    V10 m ρ c main_v19
      = val_main_v62 (F := F) (m ((c : Thread nD τ).loc main_arg0)) (m ((c : Thread nD τ).loc main_arg1)) :=
  post_v19 (StableHlo.after hostOps0_5 (preA (W0 m ρ c))) _ _
    ((shift_arg0 _).trans (preA_arg0 _))
    (shift_v12 _ _ (preA_v9 _)) (shift_c2 _) (shift_c3 _)

/-- Region 0 is entered with the float mask of the slots that have a next valid slot in its fourth input array. -/
theorem entry0_pair :
    V10 m ρ c main_v21
      = broadcastInDim S256x4096x1 ![0, 1] bcast_S256x4096_S256x4096x1_0_1
          (val_main_v68 (F := F) (m ((c : Thread nD τ).loc main_arg1))) :=
  post_v21 (StableHlo.after hostOps0_5 (preA (W0 m ρ c))) _
    (shift_v15 _ _ (preA_v3 _) (preA_v9 _))

end Cert.KernelIdeal.KFold

end
-- ==== Proof.LossTail.lean ====
/-
  The closing arithmetic of the loss, as ONE function of its six sums.

  Both programs end with the same scalar computation on six totals — the masked coordinate sum `sc`, the masked width
  sum `sw`, the cross-entropy sum `sb`, the count of valid slots `nv`, the continuity sum `scn` and the sum of squared
  reconstruction errors `ssq`:

      where(nv > 0, sc / max(6·nv, 1), 0) + where(nv > 0, sw / max(2·nv, 1), 0)
        + 2 · (sb / 2^20) + 0.2 · (scn / 256) + 0.1 · (ssq / 2^22).

  Stated once here, over rank-0 arrays and at any float instance, so that the comparison of the two programs is a
  comparison of the six totals only: the arithmetic above is never opened.
-/
import Idealize.ShloMosaic.PureOps
import Idealize.ShloMosaic.Lib.ValueIdx

noncomputable section

namespace Cert.Loss

open Idealize.ShloMosaic

variable {F : FTy → Type} [FloatOps F]

/-- The rank-0 shape of every total. -/
abbrev S0 : Shape := ⟨0, ![]⟩

/-- A masked mean: `num / max(w·nv, 1)` where some slot is valid (`nv > 0`), else `0`. The width `w` is the
    float word of 6 or of 2. -/
def maskedMean (w : BitVec 32) (num nv : FVec F S0 .f32) : FVec F S0 .f32 :=
  select (cmpf .ogt nv (constant S0 .f32 0x00000000#32))
    (Host.divf num (maximumf (mulf nv (constant S0 .f32 w)) (constant S0 .f32 0x3F800000#32)))
    (id (constant S0 .f32 0x00000000#32))

/-- The loss from its six totals. -/
def combine (sc sw sb nv scn ssq : FVec F S0 .f32) : FVec F S0 .f32 :=
  addf (addf (addf (addf (maskedMean 0x40C00000#32 sc nv) (maskedMean 0x40000000#32 sw nv))
      (mulf (constant S0 .f32 0x40000000#32) (Host.divf sb (constant S0 .f32 0x49800000#32))))
      (mulf (constant S0 .f32 0x3E4CCCCD#32) (Host.divf scn (constant S0 .f32 0x43800000#32))))
      (mulf (constant S0 .f32 0x3DCCCCCD#32) (Host.divf ssq (constant S0 .f32 0x4A800000#32)))

end Cert.Loss

end
-- ==== Proof.KTail.lean ====
/-
  The kernel's result, read off the fold of buffer contents the generated frame states.

  After the two TensorCore regions the kernel's @main holds six one-by-one arrays — five written by region 0, one by
  region 1 — and closes with host arithmetic on their reshapes to rank 0: two masked means, three scaled quotients and
  their sum. That arithmetic is `Cert.Loss.combine`; this file reads the fold at the returned buffer and shows it is
  `combine` of the six reshaped arrays, without opening any float operation.
-/
import proofs.«162210_j73057393705419_2_alg».proof.Proof.Gen.KernelIdeal.Frame
import proofs.«162210_j73057393705419_2_alg».proof.Proof.LossTail
import Idealize.ShloMosaic.Lib.StableHlo.Run

noncomputable section

namespace Cert.KernelIdeal.KFold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-! ## The host stretches after the regions, over any contents -/

set_option maxHeartbeats 2000000 in
/-- The last stretch at the returned buffer: the sum of the two masked means, twice the third quotient, a fifth of the
    fourth and a tenth of the quotient of region 1's reshaped array. -/
theorem after_hostOps2 (V : Valuation τ sig (Elt F)) :
    StableHlo.after hostOps2 V (Proc.devRef .tc main_v49)
      = addf (addf (addf (addf (V (Proc.devRef .tc main_v32)) (V (Proc.devRef .tc main_v37)))
            (mulf (constant S_ .f32 0x40000000#32) (V (Proc.devRef .tc main_v38))))
            (mulf (constant S_ .f32 0x3E4CCCCD#32) (V (Proc.devRef .tc main_v39))))
          (mulf (constant S_ .f32 0x3DCCCCCD#32)
            (Host.divf (shapeCast S_ (V (Proc.devRef .tc main_v40)) shapeCasts_S1x1_S_) (constant S_ .f32 0x4A800000#32))) := by
  after_results_simp
  rfl

/-- The stretches between the regions, composed. -/
def mid (V : Valuation τ sig (Elt F)) : Valuation τ sig (Elt F) :=
  StableHlo.after hostOps1_4 (StableHlo.after hostOps1_3 (StableHlo.after hostOps1_2 (StableHlo.after hostOps1_1
    (StableHlo.after hostOps1 V))))

set_option maxHeartbeats 4000000 in
/-- The first masked mean: the coordinate sum over six times the valid count. -/
theorem mid_v32 (V : Valuation τ sig (Elt F)) :
    mid V (Proc.devRef .tc main_v32)
      = Cert.Loss.maskedMean (F := F) 0x40C00000#32 (shapeCast S_ (V (Proc.devRef .tc main_v22_0)) shapeCasts_S1x1_S_)
          (shapeCast S_ (V (Proc.devRef .tc main_v22_3)) shapeCasts_S1x1_S_) := by
  unfold mid
  after_results_simp
  rfl

set_option maxHeartbeats 4000000 in
/-- The second masked mean: the width sum over twice the valid count. -/
theorem mid_v37 (V : Valuation τ sig (Elt F)) :
    mid V (Proc.devRef .tc main_v37)
      = Cert.Loss.maskedMean (F := F) 0x40000000#32 (shapeCast S_ (V (Proc.devRef .tc main_v22_1)) shapeCasts_S1x1_S_)
          (shapeCast S_ (V (Proc.devRef .tc main_v22_3)) shapeCasts_S1x1_S_) := by
  unfold mid
  after_results_simp
  rfl

set_option maxHeartbeats 4000000 in
/-- The cross-entropy sum over the number of slots. -/
theorem mid_v38 (V : Valuation τ sig (Elt F)) :
    mid V (Proc.devRef .tc main_v38)
      = Host.divf (shapeCast S_ (V (Proc.devRef .tc main_v22_2)) shapeCasts_S1x1_S_) (constant S_ .f32 0x49800000#32) := by
  unfold mid
  after_results_simp
  rfl

set_option maxHeartbeats 4000000 in
/-- The continuity sum over the number of rows. -/
theorem mid_v39 (V : Valuation τ sig (Elt F)) :
    mid V (Proc.devRef .tc main_v39)
      = Host.divf (shapeCast S_ (V (Proc.devRef .tc main_v22_4)) shapeCasts_S1x1_S_) (constant S_ .f32 0x43800000#32) := by
  unfold mid
  after_results_simp
  rfl

/-! ## The result -/

set_option maxHeartbeats 4000000 in
/-- The returned buffer at the end of the kernel's run is the closing arithmetic of the loss on the six arrays the
    regions leave, each reshaped to rank 0: region 0's five outputs — the coordinate sum, the width sum, the
    cross-entropy sum, the valid count, the continuity sum — and region 1's squared-error sum. -/
theorem result_eq :
    W18 m ρ c (Proc.devRef .tc main_v49)
      = Cert.Loss.combine (F := F)
          (shapeCast S_ ((dat0 (V10 m ρ) c).arrAt 4 cfg0.N) shapeCasts_S1x1_S_)
          (shapeCast S_ ((dat0 (V10 m ρ) c).arrAt 5 cfg0.N) shapeCasts_S1x1_S_)
          (shapeCast S_ ((dat0 (V10 m ρ) c).arrAt 6 cfg0.N) shapeCasts_S1x1_S_)
          (shapeCast S_ ((dat0 (V10 m ρ) c).arrAt 7 cfg0.N) shapeCasts_S1x1_S_)
          (shapeCast S_ ((dat0 (V10 m ρ) c).arrAt 8 cfg0.N) shapeCasts_S1x1_S_)
          (shapeCast S_ ((dat1 (V16 m ρ) c).arrAt 2 cfg1.N) shapeCasts_S1x1_S_) := by
  have e40 : W17 m ρ c (Proc.devRef .tc main_v40) = (dat1 (V16 m ρ) c).arrAt 2 cfg1.N := W17_arr m ρ c 2
  have e32 : W17 m ρ c (Proc.devRef .tc main_v32) = mid (W11 m ρ c) (Proc.devRef .tc main_v32) :=
    W17_of_ne m ρ c main_v32 (by decide)
  have e37 : W17 m ρ c (Proc.devRef .tc main_v37) = mid (W11 m ρ c) (Proc.devRef .tc main_v37) :=
    W17_of_ne m ρ c main_v37 (by decide)
  have e38 : W17 m ρ c (Proc.devRef .tc main_v38) = mid (W11 m ρ c) (Proc.devRef .tc main_v38) :=
    W17_of_ne m ρ c main_v38 (by decide)
  have e39 : W17 m ρ c (Proc.devRef .tc main_v39) = mid (W11 m ρ c) (Proc.devRef .tc main_v39) :=
    W17_of_ne m ρ c main_v39 (by decide)
  have a0 : W11 m ρ c (Proc.devRef .tc main_v22_0) = (dat0 (V10 m ρ) c).arrAt 4 cfg0.N := W11_arr m ρ c 4
  have a1 : W11 m ρ c (Proc.devRef .tc main_v22_1) = (dat0 (V10 m ρ) c).arrAt 5 cfg0.N := W11_arr m ρ c 5
  have a2 : W11 m ρ c (Proc.devRef .tc main_v22_2) = (dat0 (V10 m ρ) c).arrAt 6 cfg0.N := W11_arr m ρ c 6
  have a3 : W11 m ρ c (Proc.devRef .tc main_v22_3) = (dat0 (V10 m ρ) c).arrAt 7 cfg0.N := W11_arr m ρ c 7
  have a4 : W11 m ρ c (Proc.devRef .tc main_v22_4) = (dat0 (V10 m ρ) c).arrAt 8 cfg0.N := W11_arr m ρ c 8
  refine (after_hostOps2 (W17 m ρ c)).trans ?_
  rw [e40, e32, e37, e38, e39, mid_v32, mid_v37, mid_v38, mid_v39, a0, a1, a2, a3, a4]
  rfl

end Cert.KernelIdeal.KFold

end
-- ==== Proof.SumBridge.lean ====
/-
  The six totals regrouped by grid point.

  A total over all 256 batch rows is the sum over the 128 pairs of rows (2t, 2t + 1) — for the reconstruction error over
  the 8 groups of 32 rows — of the sums over each group: addition on the extended reals is commutative and associative,
  so the regrouping needs nothing of the summands (no finiteness). This is the order in which the kernels accumulate.
  Also here: the two places where the kernel's entry differs from the specification's by a law of the extended reals —
  `(s · ½)` against `(0 + s) / 2`, and `0 − x` against `−x`.
-/
import proofs.«162210_j73057393705419_2_alg».proof.Proof.LossTerms
import proofs.«162210_j73057393705419_2_alg».proof.Proof.IdealScalars
import proofs.«162210_j73057393705419_2_alg».proof.Proof.LibIdxSums

noncomputable section

namespace Cert.Loss

open Idealize.ShloMosaic Idealize.ShloMosaic.ValueIdx Cert.LibIdxSums

variable (x0 x1 : A9.Idx → Ideal .f32) (nx : A2.Idx → Ideal .f32) (pv : M2.Idx → Ideal .f32) (r g : Img.Idx → Ideal .f32)

theorem totCoord_blocks : totCoord x0 x1
    = zero + ∑ t : Fin 128, ∑ b : Fin 2, ∑ m : Fin 4096, ∑ k : Fin 6, coordT x0 x1 ⟨2 * t.val + b.val, by omega⟩ m k := by
  unfold totCoord
  rw [sum_idx3, sum_fin256_blocks2]

theorem totWidth_blocks : totWidth x0 x1
    = zero + ∑ t : Fin 128, ∑ b : Fin 2, ∑ m : Fin 4096, ∑ k : Fin 2, widthT x0 x1 ⟨2 * t.val + b.val, by omega⟩ m k := by
  unfold totWidth
  rw [sum_idx3, sum_fin256_blocks2]

theorem totBce_blocks : totBce x0 x1
    = zero + ∑ t : Fin 128, ∑ b : Fin 2, ∑ m : Fin 4096, ∑ u : Fin 1, bceT x0 x1 ⟨2 * t.val + b.val, by omega⟩ m := by
  unfold totBce
  rw [sum_idx3, sum_fin256_blocks2]

theorem totValid_blocks : totValid x1
    = zero + ∑ t : Fin 128, ∑ b : Fin 2, ∑ m : Fin 4096, nvT x1 ⟨2 * t.val + b.val, by omega⟩ m := by
  unfold totValid
  rw [sum_idx2, sum_fin256_blocks2]

theorem totCont_blocks : totCont x0 nx pv
    = zero + ∑ t : Fin 128, ∑ b : Fin 2, ∑ m : Fin 4096, contT x0 nx pv ⟨2 * t.val + b.val, by omega⟩ m := by
  unfold totCont
  rw [sum_idx2, sum_fin256_blocks2]

theorem totSq_blocks : totSq r g
    = zero + ∑ t : Fin 8, ∑ b : Fin 32, ∑ u : Fin 1, ∑ h : Fin 128, ∑ w : Fin 128, sqT r g (ix4 ⟨32 * t.val + b.val, by omega⟩ u h w) := by
  unfold totSq
  rw [sum_idx4, sum_fin256_blocks32]

/-- The kernel's continuity entry `(s · ½) · p` is the specification's `((0 + s) / 2) · p`. -/
theorem cont_entry (s p : Ideal .f32) : (s * half) * p = Ideal.div (zero + s) two * p := by
  rw [zero_add', mul_half_eq_div_two]

/-- The kernel's cross-entropy entry `0 − x` is the specification's `−x`. -/
theorem neg_entry (x : Ideal .f32) : zero - x = -x := zero_sub x

end Cert.Loss

end
-- ==== Proof.RefTotals.lean ====
/-
  Each of the reference's six host sums is the specification's total.

  The reference computes every total as `0 +` a sum, over every index of an array, of one entry built from slices,
  broadcasts and elementwise operations of its arguments. Read at an index, each entry is the corresponding per-entry term
  of the loss: the slices and broadcasts only select coordinates, and the elementwise operations are the extended
  reals' own. The gathered next-slot channels and the pair-validity mask are not opened: they are the two parameters of
  the continuity total.
-/
import proofs.«162210_j73057393705419_2_alg».proof.Proof.RefReadP
import proofs.«162210_j73057393705419_2_alg».proof.Proof.LossTerms

noncomputable section

namespace Cert.ReferenceIdeal.RefTotals

open Idealize.ShloMosaic Idealize.ShloMosaic.ValueIdx Cert.ReferenceIdeal Cert.ReferenceIdeal.ReadP

/-! ## The coordinates the slices, reshapes and broadcasts select -/

/-- Channels 0..5 of the prediction: entry (B, m, k) of the slice is entry (B, m, 0 + k) of the array. -/
theorem idx_v7 (B : Fin 256) (m : Fin 4096) (k : Fin 6) :
    idx_main_v7 (ix3 B m k) = ix3 B m (Cert.Loss.ch 0 k (by omega)) := by
  funext a
  match a with
  | ⟨0, _⟩ => rfl
  | ⟨1, _⟩ => rfl
  | ⟨2, _⟩ => exact Fin.ext (Nat.zero_add _).symm

/-- Channels 0..5 of the target, through the slice of channels 0..7. -/
theorem idx_v0v8 (B : Fin 256) (m : Fin 4096) (k : Fin 6) :
    idx_main_v0 (idx_main_v8 (ix3 B m k)) = ix3 B m (Cert.Loss.ch 0 k (by omega)) := by
  funext a
  match a with
  | ⟨0, _⟩ => rfl
  | ⟨1, _⟩ => rfl
  | ⟨2, _⟩ => exact Fin.ext (Nat.zero_add _).symm

/-- Channels 6..7 of the prediction. -/
theorem idx_v20 (B : Fin 256) (m : Fin 4096) (k : Fin 2) :
    idx_main_v20 (ix3 B m k) = ix3 B m (Cert.Loss.ch 6 k (by omega)) := by
  funext a
  match a with
  | ⟨0, _⟩ => rfl
  | ⟨1, _⟩ => rfl
  | ⟨2, _⟩ => rfl

/-- Channels 6..7 of the target, through the slice of channels 0..7. -/
theorem idx_v0v21 (B : Fin 256) (m : Fin 4096) (k : Fin 2) :
    idx_main_v0 (idx_main_v21 (ix3 B m k)) = ix3 B m (Cert.Loss.ch 6 k (by omega)) := by
  funext a
  match a with
  | ⟨0, _⟩ => rfl
  | ⟨1, _⟩ => rfl
  | ⟨2, _⟩ => rfl

/-- Channels 4..5 of the prediction. -/
theorem idx_v47 (B : Fin 256) (m : Fin 4096) (k : Fin 2) :
    idx_main_v47 (ix3 B m k) = ix3 B m (Cert.Loss.ch 4 k (by omega)) := by
  funext a
  match a with
  | ⟨0, _⟩ => rfl
  | ⟨1, _⟩ => rfl
  | ⟨2, _⟩ => rfl

/-- Channel 8 of an array, through the one-channel slice: entry (B, m, c) with `c < 1` is entry (B, m, 8). -/
theorem idx_v1 (B : Fin 256) (m : Fin 4096) (c : Fin 1) : idx_main_v1 (ix3 B m c) = ix3 B m 8 := by
  funext a
  match a with
  | ⟨0, _⟩ => rfl
  | ⟨1, _⟩ => rfl
  | ⟨2, _⟩ => exact Fin.ext (by show 8 + c.val = 8; have := c.isLt; omega)

/-- The same slice of the prediction. -/
theorem idx_v33 (B : Fin 256) (m : Fin 4096) (c : Fin 1) : idx_main_v33 (ix3 B m c) = ix3 B m 8 := by
  funext a
  match a with
  | ⟨0, _⟩ => rfl
  | ⟨1, _⟩ => rfl
  | ⟨2, _⟩ => exact Fin.ext (by show 8 + c.val = 8; have := c.isLt; omega)

/-- Channel 8 through the one-channel slice and the reshape to [256, 4096]: entry (B, m) is entry (B, m, 8), since
    `(4096·B + m) / 4096 = B` and `(4096·B + m) mod 4096 = m`. -/
theorem idx_v1v2 (B : Fin 256) (m : Fin 4096) : idx_main_v1 (idx_main_v2 (ix2 B m)) = ix3 B m 8 := by
  funext a
  match a with
  | ⟨0, _⟩ => exact Fin.ext (by show (B.val * 4096 + m.val) / 4096 = B.val; have := m.isLt; omega)
  | ⟨1, _⟩ => exact Fin.ext (by show (B.val * 4096 + m.val) / 1 % 4096 = m.val; have := m.isLt; omega)
  | ⟨2, _⟩ => rfl

/-- The mask broadcast along six channels reads the mask at (B, m). -/
theorem idx_v11v12 (B : Fin 256) (m : Fin 4096) (k : Fin 6) : idx_main_v11 (idx_main_v12 (ix3 B m k)) = ix2 B m := by
  funext a
  match a with
  | ⟨0, _⟩ => rfl
  | ⟨1, _⟩ => rfl

/-- The mask broadcast along two channels reads the mask at (B, m). -/
theorem idx_v24v25 (B : Fin 256) (m : Fin 4096) (k : Fin 2) : idx_main_v24 (idx_main_v25 (ix3 B m k)) = ix2 B m := by
  funext a
  match a with
  | ⟨0, _⟩ => rfl
  | ⟨1, _⟩ => rfl

/-- The index the two-channel sum reads at channel `k` of slot (B, m) is (B, m, k). -/
theorem idx_v65 (B : Fin 256) (m : Fin 4096) (k : Fin 2) : idx_main_v65 (ix2 B m) k = ix3 B m k := by
  funext a
  match a with
  | ⟨0, _⟩ => rfl
  | ⟨1, _⟩ => rfl
  | ⟨2, _⟩ => rfl

/-! ## The entries -/

section Entries

variable (x0 x1 : (⟨S256x4096x9, .f32⟩ : BufTy).Contents (Elt Ideal))
  (x2 x3 : (⟨S256x1x128x128, .f32⟩ : BufTy).Contents (Elt Ideal))

/-- The validity mask at slot (B, m): 1 where the target's channel 8 exceeds 1/2, else 0. -/
theorem v5_entry (B : Fin 256) (m : Fin 4096) :
    val_main_v5 (F := Ideal) x1 (ix2 B m) = Cert.Loss.msk (x1 (ix3 B m 8)) := by
  rw [val_main_v5_apply, val_main_v4_apply, val_main_v2_apply, val_main_v1_apply, val_main_v3_apply,
    val_main_cst_apply, idx_v1v2]
  rfl

/-- The coordinate entry: `|x0 − x1|` at channel `k < 6`, times the mask. -/
theorem v13_entry (B : Fin 256) (m : Fin 4096) (k : Fin 6) :
    val_main_v13 (F := Ideal) x0 x1 (ix3 B m k) = Cert.Loss.coordT x0 x1 B m k := by
  rw [val_main_v13_apply, val_main_v10_apply, val_main_v9_apply, val_main_v7_apply, val_main_v8_apply,
    val_main_v0_apply, val_main_v12_apply, val_main_v11_apply, idx_v7, idx_v0v8, idx_v11v12, v5_entry]
  rfl

/-- The width entry: `|x0 − x1|` at channel `6 + k`, `k < 2`, times the mask. -/
theorem v26_entry (B : Fin 256) (m : Fin 4096) (k : Fin 2) :
    val_main_v26 (F := Ideal) x0 x1 (ix3 B m k) = Cert.Loss.widthT x0 x1 B m k := by
  rw [val_main_v26_apply, val_main_v23_apply, val_main_v22_apply, val_main_v20_apply, val_main_v21_apply,
    val_main_v0_apply, val_main_v25_apply, val_main_v24_apply, idx_v20, idx_v0v21, idx_v24v25, v5_entry]
  rfl

/-- The cross-entropy entry: `−(t·log p + (1 − t)·log(1 − p))` with `p` the clipped prediction. -/
theorem v44_entry (B : Fin 256) (m : Fin 4096) (c : Fin 1) :
    val_main_v44 (F := Ideal) x0 x1 (ix3 B m c) = Cert.Loss.bceT x0 x1 B m := by
  rw [val_main_v44_apply, val_main_v43_apply, val_main_v36_apply, val_main_v42_apply, val_main_v38_apply,
    val_main_v41_apply, val_main_v40_apply, val_main_v35_apply, val_main_v34_apply, val_main_call2_v4_apply,
    val_main_call2_v3_apply, val_main_cst_12_apply, val_main_call2_v2_apply, val_main_call2_v1_apply,
    val_main_call2_v0_apply, val_main_cst_11_apply, val_main_v33_apply, val_main_v1_apply, val_main_v37_apply,
    val_main_cst_13_apply, val_main_v39_apply, val_main_cst_14_apply, idx_v1, idx_v33]
  rfl

/-- The continuity entry: half the two-channel sum of `|x0 − next|`, times the pair-validity mask. -/
theorem v69_entry (B : Fin 256) (m : Fin 4096) :
    val_main_v69 (F := Ideal) x0 x1 (ix2 B m)
      = Cert.Loss.contT x0 (val_main_v62 (F := Ideal) x0 x1) (val_main_v68 (F := Ideal) x1) B m := by
  rw [val_main_v69_apply, val_main_v67_apply, val_main_v66_apply, val_main_cst_22_apply, val_main_v65_apply]
  unfold Cert.Loss.contT
  refine congrArg₂ (· * ·) (congrArg₂ Ideal.div (congrArg₂ (· + ·) rfl (Finset.sum_congr rfl fun k _ => ?_)) rfl) rfl
  rw [val_main_v64_apply, val_main_v63_apply, val_main_v47_apply, idx_v65, idx_v47]
  rfl

/-- The squared-error entry. -/
theorem v73_entry (j : S256x1x128x128.Idx) :
    val_main_v73 (F := Ideal) x2 x3 j = Cert.Loss.sqT x2 x3 j := rfl

end Entries

/-! ## The six totals -/

section Totals

variable (x0 x1 : (⟨S256x4096x9, .f32⟩ : BufTy).Contents (Elt Ideal))
  (x2 x3 : (⟨S256x1x128x128, .f32⟩ : BufTy).Contents (Elt Ideal)) (i : S_.Idx)

/-- The reference's masked coordinate sum is the coordinate total. -/
theorem v14_eq : val_main_v14 (F := Ideal) x0 x1 i = Cert.Loss.totCoord x0 x1 := by
  rw [val_main_v14_apply]
  unfold Cert.Loss.totCoord
  refine congrArg₂ (· + ·) rfl (Finset.sum_congr rfl fun j _ => ?_)
  exact (congrArg (val_main_v13 (F := Ideal) x0 x1) (eq_ix3 j)).trans (v13_entry x0 x1 (j 0) (j 1) (j 2))

/-- The reference's masked width sum is the width total. -/
theorem v27_eq : val_main_v27 (F := Ideal) x0 x1 i = Cert.Loss.totWidth x0 x1 := by
  rw [val_main_v27_apply]
  unfold Cert.Loss.totWidth
  refine congrArg₂ (· + ·) rfl (Finset.sum_congr rfl fun j _ => ?_)
  exact (congrArg (val_main_v26 (F := Ideal) x0 x1) (eq_ix3 j)).trans (v26_entry x0 x1 (j 0) (j 1) (j 2))

/-- The reference's cross-entropy sum is the cross-entropy total. -/
theorem v45_eq : val_main_v45 (F := Ideal) x0 x1 i = Cert.Loss.totBce x0 x1 := by
  rw [val_main_v45_apply]
  unfold Cert.Loss.totBce
  refine congrArg₂ (· + ·) rfl (Finset.sum_congr rfl fun j _ => ?_)
  exact (congrArg (val_main_v44 (F := Ideal) x0 x1) (eq_ix3 j)).trans (v44_entry x0 x1 (j 0) (j 1) (j 2))

/-- The reference's count of valid slots is the count total. -/
theorem v6_eq : val_main_v6 (F := Ideal) x1 i = Cert.Loss.totValid x1 := by
  rw [val_main_v6_apply]
  unfold Cert.Loss.totValid Cert.Loss.nvT
  refine congrArg₂ (· + ·) rfl (Finset.sum_congr rfl fun j _ => ?_)
  exact (congrArg (val_main_v5 (F := Ideal) x1) (eq_ix2 j)).trans (v5_entry x1 (j 0) (j 1))

/-- The reference's continuity sum is the continuity total of the gathered next-slot channels and the pair-validity mask. -/
theorem v70_eq : val_main_v70 (F := Ideal) x0 x1 i
    = Cert.Loss.totCont x0 (val_main_v62 (F := Ideal) x0 x1) (val_main_v68 (F := Ideal) x1) := by
  rw [val_main_v70_apply]
  unfold Cert.Loss.totCont
  refine congrArg₂ (· + ·) rfl (Finset.sum_congr rfl fun j _ => ?_)
  exact (congrArg (val_main_v69 (F := Ideal) x0 x1) (eq_ix2 j)).trans (v69_entry x0 x1 (j 0) (j 1))

/-- The reference's sum of squared reconstruction errors is the squared-error total. -/
theorem v74_eq : val_main_v74 (F := Ideal) x2 x3 i = Cert.Loss.totSq x2 x3 := by
  rw [val_main_v74_apply]
  rfl

end Totals

end Cert.ReferenceIdeal.RefTotals

end
-- ==== Proof.RefStages.lean ====
/-
  The reference's result is the closing arithmetic (`Cert.Loss.combine`) of its six host sums: the generated stages
  of the reference's run, regrouped — nothing is opened.
-/
import proofs.«162210_j73057393705419_2_alg».proof.Proof.RefReadP
import proofs.«162210_j73057393705419_2_alg».proof.Proof.LossTail

noncomputable section

namespace Cert.ReferenceIdeal.RefStages

open Idealize.ShloMosaic Cert.ReferenceIdeal Cert.ReferenceIdeal.ReadP

variable {F : FTy → Type} [FloatOps F]

/-- The reference's result: `combine` of the six totals its host reductions compute. -/
theorem result_eq_combine (x0 x1 : (⟨S256x4096x9, .f32⟩ : BufTy).Contents (Elt F))
    (x2 x3 : (⟨S256x1x128x128, .f32⟩ : BufTy).Contents (Elt F)) :
    val_main_v82 (F := F) x0 x1 x2 x3
      = Cert.Loss.combine (F := F) (val_main_v14 (F := F) x0 x1) (val_main_v27 (F := F) x0 x1) (val_main_v45 (F := F) x0 x1)
          (val_main_v6 (F := F) x1) (val_main_v70 (F := F) x0 x1) (val_main_v74 (F := F) x2 x3) := rfl

end Cert.ReferenceIdeal.RefStages

end
-- ==== Proof.Bridge.lean ====
/-
  The kernel's six final arrays are the reference's six totals.

  For each sum: the kernel's result array holds `0 +` the sum over the grid points of its block sums (the region modules);
  a block read at (b, …) is the whole array read at batch row `rows·t + b` (the block module), and the arrays the regions
  find at entry are the arguments themselves and, for the gathered next-slot channels and the pair-validity mask, the
  same host stages the reference computes (the entry module); so the sum over points and blocks is the total over all 256
  batch rows regrouped (the regrouping module), entry by entry the specification's term — and the reference's host
  reduction is that total too. The closing arithmetic is one function of the six totals on both sides and is not opened.
-/
import proofs.«162210_j73057393705419_2_alg».proof.Proof.Reg0Value
import proofs.«162210_j73057393705419_2_alg».proof.Proof.Reg1Value
import proofs.«162210_j73057393705419_2_alg».proof.Proof.KBlocks
import proofs.«162210_j73057393705419_2_alg».proof.Proof.KEntry
import proofs.«162210_j73057393705419_2_alg».proof.Proof.KTail
import proofs.«162210_j73057393705419_2_alg».proof.Proof.SumBridge
import proofs.«162210_j73057393705419_2_alg».proof.Proof.RefTotals
import proofs.«162210_j73057393705419_2_alg».proof.Proof.RefStages

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.KFold Cert.KernelIdeal.KBlocks
open Cert.Loss Cert.LibIdxSums

variable (m : (ℓ : Loc nD τ sig) → Buf (Elt Ideal) ℓ) (ρ : Dev nD → PrngReg) (c : Dev nD)

/-- The four argument arrays, and the two host stages the first kernel also reads. -/
abbrev X0 : A9.Idx → Ideal .f32 := m ((c : Thread nD τ).loc main_arg0)
abbrev X1 : A9.Idx → Ideal .f32 := m ((c : Thread nD τ).loc main_arg1)
abbrev X2 : Img.Idx → Ideal .f32 := m ((c : Thread nD τ).loc main_arg2)
abbrev X3 : Img.Idx → Ideal .f32 := m ((c : Thread nD τ).loc main_arg3)
abbrev NX : A2.Idx → Ideal .f32 := Cert.ReferenceIdeal.ReadP.val_main_v62 (F := Ideal) (X0 m c) (X1 m c)
abbrev PV : M2.Idx → Ideal .f32 := Cert.ReferenceIdeal.ReadP.val_main_v68 (F := Ideal) (X1 m c)

theorem lt0 (t : Fin 128) : t.val < cfg0.N := by rw [show cfg0.N = 128 from N_0]; exact t.isLt
theorem lt1 (t : Fin 8) : t.val < cfg1.N := by rw [show cfg1.N = 8 from N_1]; exact t.isLt

/-- The pair-validity mask as the first kernel finds it ([256,4096,1]) read at (B, m, 0): the mask at (B, m). -/
theorem pair_apply (B : Fin 256) (mm : Fin 4096) :
    (V10 m ρ c main_v21 : Vec Ideal S256x4096x1 .f32) (ix3 B mm 0) = PV m c (ix2 B mm) := by
  rw [entry0_pair m ρ c]
  exact broadcastInDim_apply _ _ _ _ (ix2 B mm) (fun a => by match a with | ⟨0, _⟩ => rfl | ⟨1, _⟩ => rfl)

theorem coord_points : ∑ s ∈ Finset.range 128, Reg0.blockCoord (V10 m ρ) c s
    = ∑ t : Fin 128, ∑ b : Fin 2, ∑ mm : Fin 4096, ∑ k : Fin 6, coordT (X0 m c) (X1 m c) ⟨2 * t.val + b.val, by omega⟩ mm k := by
  rw [sum_range_eq_sum_fin]
  refine Finset.sum_congr rfl fun t _ => ?_
  rw [Reg0.blockCoord, dif_pos (lt0 t)]
  unfold Reg0.sCoord
  refine Finset.sum_congr rfl fun b _ => Finset.sum_congr rfl fun mm _ => Finset.sum_congr rfl fun k _ => ?_
  have hB : 2 * (⟨t.val, lt0 t⟩ : Fin cfg0.N).val + b.val < 256 := by show 2 * t.val + b.val < 256; omega
  rw [blk0_0 _ c ⟨t.val, lt0 t⟩ b mm _ hB, blk0_1 _ c ⟨t.val, lt0 t⟩ b mm _ hB, blk0_1 _ c ⟨t.val, lt0 t⟩ b mm _ hB,
    entry0_arg0 m ρ c, entry0_arg1 m ρ c]
  rfl

theorem width_points : ∑ s ∈ Finset.range 128, Reg0.blockWidth (V10 m ρ) c s
    = ∑ t : Fin 128, ∑ b : Fin 2, ∑ mm : Fin 4096, ∑ k : Fin 2, widthT (X0 m c) (X1 m c) ⟨2 * t.val + b.val, by omega⟩ mm k := by
  rw [sum_range_eq_sum_fin]
  refine Finset.sum_congr rfl fun t _ => ?_
  rw [Reg0.blockWidth, dif_pos (lt0 t)]
  unfold Reg0.sWidth
  refine Finset.sum_congr rfl fun b _ => Finset.sum_congr rfl fun mm _ => Finset.sum_congr rfl fun k _ => ?_
  have hB : 2 * (⟨t.val, lt0 t⟩ : Fin cfg0.N).val + b.val < 256 := by show 2 * t.val + b.val < 256; omega
  rw [blk0_0 _ c ⟨t.val, lt0 t⟩ b mm _ hB, blk0_1 _ c ⟨t.val, lt0 t⟩ b mm _ hB, blk0_1 _ c ⟨t.val, lt0 t⟩ b mm _ hB,
    entry0_arg0 m ρ c, entry0_arg1 m ρ c]
  rfl

theorem bce_points : ∑ s ∈ Finset.range 128, Reg0.blockBce (V10 m ρ) c s
    = ∑ t : Fin 128, ∑ b : Fin 2, ∑ mm : Fin 4096, ∑ u : Fin 1, bceT (X0 m c) (X1 m c) ⟨2 * t.val + b.val, by omega⟩ mm := by
  rw [sum_range_eq_sum_fin]
  refine Finset.sum_congr rfl fun t _ => ?_
  rw [Reg0.blockBce, dif_pos (lt0 t)]
  unfold Reg0.sBce
  refine Finset.sum_congr rfl fun b _ => Finset.sum_congr rfl fun mm _ => Finset.sum_congr rfl fun u _ => ?_
  have hB : 2 * (⟨t.val, lt0 t⟩ : Fin cfg0.N).val + b.val < 256 := by show 2 * t.val + b.val < 256; omega
  rw [blk0_0 _ c ⟨t.val, lt0 t⟩ b mm _ hB, blk0_1 _ c ⟨t.val, lt0 t⟩ b mm _ hB, entry0_arg0 m ρ c, entry0_arg1 m ρ c]
  unfold Reg0.bceK
  rw [neg_entry]
  rfl

theorem valid_points : ∑ s ∈ Finset.range 128, Reg0.blockValid (V10 m ρ) c s
    = ∑ t : Fin 128, ∑ b : Fin 2, ∑ mm : Fin 4096, nvT (X1 m c) ⟨2 * t.val + b.val, by omega⟩ mm := by
  rw [sum_range_eq_sum_fin]
  refine Finset.sum_congr rfl fun t _ => ?_
  rw [Reg0.blockValid, dif_pos (lt0 t)]
  unfold Reg0.sValid
  refine Finset.sum_congr rfl fun b _ => Finset.sum_congr rfl fun mm _ => ?_
  have hB : 2 * (⟨t.val, lt0 t⟩ : Fin cfg0.N).val + b.val < 256 := by show 2 * t.val + b.val < 256; omega
  rw [blk0_1 _ c ⟨t.val, lt0 t⟩ b mm _ hB, entry0_arg1 m ρ c]
  rfl

theorem cont_points : ∑ s ∈ Finset.range 128, Reg0.blockCont (V10 m ρ) c s
    = ∑ t : Fin 128, ∑ b : Fin 2, ∑ mm : Fin 4096, contT (X0 m c) (NX m c) (PV m c) ⟨2 * t.val + b.val, by omega⟩ mm := by
  rw [sum_range_eq_sum_fin]
  refine Finset.sum_congr rfl fun t _ => ?_
  rw [Reg0.blockCont, dif_pos (lt0 t)]
  unfold Reg0.sCont
  refine Finset.sum_congr rfl fun b _ => Finset.sum_congr rfl fun mm _ => ?_
  have hB : 2 * (⟨t.val, lt0 t⟩ : Fin cfg0.N).val + b.val < 256 := by show 2 * t.val + b.val < 256; omega
  rw [blk0_3 _ c ⟨t.val, lt0 t⟩ b mm 0 hB, pair_apply m ρ c, cont_entry]
  unfold contT
  refine congrArg (fun s => Ideal.div (zero + s) two * PV m c (ix2 _ mm)) (Finset.sum_congr rfl fun k _ => ?_)
  rw [blk0_0 _ c ⟨t.val, lt0 t⟩ b mm _ hB, blk0_2 _ c ⟨t.val, lt0 t⟩ b mm k hB, entry0_arg0 m ρ c, entry0_next m ρ c]

theorem sq_points : ∑ s ∈ Finset.range 8, Reg1.blockSq (V16 m ρ) c s
    = ∑ t : Fin 8, ∑ b : Fin 32, ∑ u : Fin 1, ∑ h : Fin 128, ∑ w : Fin 128, sqT (X2 m c) (X3 m c) (ix4 ⟨32 * t.val + b.val, by omega⟩ u h w) := by
  rw [sum_range_eq_sum_fin]
  refine Finset.sum_congr rfl fun t _ => ?_
  rw [Reg1.blockSq, dif_pos (lt1 t)]
  unfold Reg1.sSq
  refine Finset.sum_congr rfl fun b _ => ?_
  rw [Fin.sum_univ_one]
  refine Finset.sum_congr rfl fun h _ => Finset.sum_congr rfl fun w _ => ?_
  have hB : 32 * (⟨t.val, lt1 t⟩ : Fin cfg1.N).val + b.val < 256 := by show 32 * t.val + b.val < 256; omega
  rw [blk1_0 _ c ⟨t.val, lt1 t⟩ b 0 h w hB, blk1_1 _ c ⟨t.val, lt1 t⟩ b 0 h w hB, entry1_arg2 m ρ c, entry1_arg3 m ρ c]
  rfl

section Totals

open Cert.ReferenceIdeal.ReadP Cert.ReferenceIdeal.RefTotals

/-- Any entry of a one-entry array recast to rank 0. -/
theorem cast0_apply (A : Vec Ideal S1x1 .f32) (i : S_.Idx) : ∃ j : S1x1.Idx, shapeCast S_ A shapeCasts_S1x1_S_ i = A j := ⟨_, rfl⟩

theorem coord_eq : shapeCast S_ ((dat0 (V10 m ρ) c).arrAt 4 cfg0.N) shapeCasts_S1x1_S_ = val_main_v14 (F := Ideal) (X0 m c) (X1 m c) :=
  funext fun i => by
    obtain ⟨j, hj⟩ := cast0_apply ((dat0 (V10 m ρ) c).arrAt 4 cfg0.N) i
    rw [hj, Reg0.final4_apply (V10 m ρ) c j, coord_points, v14_eq, totCoord_blocks]

theorem width_eq : shapeCast S_ ((dat0 (V10 m ρ) c).arrAt 5 cfg0.N) shapeCasts_S1x1_S_ = val_main_v27 (F := Ideal) (X0 m c) (X1 m c) :=
  funext fun i => by
    obtain ⟨j, hj⟩ := cast0_apply ((dat0 (V10 m ρ) c).arrAt 5 cfg0.N) i
    rw [hj, Reg0.final5_apply (V10 m ρ) c j, width_points, v27_eq, totWidth_blocks]

theorem bce_eq : shapeCast S_ ((dat0 (V10 m ρ) c).arrAt 6 cfg0.N) shapeCasts_S1x1_S_ = val_main_v45 (F := Ideal) (X0 m c) (X1 m c) :=
  funext fun i => by
    obtain ⟨j, hj⟩ := cast0_apply ((dat0 (V10 m ρ) c).arrAt 6 cfg0.N) i
    rw [hj, Reg0.final6_apply (V10 m ρ) c j, bce_points, v45_eq, totBce_blocks]

theorem valid_eq : shapeCast S_ ((dat0 (V10 m ρ) c).arrAt 7 cfg0.N) shapeCasts_S1x1_S_ = val_main_v6 (F := Ideal) (X1 m c) :=
  funext fun i => by
    obtain ⟨j, hj⟩ := cast0_apply ((dat0 (V10 m ρ) c).arrAt 7 cfg0.N) i
    rw [hj, Reg0.final7_apply (V10 m ρ) c j, valid_points, v6_eq, totValid_blocks]

theorem cont_eq : shapeCast S_ ((dat0 (V10 m ρ) c).arrAt 8 cfg0.N) shapeCasts_S1x1_S_ = val_main_v70 (F := Ideal) (X0 m c) (X1 m c) :=
  funext fun i => by
    obtain ⟨j, hj⟩ := cast0_apply ((dat0 (V10 m ρ) c).arrAt 8 cfg0.N) i
    rw [hj, Reg0.final8_apply (V10 m ρ) c j, cont_points, v70_eq, totCont_blocks]

theorem sq_eq : shapeCast S_ ((dat1 (V16 m ρ) c).arrAt 2 cfg1.N) shapeCasts_S1x1_S_ = val_main_v74 (F := Ideal) (X2 m c) (X3 m c) :=
  funext fun i => by
    obtain ⟨j, hj⟩ := cast0_apply ((dat1 (V16 m ρ) c).arrAt 2 cfg1.N) i
    rw [hj, Reg1.final_apply (V16 m ρ) c j, sq_points, v74_eq, totSq_blocks]

/-- The kernel's result is the reference's result term of the same arguments. -/
theorem result_agree : W18 m ρ c (Proc.devRef .tc main_v49)
    = val_main_v82 (F := Ideal) (X0 m c) (X1 m c) (X2 m c) (X3 m c) := by
  rw [KFold.result_eq m ρ c, Cert.ReferenceIdeal.RefStages.result_eq_combine, coord_eq, width_eq, bce_eq, valid_eq, cont_eq, sq_eq]

end Totals

end Cert.KernelIdeal.Bridge

end
-- ==== Proof.RefRun.lean ====
/-
  The reference's run, read stage by stage.

  The reference is a straight line of 152 host operations. Cut into sixteen consecutive windows, the line is run one window
  at a time from any buffer contents `W`: `vK W` is what the buffers hold after the first `K` windows. After each window,
  every buffer that a later window still reads holds its stage value (`ReadP.val_‹buffer›`) of the four arguments'
  contents in `W`, and the four arguments hold what they held in `W`: from ANY contents in which the buffers a window reads
  hold their stage values, the window's own operations compose to the stage definitions of the buffers it writes, one
  layer each, and a buffer the window does not write keeps its contents. Joined, the windows are the whole line, so every
  execution of the reference ends with the result buffer at `val_main_v82` of the arguments' launch contents and the
  arguments unchanged.
-/
import proofs.«162210_j73057393705419_2_alg».proof.Proof.RefRunP
import proofs.«162210_j73057393705419_2_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo Cert.ReferenceIdeal.ValueP Cert.ReferenceIdeal.ReadP

variable {F : FTy → Type} [FloatOps F]

/-- Running two lines one after the other is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Closes `op.writes ⊆ (L.map devRef).toFinset` for an operation whose one result buffer is in the literal list `L`. -/
local macro "writes_in" : tactic =>
  `(tactic| (simp only [nullary_writes, unary_writes, binary_writes, ternary_writes, quaternary_writes, reshape_writes,
      Finset.singleton_subset_iff, List.mem_toFinset]; exact List.mem_map_of_mem (by decide)))

/-! ## The windows -/

/-- Window 1: operations 1 to 9 of the line. -/
abbrev s1 : List (HloOp τ sig (Elt F)) :=
  [ unary main_arg1 main_v0 ((extractStridedSlice S256x4096x8 ![0, 0, 0] · slices_S256x4096x9_S256x4096x8_0_0_0) : (⟨S256x4096x9, .f32⟩ : BufTy).Contents (Elt F) → (⟨S256x4096x8, .f32⟩ : BufTy).Contents (Elt F)),
    unary main_arg1 main_v1 ((extractStridedSlice S256x4096x1 ![0, 0, 8] · slices_S256x4096x9_S256x4096x1_0_0_8) : (⟨S256x4096x9, .f32⟩ : BufTy).Contents (Elt F) → (⟨S256x4096x1, .f32⟩ : BufTy).Contents (Elt F)),
    reshape main_v1 main_v2 rfl shapeCasts_S256x4096x1_S256x4096,
    nullary main_cst (constant S_ .f32 0x3F000000#32),
    unary main_cst main_v3 (broadcastInDim S256x4096 ![] bcast_S_S256x4096 : (⟨S_, .f32⟩ : BufTy).Contents (Elt F) → (⟨S256x4096, .f32⟩ : BufTy).Contents (Elt F)),
    binary main_v2 main_v3 main_v4 (cmpf .ogt : (⟨S256x4096, .f32⟩ : BufTy).Contents (Elt F) → (⟨S256x4096, .f32⟩ : BufTy).Contents (Elt F) → (⟨S256x4096, .i1⟩ : BufTy).Contents (Elt F)),
    unary main_v4 main_v5 (uitofp .f32 : (⟨S256x4096, .i1⟩ : BufTy).Contents (Elt F) → (⟨S256x4096, .f32⟩ : BufTy).Contents (Elt F)),
    nullary main_cst_0 (constant S_ .f32 0x00000000#32),
    binary main_v5 main_cst_0 main_v6 ((fun x v => Host.reduceAdd x v reducesTo_S256x4096_S_d0_1 h_S_) : (⟨S256x4096, .f32⟩ : BufTy).Contents (Elt F) → (⟨S_, .f32⟩ : BufTy).Contents (Elt F) → (⟨S_, .f32⟩ : BufTy).Contents (Elt F)) ]

/-- Window 2: operations 10 to 28 of the line. -/
abbrev s2 : List (HloOp τ sig (Elt F)) :=
  [ unary main_arg0 main_v7 ((extractStridedSlice S256x4096x6 ![0, 0, 0] · slices_S256x4096x9_S256x4096x6_0_0_0) : (⟨S256x4096x9, .f32⟩ : BufTy).Contents (Elt F) → (⟨S256x4096x6, .f32⟩ : BufTy).Contents (Elt F)),
    unary main_v0 main_v8 ((extractStridedSlice S256x4096x6 ![0, 0, 0] · slices_S256x4096x8_S256x4096x6_0_0_0) : (⟨S256x4096x8, .f32⟩ : BufTy).Contents (Elt F) → (⟨S256x4096x6, .f32⟩ : BufTy).Contents (Elt F)),
    binary main_v7 main_v8 main_v9 (subf : (⟨S256x4096x6, .f32⟩ : BufTy).Contents (Elt F) → (⟨S256x4096x6, .f32⟩ : BufTy).Contents (Elt F) → (⟨S256x4096x6, .f32⟩ : BufTy).Contents (Elt F)),
    unary main_v9 main_v10 (Host.absf : (⟨S256x4096x6, .f32⟩ : BufTy).Contents (Elt F) → (⟨S256x4096x6, .f32⟩ : BufTy).Contents (Elt F)),
    unary main_v5 main_v11 (broadcastInDim S256x4096x1 ![0, 1] bcast_S256x4096_S256x4096x1_0_1 : (⟨S256x4096, .f32⟩ : BufTy).Contents (Elt F) → (⟨S256x4096x1, .f32⟩ : BufTy).Contents (Elt F)),
    unary main_v11 main_v12 (broadcastInDim S256x4096x6 ![0, 1, 2] bcast_S256x4096x1_S256x4096x6_0_1_2 : (⟨S256x4096x1, .f32⟩ : BufTy).Contents (Elt F) → (⟨S256x4096x6, .f32⟩ : BufTy).Contents (Elt F)),
    binary main_v10 main_v12 main_v13 (mulf : (⟨S256x4096x6, .f32⟩ : BufTy).Contents (Elt F) → (⟨S256x4096x6, .f32⟩ : BufTy).Contents (Elt F) → (⟨S256x4096x6, .f32⟩ : BufTy).Contents (Elt F)),
    nullary main_cst_1 (constant S_ .f32 0x00000000#32),
    binary main_v13 main_cst_1 main_v14 ((fun x v => Host.reduceAdd x v reducesTo_S256x4096x6_S_d0_1_2 h_S_) : (⟨S256x4096x6, .f32⟩ : BufTy).Contents (Elt F) → (⟨S_, .f32⟩ : BufTy).Contents (Elt F) → (⟨S_, .f32⟩ : BufTy).Contents (Elt F)),
    nullary main_cst_2 (constant S_ .f32 0x00000000#32),
    binary main_v6 main_cst_2 main_v15 (cmpf .ogt : (⟨S_, .f32⟩ : BufTy).Contents (Elt F) → (⟨S_, .f32⟩ : BufTy).Contents (Elt F) → (⟨S_, .i1⟩ : BufTy).Contents (Elt F)),
    nullary main_cst_3 (constant S_ .f32 0x40C00000#32),
    binary main_v6 main_cst_3 main_v16 (mulf : (⟨S_, .f32⟩ : BufTy).Contents (Elt F) → (⟨S_, .f32⟩ : BufTy).Contents (Elt F) → (⟨S_, .f32⟩ : BufTy).Contents (Elt F)),
    nullary main_cst_4 (constant S_ .f32 0x3F800000#32),
    binary main_v16 main_cst_4 main_v17 (maximumf : (⟨S_, .f32⟩ : BufTy).Contents (Elt F) → (⟨S_, .f32⟩ : BufTy).Contents (Elt F) → (⟨S_, .f32⟩ : BufTy).Contents (Elt F)),
    binary main_v14 main_v17 main_v18 (Host.divf : (⟨S_, .f32⟩ : BufTy).Contents (Elt F) → (⟨S_, .f32⟩ : BufTy).Contents (Elt F) → (⟨S_, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.ternary (TRef.of (T := ⟨S_, .i1⟩) main_v15) (TRef.of (T := ⟨S_, .f32⟩) main_v18) (TRef.of (T := ⟨S_, .f32⟩) main_call0_v0) (TRef.of (T := ⟨S_, .f32⟩) main_v19) select ]

/-- Window 3: operations 29 to 47 of the line. -/
abbrev s3 : List (HloOp τ sig (Elt F)) :=
  [ unary main_arg0 main_v20 ((extractStridedSlice S256x4096x2 ![0, 0, 6] · slices_S256x4096x9_S256x4096x2_0_0_6) : (⟨S256x4096x9, .f32⟩ : BufTy).Contents (Elt F) → (⟨S256x4096x2, .f32⟩ : BufTy).Contents (Elt F)),
    unary main_v0 main_v21 ((extractStridedSlice S256x4096x2 ![0, 0, 6] · slices_S256x4096x8_S256x4096x2_0_0_6) : (⟨S256x4096x8, .f32⟩ : BufTy).Contents (Elt F) → (⟨S256x4096x2, .f32⟩ : BufTy).Contents (Elt F)),
    binary main_v20 main_v21 main_v22 (subf : (⟨S256x4096x2, .f32⟩ : BufTy).Contents (Elt F) → (⟨S256x4096x2, .f32⟩ : BufTy).Contents (Elt F) → (⟨S256x4096x2, .f32⟩ : BufTy).Contents (Elt F)),
    unary main_v22 main_v23 (Host.absf : (⟨S256x4096x2, .f32⟩ : BufTy).Contents (Elt F) → (⟨S256x4096x2, .f32⟩ : BufTy).Contents (Elt F)),
    unary main_v5 main_v24 (broadcastInDim S256x4096x1 ![0, 1] bcast_S256x4096_S256x4096x1_0_1 : (⟨S256x4096, .f32⟩ : BufTy).Contents (Elt F) → (⟨S256x4096x1, .f32⟩ : BufTy).Contents (Elt F)),
    unary main_v24 main_v25 (broadcastInDim S256x4096x2 ![0, 1, 2] bcast_S256x4096x1_S256x4096x2_0_1_2 : (⟨S256x4096x1, .f32⟩ : BufTy).Contents (Elt F) → (⟨S256x4096x2, .f32⟩ : BufTy).Contents (Elt F)),
    binary main_v23 main_v25 main_v26 (mulf : (⟨S256x4096x2, .f32⟩ : BufTy).Contents (Elt F) → (⟨S256x4096x2, .f32⟩ : BufTy).Contents (Elt F) → (⟨S256x4096x2, .f32⟩ : BufTy).Contents (Elt F)),
    nullary main_cst_6 (constant S_ .f32 0x00000000#32),
    binary main_v26 main_cst_6 main_v27 ((fun x v => Host.reduceAdd x v reducesTo_S256x4096x2_S_d0_1_2 h_S_) : (⟨S256x4096x2, .f32⟩ : BufTy).Contents (Elt F) → (⟨S_, .f32⟩ : BufTy).Contents (Elt F) → (⟨S_, .f32⟩ : BufTy).Contents (Elt F)),
    nullary main_cst_7 (constant S_ .f32 0x00000000#32),
    binary main_v6 main_cst_7 main_v28 (cmpf .ogt : (⟨S_, .f32⟩ : BufTy).Contents (Elt F) → (⟨S_, .f32⟩ : BufTy).Contents (Elt F) → (⟨S_, .i1⟩ : BufTy).Contents (Elt F)),
    nullary main_cst_8 (constant S_ .f32 0x40000000#32),
    binary main_v6 main_cst_8 main_v29 (mulf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    binary main_v29 main_cst_9 main_v30 (maximumf : (⟨S_, .f32⟩ : BufTy).Contents (Elt F) → (⟨S_, .f32⟩ : BufTy).Contents (Elt F) → (⟨S_, .f32⟩ : BufTy).Contents (Elt F)),
    binary main_v27 main_v30 main_v31 (Host.divf : (⟨S_, .f32⟩ : BufTy).Contents (Elt F) → (⟨S_, .f32⟩ : BufTy).Contents (Elt F) → (⟨S_, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.ternary (TRef.of (T := ⟨S_, .i1⟩) main_v28) (TRef.of (T := ⟨S_, .f32⟩) main_v31) (TRef.of (T := ⟨S_, .f32⟩) main_call1_v0) (TRef.of (T := ⟨S_, .f32⟩) main_v32) select ]

/-- Window 4: operations 48 to 72 of the line. -/
abbrev s4 : List (HloOp τ sig (Elt F)) :=
  [ unary main_arg0 main_v33 ((extractStridedSlice S256x4096x1 ![0, 0, 8] · slices_S256x4096x9_S256x4096x1_0_0_8) : (⟨S256x4096x9, .f32⟩ : BufTy).Contents (Elt F) → (⟨S256x4096x1, .f32⟩ : BufTy).Contents (Elt F)),
    nullary main_cst_11 (constant S_ .f32 0x33D6BF95#32),
    nullary main_cst_12 (constant S_ .f32 0x3F7FFFFE#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S256x4096x1, .f32⟩) main_call2_v1) (broadcastInDim S256x4096x1 ![] bcast_S_S256x4096x1),
    TRef.binary (TRef.of (T := ⟨S256x4096x1, .f32⟩) main_call2_v1) (TRef.of (T := ⟨S256x4096x1, .f32⟩) main_v33) (TRef.of (T := ⟨S256x4096x1, .f32⟩) main_call2_v2) maximumf,
    TRef.unary (TRef.of (T := ⟨S_, .f32⟩) main_cst_12) (TRef.of (T := ⟨S_, .f32⟩) main_call2_v3) id,
    TRef.unary (TRef.of (T := ⟨S_, .f32⟩) main_call2_v3) (TRef.of (T := ⟨S256x4096x1, .f32⟩) main_call2_v4) (broadcastInDim S256x4096x1 ![] bcast_S_S256x4096x1),
    TRef.binary (TRef.of (T := ⟨S256x4096x1, .f32⟩) main_call2_v4) (TRef.of (T := ⟨S256x4096x1, .f32⟩) main_call2_v2) (TRef.of (T := ⟨S256x4096x1, .f32⟩) main_v34) minimumf,
    unary main_v34 main_v35 (Host.log : (⟨S256x4096x1, .f32⟩ : BufTy).Contents (Elt F) → (⟨S256x4096x1, .f32⟩ : BufTy).Contents (Elt F)),
    binary main_v1 main_v35 main_v36 (mulf : (⟨S256x4096x1, .f32⟩ : BufTy).Contents (Elt F) → (⟨S256x4096x1, .f32⟩ : BufTy).Contents (Elt F) → (⟨S256x4096x1, .f32⟩ : BufTy).Contents (Elt F)),
    nullary main_cst_13 (constant S_ .f32 0x3F800000#32),
    unary main_cst_13 main_v37 (broadcastInDim S256x4096x1 ![] bcast_S_S256x4096x1 : (⟨S_, .f32⟩ : BufTy).Contents (Elt F) → (⟨S256x4096x1, .f32⟩ : BufTy).Contents (Elt F)),
    binary main_v37 main_v1 main_v38 (subf : (⟨S256x4096x1, .f32⟩ : BufTy).Contents (Elt F) → (⟨S256x4096x1, .f32⟩ : BufTy).Contents (Elt F) → (⟨S256x4096x1, .f32⟩ : BufTy).Contents (Elt F)),
    nullary main_cst_14 (constant S_ .f32 0x3F800000#32),
    unary main_cst_14 main_v39 (broadcastInDim S256x4096x1 ![] bcast_S_S256x4096x1 : (⟨S_, .f32⟩ : BufTy).Contents (Elt F) → (⟨S256x4096x1, .f32⟩ : BufTy).Contents (Elt F)),
    binary main_v39 main_v34 main_v40 (subf : (⟨S256x4096x1, .f32⟩ : BufTy).Contents (Elt F) → (⟨S256x4096x1, .f32⟩ : BufTy).Contents (Elt F) → (⟨S256x4096x1, .f32⟩ : BufTy).Contents (Elt F)),
    unary main_v40 main_v41 (Host.log : (⟨S256x4096x1, .f32⟩ : BufTy).Contents (Elt F) → (⟨S256x4096x1, .f32⟩ : BufTy).Contents (Elt F)),
    binary main_v38 main_v41 main_v42 (mulf : (⟨S256x4096x1, .f32⟩ : BufTy).Contents (Elt F) → (⟨S256x4096x1, .f32⟩ : BufTy).Contents (Elt F) → (⟨S256x4096x1, .f32⟩ : BufTy).Contents (Elt F)),
    binary main_v36 main_v42 main_v43 (addf : (⟨S256x4096x1, .f32⟩ : BufTy).Contents (Elt F) → (⟨S256x4096x1, .f32⟩ : BufTy).Contents (Elt F) → (⟨S256x4096x1, .f32⟩ : BufTy).Contents (Elt F)),
    unary main_v43 main_v44 (Host.negf : (⟨S256x4096x1, .f32⟩ : BufTy).Contents (Elt F) → (⟨S256x4096x1, .f32⟩ : BufTy).Contents (Elt F)),
    nullary main_cst_15 (constant S_ .f32 0x00000000#32),
    binary main_v44 main_cst_15 main_v45 ((fun x v => Host.reduceAdd x v reducesTo_S256x4096x1_S_d0_1_2 h_S_) : (⟨S256x4096x1, .f32⟩ : BufTy).Contents (Elt F) → (⟨S_, .f32⟩ : BufTy).Contents (Elt F) → (⟨S_, .f32⟩ : BufTy).Contents (Elt F)),
    nullary main_cst_16 (constant S_ .f32 0x49800000#32),
    binary main_v45 main_cst_16 main_v46 (Host.divf : (⟨S_, .f32⟩ : BufTy).Contents (Elt F) → (⟨S_, .f32⟩ : BufTy).Contents (Elt F) → (⟨S_, .f32⟩ : BufTy).Contents (Elt F)) ]

/-- Window 5: operations 73 to 82 of the line. -/
abbrev s5 : List (HloOp τ sig (Elt F)) :=
  [ unary main_arg0 main_v47 ((extractStridedSlice S256x4096x2 ![0, 0, 4] · slices_S256x4096x9_S256x4096x2_0_0_4) : (⟨S256x4096x9, .f32⟩ : BufTy).Contents (Elt F) → (⟨S256x4096x2, .f32⟩ : BufTy).Contents (Elt F)),
    nullary main_v48 (iotaInDim S4096 32 0),
    unary main_v48 main_v49 (broadcastInDim S1x4096 ![1] bcast_S4096_S1x4096_1 : (⟨S4096, .i32⟩ : BufTy).Contents (Elt F) → (⟨S1x4096, .i32⟩ : BufTy).Contents (Elt F)),
    nullary main_c (constantI S_ 32 4096#32),
    TRef.unary (TRef.of (T := ⟨S1x4096, .i32⟩) main_v49) (TRef.of (T := ⟨S256x4096, .i32⟩) main_call3_v0) (broadcastInDim S256x4096 ![0, 1] bcast_S1x4096_S256x4096_0_1),
    TRef.unary (TRef.of (T := ⟨S_, .i32⟩) main_c) (TRef.of (T := ⟨S256x4096, .i32⟩) main_call3_v1) (broadcastInDim S256x4096 ![] bcast_S_S256x4096),
    TRef.ternary (TRef.of (T := ⟨S256x4096, .i1⟩) main_v4) (TRef.of (T := ⟨S256x4096, .i32⟩) main_call3_v0) (TRef.of (T := ⟨S256x4096, .i32⟩) main_call3_v1) (TRef.of (T := ⟨S256x4096, .i32⟩) main_v50) select,
    TRef.unary (TRef.of (T := ⟨S256x4096, .i32⟩) main_v50) (TRef.of (T := ⟨S256x4096, .i32⟩) main_v51) (Host.reverse [1]),
    TRef.nullary (TRef.of (T := ⟨S_, .i32⟩) main_call5_c) (constantI S_ 32 2147483647#32),
    TRef.unary (TRef.of (T := ⟨S_, .i32⟩) main_call5_c) (TRef.of (T := ⟨S_, .i32⟩) main_call5_v0) (broadcastInDim S_ ![] bcast_S_S_) ]

/-- Window 6: operation 83 of the line. -/
abbrev s6 : List (HloOp τ sig (Elt F)) :=
  [ TRef.binary (TRef.of (T := ⟨S256x4096, .i32⟩) main_v51) (TRef.of (T := ⟨S_, .i32⟩) main_call5_v0) (TRef.of (T := ⟨S256x4096, .i32⟩) main_v52) (fun x v => Host.reduceWindow IntOp.minsi ![1, 4096] ![1, 1] ![0, 4095] ![0, 0] x v reduceWindows_S256x4096_S256x4096_w1s1p0_0_w4096s1p4095_0 h_S_) ]

/-- Window 7: operations 84 to 87 of the line. -/
abbrev s7 : List (HloOp τ sig (Elt F)) :=
  [ TRef.unary (TRef.of (T := ⟨S256x4096, .i32⟩) main_v52) (TRef.of (T := ⟨S256x4096, .i32⟩) main_v53) (Host.reverse [1]),
    unary main_v53 main_v54 ((extractStridedSlice S256x4095 ![0, 1] · slices_S256x4096_S256x4095_0_1) : (⟨S256x4096, .i32⟩ : BufTy).Contents (Elt F) → (⟨S256x4095, .i32⟩ : BufTy).Contents (Elt F)),
    nullary main_c_17 (constantI S_ 32 4096#32),
    unary main_c_17 main_v55 (broadcastInDim S256x1 ![] bcast_S_S256x1 : (⟨S_, .i32⟩ : BufTy).Contents (Elt F) → (⟨S256x1, .i32⟩ : BufTy).Contents (Elt F)) ]

/-- Window 8: operation 88 of the line. -/
abbrev s8 : List (HloOp τ sig (Elt F)) :=
  [ binary main_v54 main_v55 main_v56 ((fun a b => concatenate S256x4096 1 [⟨S256x4095, a⟩, ⟨S256x1, b⟩] concatenates_S256x4095_S256x1_S256x4096_d1) : (⟨S256x4095, .i32⟩ : BufTy).Contents (Elt F) → (⟨S256x1, .i32⟩ : BufTy).Contents (Elt F) → (⟨S256x4096, .i32⟩ : BufTy).Contents (Elt F)) ]

/-- Window 9: operations 89 to 92 of the line. -/
abbrev s9 : List (HloOp τ sig (Elt F)) :=
  [ nullary main_c_18 (constantI S_ 32 4096#32),
    unary main_c_18 main_v57 (broadcastInDim S256x4096 ![] bcast_S_S256x4096 : (⟨S_, .i32⟩ : BufTy).Contents (Elt F) → (⟨S256x4096, .i32⟩ : BufTy).Contents (Elt F)),
    binary main_v56 main_v57 main_v58 (cmpi .slt : (⟨S256x4096, .i32⟩ : BufTy).Contents (Elt F) → (⟨S256x4096, .i32⟩ : BufTy).Contents (Elt F) → (⟨S256x4096, .i1⟩ : BufTy).Contents (Elt F)),
    binary main_v4 main_v58 main_v59 (andi : (⟨S256x4096, .i1⟩ : BufTy).Contents (Elt F) → (⟨S256x4096, .i1⟩ : BufTy).Contents (Elt F) → (⟨S256x4096, .i1⟩ : BufTy).Contents (Elt F)) ]

/-- Window 10: operations 93 to 117 of the line. -/
abbrev s10 : List (HloOp τ sig (Elt F)) :=
  [ nullary main_c_19 (constantI S_ 32 0#32),
    nullary main_c_20 (constantI S_ 32 4095#32),
    TRef.unary (TRef.of (T := ⟨S_, .i32⟩) main_c_19) (TRef.of (T := ⟨S_, .i32⟩) main_call7_v0) id,
    TRef.unary (TRef.of (T := ⟨S_, .i32⟩) main_call7_v0) (TRef.of (T := ⟨S256x4096, .i32⟩) main_call7_v1) (broadcastInDim S256x4096 ![] bcast_S_S256x4096),
    TRef.binary (TRef.of (T := ⟨S256x4096, .i32⟩) main_call7_v1) (TRef.of (T := ⟨S256x4096, .i32⟩) main_v56) (TRef.of (T := ⟨S256x4096, .i32⟩) main_call7_v2) maxsi,
    TRef.unary (TRef.of (T := ⟨S_, .i32⟩) main_c_20) (TRef.of (T := ⟨S_, .i32⟩) main_call7_v3) id,
    TRef.unary (TRef.of (T := ⟨S_, .i32⟩) main_call7_v3) (TRef.of (T := ⟨S256x4096, .i32⟩) main_call7_v4) (broadcastInDim S256x4096 ![] bcast_S_S256x4096),
    TRef.binary (TRef.of (T := ⟨S256x4096, .i32⟩) main_call7_v4) (TRef.of (T := ⟨S256x4096, .i32⟩) main_call7_v2) (TRef.of (T := ⟨S256x4096, .i32⟩) main_v60) minsi,
    unary main_v60 main_v61 (broadcastInDim S256x4096x1 ![0, 1] bcast_S256x4096_S256x4096x1_0_1 : (⟨S256x4096, .i32⟩ : BufTy).Contents (Elt F) → (⟨S256x4096x1, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S256x4096x1, .i32⟩) main_call8_v0) (broadcastInDim S256x4096x1 ![] bcast_S_S256x4096x1),
    TRef.binary (TRef.of (T := ⟨S256x4096x1, .i32⟩) main_v61) (TRef.of (T := ⟨S256x4096x1, .i32⟩) main_call8_v0) (TRef.of (T := ⟨S256x4096x1, .i1⟩) main_call8_v1) (cmpi .slt),
    TRef.nullary (TRef.of (T := ⟨S_, .i32⟩) main_call8_c_0) (constantI S_ 32 4096#32),
    TRef.unary (TRef.of (T := ⟨S_, .i32⟩) main_call8_c_0) (TRef.of (T := ⟨S256x4096x1, .i32⟩) main_call8_v2) (broadcastInDim S256x4096x1 ![] bcast_S_S256x4096x1),
    TRef.binary (TRef.of (T := ⟨S256x4096x1, .i32⟩) main_v61) (TRef.of (T := ⟨S256x4096x1, .i32⟩) main_call8_v2) (TRef.of (T := ⟨S256x4096x1, .i32⟩) main_call8_v3) addi,
    TRef.ternary (TRef.of (T := ⟨S256x4096x1, .i1⟩) main_call8_v1) (TRef.of (T := ⟨S256x4096x1, .i32⟩) main_call8_v3) (TRef.of (T := ⟨S256x4096x1, .i32⟩) main_v61) (TRef.of (T := ⟨S256x4096x1, .i32⟩) main_call8_v4) select,
    TRef.nullary (TRef.of (T := ⟨S1, .i32⟩) main_call8_c_1) (constantI S1 32 4095#32),
    TRef.nullary (TRef.of (T := ⟨S_, .i32⟩) main_call8_c_2) (constantI S_ 32 0#32),
    TRef.unary (TRef.of (T := ⟨S_, .i32⟩) main_call8_c_2) (TRef.of (T := ⟨S256x4096x1, .i32⟩) main_call8_v5) (broadcastInDim S256x4096x1 ![] bcast_S_S256x4096x1),
    TRef.binary (TRef.of (T := ⟨S256x4096x1, .i32⟩) main_call8_v4) (TRef.of (T := ⟨S256x4096x1, .i32⟩) main_call8_v5) (TRef.of (T := ⟨S256x4096x1, .i1⟩) main_call8_v6) (cmpi .sge),
    TRef.unary (TRef.of (T := ⟨S1, .i32⟩) main_call8_c_1) (TRef.of (T := ⟨S1x1x1, .i32⟩) main_call8_v7) (broadcastInDim S1x1x1 ![2] bcast_S1_S1x1x1_2),
    TRef.unary (TRef.of (T := ⟨S1x1x1, .i32⟩) main_call8_v7) (TRef.of (T := ⟨S256x4096x1, .i32⟩) main_call8_v8) (broadcastInDim S256x4096x1 ![0, 1, 2] bcast_S1x1x1_S256x4096x1_0_1_2),
    TRef.binary (TRef.of (T := ⟨S256x4096x1, .i32⟩) main_call8_v4) (TRef.of (T := ⟨S256x4096x1, .i32⟩) main_call8_v8) (TRef.of (T := ⟨S256x4096x1, .i1⟩) main_call8_v9) (cmpi .sle),
    TRef.binary (TRef.of (T := ⟨S256x4096x1, .i1⟩) main_call8_v6) (TRef.of (T := ⟨S256x4096x1, .i1⟩) main_call8_v9) (TRef.of (T := ⟨S256x4096x1, .i1⟩) main_call8_v10) andi,
    TRef.nullary (TRef.of (T := ⟨S_, .i1⟩) main_call8_c_3) (constantI S_ 1 1#1) ]

/-- Window 11: operation 118 of the line. -/
abbrev s11 : List (HloOp τ sig (Elt F)) :=
  [ TRef.binary (TRef.of (T := ⟨S256x4096x1, .i1⟩) main_call8_v10) (TRef.of (T := ⟨S_, .i1⟩) main_call8_c_3) (TRef.of (T := ⟨S256x4096, .i1⟩) main_call8_v11) (fun x v => Host.reduce IntOp.andi x v reducesTo_S256x4096x1_S256x4096_d2 h_S_) ]

/-- Window 12: operation 119 of the line. -/
abbrev s12 : List (HloOp τ sig (Elt F)) :=
  [ TRef.binary (TRef.of (T := ⟨S256x4096x2, .f32⟩) main_v47) (TRef.of (T := ⟨S256x4096x1, .i32⟩) main_call8_v4) (TRef.of (T := ⟨S256x4096x2, .f32⟩) main_call8_v12) (fun x i => Host.gather gather_S256x4096x2_S256x4096x1_S256x4096x2_2_1_0_0_1_2_112 x i) ]

/-- Window 13: operations 120 to 123 of the line. -/
abbrev s13 : List (HloOp τ sig (Elt F)) :=
  [ TRef.unary (TRef.of (T := ⟨S256x4096, .i1⟩) main_call8_v11) (TRef.of (T := ⟨S256x4096x2, .i1⟩) main_call8_v13) (broadcastInDim S256x4096x2 ![0, 1] bcast_S256x4096_S256x4096x2_0_1),
    TRef.nullary (TRef.of (T := ⟨S_, .f32⟩) main_call8_cst) (constant S_ .f32 0x7FC00000#32),
    TRef.unary (TRef.of (T := ⟨S_, .f32⟩) main_call8_cst) (TRef.of (T := ⟨S256x4096x2, .f32⟩) main_call8_v14) (broadcastInDim S256x4096x2 ![] bcast_S_S256x4096x2),
    TRef.ternary (TRef.of (T := ⟨S256x4096x2, .i1⟩) main_call8_v13) (TRef.of (T := ⟨S256x4096x2, .f32⟩) main_call8_v12) (TRef.of (T := ⟨S256x4096x2, .f32⟩) main_call8_v14) (TRef.of (T := ⟨S256x4096x2, .f32⟩) main_v62) select ]

/-- Window 14: operations 124 to 136 of the line. -/
abbrev s14 : List (HloOp τ sig (Elt F)) :=
  [ binary main_v47 main_v62 main_v63 (subf : (⟨S256x4096x2, .f32⟩ : BufTy).Contents (Elt F) → (⟨S256x4096x2, .f32⟩ : BufTy).Contents (Elt F) → (⟨S256x4096x2, .f32⟩ : BufTy).Contents (Elt F)),
    unary main_v63 main_v64 (Host.absf : (⟨S256x4096x2, .f32⟩ : BufTy).Contents (Elt F) → (⟨S256x4096x2, .f32⟩ : BufTy).Contents (Elt F)),
    nullary main_cst_21 (constant S_ .f32 0x00000000#32),
    binary main_v64 main_cst_21 main_v65 ((fun x v => Host.reduceAdd x v reducesTo_S256x4096x2_S256x4096_d2 h_S_) : (⟨S256x4096x2, .f32⟩ : BufTy).Contents (Elt F) → (⟨S_, .f32⟩ : BufTy).Contents (Elt F) → (⟨S256x4096, .f32⟩ : BufTy).Contents (Elt F)),
    nullary main_cst_22 (constant S_ .f32 0x40000000#32),
    unary main_cst_22 main_v66 (broadcastInDim S256x4096 ![] bcast_S_S256x4096 : (⟨S_, .f32⟩ : BufTy).Contents (Elt F) → (⟨S256x4096, .f32⟩ : BufTy).Contents (Elt F)),
    binary main_v65 main_v66 main_v67 (Host.divf : (⟨S256x4096, .f32⟩ : BufTy).Contents (Elt F) → (⟨S256x4096, .f32⟩ : BufTy).Contents (Elt F) → (⟨S256x4096, .f32⟩ : BufTy).Contents (Elt F)),
    unary main_v59 main_v68 (uitofp .f32 : (⟨S256x4096, .i1⟩ : BufTy).Contents (Elt F) → (⟨S256x4096, .f32⟩ : BufTy).Contents (Elt F)),
    binary main_v67 main_v68 main_v69 (mulf : (⟨S256x4096, .f32⟩ : BufTy).Contents (Elt F) → (⟨S256x4096, .f32⟩ : BufTy).Contents (Elt F) → (⟨S256x4096, .f32⟩ : BufTy).Contents (Elt F)),
    nullary main_cst_23 (constant S_ .f32 0x00000000#32),
    binary main_v69 main_cst_23 main_v70 ((fun x v => Host.reduceAdd x v reducesTo_S256x4096_S_d0_1 h_S_) : (⟨S256x4096, .f32⟩ : BufTy).Contents (Elt F) → (⟨S_, .f32⟩ : BufTy).Contents (Elt F) → (⟨S_, .f32⟩ : BufTy).Contents (Elt F)),
    nullary main_cst_24 (constant S_ .f32 0x43800000#32),
    binary main_v70 main_cst_24 main_v71 (Host.divf : (⟨S_, .f32⟩ : BufTy).Contents (Elt F) → (⟨S_, .f32⟩ : BufTy).Contents (Elt F) → (⟨S_, .f32⟩ : BufTy).Contents (Elt F)) ]

/-- Window 15: operations 137 to 142 of the line. -/
abbrev s15 : List (HloOp τ sig (Elt F)) :=
  [ binary main_arg2 main_arg3 main_v72 (subf : (⟨S256x1x128x128, .f32⟩ : BufTy).Contents (Elt F) → (⟨S256x1x128x128, .f32⟩ : BufTy).Contents (Elt F) → (⟨S256x1x128x128, .f32⟩ : BufTy).Contents (Elt F)),
    binary main_v72 main_v72 main_v73 (mulf : (⟨S256x1x128x128, .f32⟩ : BufTy).Contents (Elt F) → (⟨S256x1x128x128, .f32⟩ : BufTy).Contents (Elt F) → (⟨S256x1x128x128, .f32⟩ : BufTy).Contents (Elt F)),
    nullary main_cst_25 (constant S_ .f32 0x00000000#32),
    binary main_v73 main_cst_25 main_v74 ((fun x v => Host.reduceAdd x v reducesTo_S256x1x128x128_S_d0_1_2_3 h_S_) : (⟨S256x1x128x128, .f32⟩ : BufTy).Contents (Elt F) → (⟨S_, .f32⟩ : BufTy).Contents (Elt F) → (⟨S_, .f32⟩ : BufTy).Contents (Elt F)),
    nullary main_cst_26 (constant S_ .f32 0x4A800000#32),
    binary main_v74 main_cst_26 main_v75 (Host.divf : (⟨S_, .f32⟩ : BufTy).Contents (Elt F) → (⟨S_, .f32⟩ : BufTy).Contents (Elt F) → (⟨S_, .f32⟩ : BufTy).Contents (Elt F)) ]

/-- Window 16: operations 143 to 152 of the line. -/
abbrev s16 : List (HloOp τ sig (Elt F)) :=
  [ binary main_v19 main_v32 main_v76 (addf : (⟨S_, .f32⟩ : BufTy).Contents (Elt F) → (⟨S_, .f32⟩ : BufTy).Contents (Elt F) → (⟨S_, .f32⟩ : BufTy).Contents (Elt F)),
    nullary main_cst_27 (constant S_ .f32 0x40000000#32),
    binary main_cst_27 main_v46 main_v77 (mulf : (⟨S_, .f32⟩ : BufTy).Contents (Elt F) → (⟨S_, .f32⟩ : BufTy).Contents (Elt F) → (⟨S_, .f32⟩ : BufTy).Contents (Elt F)),
    binary main_v76 main_v77 main_v78 (addf : (⟨S_, .f32⟩ : BufTy).Contents (Elt F) → (⟨S_, .f32⟩ : BufTy).Contents (Elt F) → (⟨S_, .f32⟩ : BufTy).Contents (Elt F)),
    nullary main_cst_28 (constant S_ .f32 0x3E4CCCCD#32),
    binary main_cst_28 main_v71 main_v79 (mulf : (⟨S_, .f32⟩ : BufTy).Contents (Elt F) → (⟨S_, .f32⟩ : BufTy).Contents (Elt F) → (⟨S_, .f32⟩ : BufTy).Contents (Elt F)),
    binary main_v78 main_v79 main_v80 (addf : (⟨S_, .f32⟩ : BufTy).Contents (Elt F) → (⟨S_, .f32⟩ : BufTy).Contents (Elt F) → (⟨S_, .f32⟩ : BufTy).Contents (Elt F)),
    nullary main_cst_29 (constant S_ .f32 0x3DCCCCCD#32),
    binary main_cst_29 main_v75 main_v81 (mulf : (⟨S_, .f32⟩ : BufTy).Contents (Elt F) → (⟨S_, .f32⟩ : BufTy).Contents (Elt F) → (⟨S_, .f32⟩ : BufTy).Contents (Elt F)),
    binary main_v80 main_v81 main_v82 (addf : (⟨S_, .f32⟩ : BufTy).Contents (Elt F) → (⟨S_, .f32⟩ : BufTy).Contents (Elt F) → (⟨S_, .f32⟩ : BufTy).Contents (Elt F)) ]

set_option maxRecDepth 8192 in
/-- The line is its windows in order. -/
theorem ops_eq : (ops : List (HloOp τ sig (Elt F))) = s1 ++ (s2 ++ (s3 ++ (s4 ++ (s5 ++ (s6 ++ (s7 ++ (s8 ++ (s9 ++ (s10 ++ (s11 ++ (s12 ++ (s13 ++ (s14 ++ (s15 ++ (s16))))))))))))))) := rfl

/-! ## Contents at a typed reference

A called function's operations name their buffers by typed references: a buffer together with the proof that its type is
the stated one, and contents move between the two types along that proof. For a literal buffer the two types are the same
type, and moving contents along the proof is the identity — stated once per buffer, in both directions. -/

theorem ofBuf_main_cst_5 (h1 : main_cst_5.ty = ⟨S_, .f32⟩) (h2 : main_cst_5.space ≠ .host) (h3 : main_cst_5.isScoped = false) (u : (TRef.of (T := ⟨S_, .f32⟩) main_cst_5 h1 h2 h3).ref.ty.Contents (Elt F)) :
    (TRef.of (T := ⟨S_, .f32⟩) main_cst_5 h1 h2 h3).ofBuf u = (u : (⟨S_, .f32⟩ : BufTy).Contents (Elt F)) := rfl
theorem toBuf_main_cst_5 (h1 : main_cst_5.ty = ⟨S_, .f32⟩) (h2 : main_cst_5.space ≠ .host) (h3 : main_cst_5.isScoped = false) (u : (⟨S_, .f32⟩ : BufTy).Contents (Elt F)) :
    ((TRef.of (T := ⟨S_, .f32⟩) main_cst_5 h1 h2 h3).toBuf u : (⟨S_, .f32⟩ : BufTy).Contents (Elt F)) = u := rfl
theorem ofBuf_main_call0_v0 (h1 : main_call0_v0.ty = ⟨S_, .f32⟩) (h2 : main_call0_v0.space ≠ .host) (h3 : main_call0_v0.isScoped = false) (u : (TRef.of (T := ⟨S_, .f32⟩) main_call0_v0 h1 h2 h3).ref.ty.Contents (Elt F)) :
    (TRef.of (T := ⟨S_, .f32⟩) main_call0_v0 h1 h2 h3).ofBuf u = (u : (⟨S_, .f32⟩ : BufTy).Contents (Elt F)) := rfl
theorem toBuf_main_call0_v0 (h1 : main_call0_v0.ty = ⟨S_, .f32⟩) (h2 : main_call0_v0.space ≠ .host) (h3 : main_call0_v0.isScoped = false) (u : (⟨S_, .f32⟩ : BufTy).Contents (Elt F)) :
    ((TRef.of (T := ⟨S_, .f32⟩) main_call0_v0 h1 h2 h3).toBuf u : (⟨S_, .f32⟩ : BufTy).Contents (Elt F)) = u := rfl
theorem ofBuf_main_v15 (h1 : main_v15.ty = ⟨S_, .i1⟩) (h2 : main_v15.space ≠ .host) (h3 : main_v15.isScoped = false) (u : (TRef.of (T := ⟨S_, .i1⟩) main_v15 h1 h2 h3).ref.ty.Contents (Elt F)) :
    (TRef.of (T := ⟨S_, .i1⟩) main_v15 h1 h2 h3).ofBuf u = (u : (⟨S_, .i1⟩ : BufTy).Contents (Elt F)) := rfl
theorem toBuf_main_v15 (h1 : main_v15.ty = ⟨S_, .i1⟩) (h2 : main_v15.space ≠ .host) (h3 : main_v15.isScoped = false) (u : (⟨S_, .i1⟩ : BufTy).Contents (Elt F)) :
    ((TRef.of (T := ⟨S_, .i1⟩) main_v15 h1 h2 h3).toBuf u : (⟨S_, .i1⟩ : BufTy).Contents (Elt F)) = u := rfl
theorem ofBuf_main_v18 (h1 : main_v18.ty = ⟨S_, .f32⟩) (h2 : main_v18.space ≠ .host) (h3 : main_v18.isScoped = false) (u : (TRef.of (T := ⟨S_, .f32⟩) main_v18 h1 h2 h3).ref.ty.Contents (Elt F)) :
    (TRef.of (T := ⟨S_, .f32⟩) main_v18 h1 h2 h3).ofBuf u = (u : (⟨S_, .f32⟩ : BufTy).Contents (Elt F)) := rfl
theorem toBuf_main_v18 (h1 : main_v18.ty = ⟨S_, .f32⟩) (h2 : main_v18.space ≠ .host) (h3 : main_v18.isScoped = false) (u : (⟨S_, .f32⟩ : BufTy).Contents (Elt F)) :
    ((TRef.of (T := ⟨S_, .f32⟩) main_v18 h1 h2 h3).toBuf u : (⟨S_, .f32⟩ : BufTy).Contents (Elt F)) = u := rfl
theorem ofBuf_main_v19 (h1 : main_v19.ty = ⟨S_, .f32⟩) (h2 : main_v19.space ≠ .host) (h3 : main_v19.isScoped = false) (u : (TRef.of (T := ⟨S_, .f32⟩) main_v19 h1 h2 h3).ref.ty.Contents (Elt F)) :
    (TRef.of (T := ⟨S_, .f32⟩) main_v19 h1 h2 h3).ofBuf u = (u : (⟨S_, .f32⟩ : BufTy).Contents (Elt F)) := rfl
theorem toBuf_main_v19 (h1 : main_v19.ty = ⟨S_, .f32⟩) (h2 : main_v19.space ≠ .host) (h3 : main_v19.isScoped = false) (u : (⟨S_, .f32⟩ : BufTy).Contents (Elt F)) :
    ((TRef.of (T := ⟨S_, .f32⟩) main_v19 h1 h2 h3).toBuf u : (⟨S_, .f32⟩ : BufTy).Contents (Elt F)) = u := rfl
theorem ofBuf_main_cst_10 (h1 : main_cst_10.ty = ⟨S_, .f32⟩) (h2 : main_cst_10.space ≠ .host) (h3 : main_cst_10.isScoped = false) (u : (TRef.of (T := ⟨S_, .f32⟩) main_cst_10 h1 h2 h3).ref.ty.Contents (Elt F)) :
    (TRef.of (T := ⟨S_, .f32⟩) main_cst_10 h1 h2 h3).ofBuf u = (u : (⟨S_, .f32⟩ : BufTy).Contents (Elt F)) := rfl
theorem toBuf_main_cst_10 (h1 : main_cst_10.ty = ⟨S_, .f32⟩) (h2 : main_cst_10.space ≠ .host) (h3 : main_cst_10.isScoped = false) (u : (⟨S_, .f32⟩ : BufTy).Contents (Elt F)) :
    ((TRef.of (T := ⟨S_, .f32⟩) main_cst_10 h1 h2 h3).toBuf u : (⟨S_, .f32⟩ : BufTy).Contents (Elt F)) = u := rfl
theorem ofBuf_main_call1_v0 (h1 : main_call1_v0.ty = ⟨S_, .f32⟩) (h2 : main_call1_v0.space ≠ .host) (h3 : main_call1_v0.isScoped = false) (u : (TRef.of (T := ⟨S_, .f32⟩) main_call1_v0 h1 h2 h3).ref.ty.Contents (Elt F)) :
    (TRef.of (T := ⟨S_, .f32⟩) main_call1_v0 h1 h2 h3).ofBuf u = (u : (⟨S_, .f32⟩ : BufTy).Contents (Elt F)) := rfl
theorem toBuf_main_call1_v0 (h1 : main_call1_v0.ty = ⟨S_, .f32⟩) (h2 : main_call1_v0.space ≠ .host) (h3 : main_call1_v0.isScoped = false) (u : (⟨S_, .f32⟩ : BufTy).Contents (Elt F)) :
    ((TRef.of (T := ⟨S_, .f32⟩) main_call1_v0 h1 h2 h3).toBuf u : (⟨S_, .f32⟩ : BufTy).Contents (Elt F)) = u := rfl
theorem ofBuf_main_v28 (h1 : main_v28.ty = ⟨S_, .i1⟩) (h2 : main_v28.space ≠ .host) (h3 : main_v28.isScoped = false) (u : (TRef.of (T := ⟨S_, .i1⟩) main_v28 h1 h2 h3).ref.ty.Contents (Elt F)) :
    (TRef.of (T := ⟨S_, .i1⟩) main_v28 h1 h2 h3).ofBuf u = (u : (⟨S_, .i1⟩ : BufTy).Contents (Elt F)) := rfl
theorem toBuf_main_v28 (h1 : main_v28.ty = ⟨S_, .i1⟩) (h2 : main_v28.space ≠ .host) (h3 : main_v28.isScoped = false) (u : (⟨S_, .i1⟩ : BufTy).Contents (Elt F)) :
    ((TRef.of (T := ⟨S_, .i1⟩) main_v28 h1 h2 h3).toBuf u : (⟨S_, .i1⟩ : BufTy).Contents (Elt F)) = u := rfl
theorem ofBuf_main_v31 (h1 : main_v31.ty = ⟨S_, .f32⟩) (h2 : main_v31.space ≠ .host) (h3 : main_v31.isScoped = false) (u : (TRef.of (T := ⟨S_, .f32⟩) main_v31 h1 h2 h3).ref.ty.Contents (Elt F)) :
    (TRef.of (T := ⟨S_, .f32⟩) main_v31 h1 h2 h3).ofBuf u = (u : (⟨S_, .f32⟩ : BufTy).Contents (Elt F)) := rfl
theorem toBuf_main_v31 (h1 : main_v31.ty = ⟨S_, .f32⟩) (h2 : main_v31.space ≠ .host) (h3 : main_v31.isScoped = false) (u : (⟨S_, .f32⟩ : BufTy).Contents (Elt F)) :
    ((TRef.of (T := ⟨S_, .f32⟩) main_v31 h1 h2 h3).toBuf u : (⟨S_, .f32⟩ : BufTy).Contents (Elt F)) = u := rfl
theorem ofBuf_main_v32 (h1 : main_v32.ty = ⟨S_, .f32⟩) (h2 : main_v32.space ≠ .host) (h3 : main_v32.isScoped = false) (u : (TRef.of (T := ⟨S_, .f32⟩) main_v32 h1 h2 h3).ref.ty.Contents (Elt F)) :
    (TRef.of (T := ⟨S_, .f32⟩) main_v32 h1 h2 h3).ofBuf u = (u : (⟨S_, .f32⟩ : BufTy).Contents (Elt F)) := rfl
theorem toBuf_main_v32 (h1 : main_v32.ty = ⟨S_, .f32⟩) (h2 : main_v32.space ≠ .host) (h3 : main_v32.isScoped = false) (u : (⟨S_, .f32⟩ : BufTy).Contents (Elt F)) :
    ((TRef.of (T := ⟨S_, .f32⟩) main_v32 h1 h2 h3).toBuf u : (⟨S_, .f32⟩ : BufTy).Contents (Elt F)) = u := rfl
theorem ofBuf_main_cst_11 (h1 : main_cst_11.ty = ⟨S_, .f32⟩) (h2 : main_cst_11.space ≠ .host) (h3 : main_cst_11.isScoped = false) (u : (TRef.of (T := ⟨S_, .f32⟩) main_cst_11 h1 h2 h3).ref.ty.Contents (Elt F)) :
    (TRef.of (T := ⟨S_, .f32⟩) main_cst_11 h1 h2 h3).ofBuf u = (u : (⟨S_, .f32⟩ : BufTy).Contents (Elt F)) := rfl
theorem toBuf_main_cst_11 (h1 : main_cst_11.ty = ⟨S_, .f32⟩) (h2 : main_cst_11.space ≠ .host) (h3 : main_cst_11.isScoped = false) (u : (⟨S_, .f32⟩ : BufTy).Contents (Elt F)) :
    ((TRef.of (T := ⟨S_, .f32⟩) main_cst_11 h1 h2 h3).toBuf u : (⟨S_, .f32⟩ : BufTy).Contents (Elt F)) = u := rfl
theorem ofBuf_main_call2_v0 (h1 : main_call2_v0.ty = ⟨S_, .f32⟩) (h2 : main_call2_v0.space ≠ .host) (h3 : main_call2_v0.isScoped = false) (u : (TRef.of (T := ⟨S_, .f32⟩) main_call2_v0 h1 h2 h3).ref.ty.Contents (Elt F)) :
    (TRef.of (T := ⟨S_, .f32⟩) main_call2_v0 h1 h2 h3).ofBuf u = (u : (⟨S_, .f32⟩ : BufTy).Contents (Elt F)) := rfl
theorem toBuf_main_call2_v0 (h1 : main_call2_v0.ty = ⟨S_, .f32⟩) (h2 : main_call2_v0.space ≠ .host) (h3 : main_call2_v0.isScoped = false) (u : (⟨S_, .f32⟩ : BufTy).Contents (Elt F)) :
    ((TRef.of (T := ⟨S_, .f32⟩) main_call2_v0 h1 h2 h3).toBuf u : (⟨S_, .f32⟩ : BufTy).Contents (Elt F)) = u := rfl
theorem ofBuf_main_call2_v1 (h1 : main_call2_v1.ty = ⟨S256x4096x1, .f32⟩) (h2 : main_call2_v1.space ≠ .host) (h3 : main_call2_v1.isScoped = false) (u : (TRef.of (T := ⟨S256x4096x1, .f32⟩) main_call2_v1 h1 h2 h3).ref.ty.Contents (Elt F)) :
    (TRef.of (T := ⟨S256x4096x1, .f32⟩) main_call2_v1 h1 h2 h3).ofBuf u = (u : (⟨S256x4096x1, .f32⟩ : BufTy).Contents (Elt F)) := rfl
theorem toBuf_main_call2_v1 (h1 : main_call2_v1.ty = ⟨S256x4096x1, .f32⟩) (h2 : main_call2_v1.space ≠ .host) (h3 : main_call2_v1.isScoped = false) (u : (⟨S256x4096x1, .f32⟩ : BufTy).Contents (Elt F)) :
    ((TRef.of (T := ⟨S256x4096x1, .f32⟩) main_call2_v1 h1 h2 h3).toBuf u : (⟨S256x4096x1, .f32⟩ : BufTy).Contents (Elt F)) = u := rfl
theorem ofBuf_main_v33 (h1 : main_v33.ty = ⟨S256x4096x1, .f32⟩) (h2 : main_v33.space ≠ .host) (h3 : main_v33.isScoped = false) (u : (TRef.of (T := ⟨S256x4096x1, .f32⟩) main_v33 h1 h2 h3).ref.ty.Contents (Elt F)) :
    (TRef.of (T := ⟨S256x4096x1, .f32⟩) main_v33 h1 h2 h3).ofBuf u = (u : (⟨S256x4096x1, .f32⟩ : BufTy).Contents (Elt F)) := rfl
theorem toBuf_main_v33 (h1 : main_v33.ty = ⟨S256x4096x1, .f32⟩) (h2 : main_v33.space ≠ .host) (h3 : main_v33.isScoped = false) (u : (⟨S256x4096x1, .f32⟩ : BufTy).Contents (Elt F)) :
    ((TRef.of (T := ⟨S256x4096x1, .f32⟩) main_v33 h1 h2 h3).toBuf u : (⟨S256x4096x1, .f32⟩ : BufTy).Contents (Elt F)) = u := rfl
theorem ofBuf_main_call2_v2 (h1 : main_call2_v2.ty = ⟨S256x4096x1, .f32⟩) (h2 : main_call2_v2.space ≠ .host) (h3 : main_call2_v2.isScoped = false) (u : (TRef.of (T := ⟨S256x4096x1, .f32⟩) main_call2_v2 h1 h2 h3).ref.ty.Contents (Elt F)) :
    (TRef.of (T := ⟨S256x4096x1, .f32⟩) main_call2_v2 h1 h2 h3).ofBuf u = (u : (⟨S256x4096x1, .f32⟩ : BufTy).Contents (Elt F)) := rfl
theorem toBuf_main_call2_v2 (h1 : main_call2_v2.ty = ⟨S256x4096x1, .f32⟩) (h2 : main_call2_v2.space ≠ .host) (h3 : main_call2_v2.isScoped = false) (u : (⟨S256x4096x1, .f32⟩ : BufTy).Contents (Elt F)) :
    ((TRef.of (T := ⟨S256x4096x1, .f32⟩) main_call2_v2 h1 h2 h3).toBuf u : (⟨S256x4096x1, .f32⟩ : BufTy).Contents (Elt F)) = u := rfl
theorem ofBuf_main_cst_12 (h1 : main_cst_12.ty = ⟨S_, .f32⟩) (h2 : main_cst_12.space ≠ .host) (h3 : main_cst_12.isScoped = false) (u : (TRef.of (T := ⟨S_, .f32⟩) main_cst_12 h1 h2 h3).ref.ty.Contents (Elt F)) :
    (TRef.of (T := ⟨S_, .f32⟩) main_cst_12 h1 h2 h3).ofBuf u = (u : (⟨S_, .f32⟩ : BufTy).Contents (Elt F)) := rfl
theorem toBuf_main_cst_12 (h1 : main_cst_12.ty = ⟨S_, .f32⟩) (h2 : main_cst_12.space ≠ .host) (h3 : main_cst_12.isScoped = false) (u : (⟨S_, .f32⟩ : BufTy).Contents (Elt F)) :
    ((TRef.of (T := ⟨S_, .f32⟩) main_cst_12 h1 h2 h3).toBuf u : (⟨S_, .f32⟩ : BufTy).Contents (Elt F)) = u := rfl
theorem ofBuf_main_call2_v3 (h1 : main_call2_v3.ty = ⟨S_, .f32⟩) (h2 : main_call2_v3.space ≠ .host) (h3 : main_call2_v3.isScoped = false) (u : (TRef.of (T := ⟨S_, .f32⟩) main_call2_v3 h1 h2 h3).ref.ty.Contents (Elt F)) :
    (TRef.of (T := ⟨S_, .f32⟩) main_call2_v3 h1 h2 h3).ofBuf u = (u : (⟨S_, .f32⟩ : BufTy).Contents (Elt F)) := rfl
theorem toBuf_main_call2_v3 (h1 : main_call2_v3.ty = ⟨S_, .f32⟩) (h2 : main_call2_v3.space ≠ .host) (h3 : main_call2_v3.isScoped = false) (u : (⟨S_, .f32⟩ : BufTy).Contents (Elt F)) :
    ((TRef.of (T := ⟨S_, .f32⟩) main_call2_v3 h1 h2 h3).toBuf u : (⟨S_, .f32⟩ : BufTy).Contents (Elt F)) = u := rfl
theorem ofBuf_main_call2_v4 (h1 : main_call2_v4.ty = ⟨S256x4096x1, .f32⟩) (h2 : main_call2_v4.space ≠ .host) (h3 : main_call2_v4.isScoped = false) (u : (TRef.of (T := ⟨S256x4096x1, .f32⟩) main_call2_v4 h1 h2 h3).ref.ty.Contents (Elt F)) :
    (TRef.of (T := ⟨S256x4096x1, .f32⟩) main_call2_v4 h1 h2 h3).ofBuf u = (u : (⟨S256x4096x1, .f32⟩ : BufTy).Contents (Elt F)) := rfl
theorem toBuf_main_call2_v4 (h1 : main_call2_v4.ty = ⟨S256x4096x1, .f32⟩) (h2 : main_call2_v4.space ≠ .host) (h3 : main_call2_v4.isScoped = false) (u : (⟨S256x4096x1, .f32⟩ : BufTy).Contents (Elt F)) :
    ((TRef.of (T := ⟨S256x4096x1, .f32⟩) main_call2_v4 h1 h2 h3).toBuf u : (⟨S256x4096x1, .f32⟩ : BufTy).Contents (Elt F)) = u := rfl
theorem ofBuf_main_v34 (h1 : main_v34.ty = ⟨S256x4096x1, .f32⟩) (h2 : main_v34.space ≠ .host) (h3 : main_v34.isScoped = false) (u : (TRef.of (T := ⟨S256x4096x1, .f32⟩) main_v34 h1 h2 h3).ref.ty.Contents (Elt F)) :
    (TRef.of (T := ⟨S256x4096x1, .f32⟩) main_v34 h1 h2 h3).ofBuf u = (u : (⟨S256x4096x1, .f32⟩ : BufTy).Contents (Elt F)) := rfl
theorem toBuf_main_v34 (h1 : main_v34.ty = ⟨S256x4096x1, .f32⟩) (h2 : main_v34.space ≠ .host) (h3 : main_v34.isScoped = false) (u : (⟨S256x4096x1, .f32⟩ : BufTy).Contents (Elt F)) :
    ((TRef.of (T := ⟨S256x4096x1, .f32⟩) main_v34 h1 h2 h3).toBuf u : (⟨S256x4096x1, .f32⟩ : BufTy).Contents (Elt F)) = u := rfl
theorem ofBuf_main_v49 (h1 : main_v49.ty = ⟨S1x4096, .i32⟩) (h2 : main_v49.space ≠ .host) (h3 : main_v49.isScoped = false) (u : (TRef.of (T := ⟨S1x4096, .i32⟩) main_v49 h1 h2 h3).ref.ty.Contents (Elt F)) :
    (TRef.of (T := ⟨S1x4096, .i32⟩) main_v49 h1 h2 h3).ofBuf u = (u : (⟨S1x4096, .i32⟩ : BufTy).Contents (Elt F)) := rfl
theorem toBuf_main_v49 (h1 : main_v49.ty = ⟨S1x4096, .i32⟩) (h2 : main_v49.space ≠ .host) (h3 : main_v49.isScoped = false) (u : (⟨S1x4096, .i32⟩ : BufTy).Contents (Elt F)) :
    ((TRef.of (T := ⟨S1x4096, .i32⟩) main_v49 h1 h2 h3).toBuf u : (⟨S1x4096, .i32⟩ : BufTy).Contents (Elt F)) = u := rfl
theorem ofBuf_main_call3_v0 (h1 : main_call3_v0.ty = ⟨S256x4096, .i32⟩) (h2 : main_call3_v0.space ≠ .host) (h3 : main_call3_v0.isScoped = false) (u : (TRef.of (T := ⟨S256x4096, .i32⟩) main_call3_v0 h1 h2 h3).ref.ty.Contents (Elt F)) :
    (TRef.of (T := ⟨S256x4096, .i32⟩) main_call3_v0 h1 h2 h3).ofBuf u = (u : (⟨S256x4096, .i32⟩ : BufTy).Contents (Elt F)) := rfl
theorem toBuf_main_call3_v0 (h1 : main_call3_v0.ty = ⟨S256x4096, .i32⟩) (h2 : main_call3_v0.space ≠ .host) (h3 : main_call3_v0.isScoped = false) (u : (⟨S256x4096, .i32⟩ : BufTy).Contents (Elt F)) :
    ((TRef.of (T := ⟨S256x4096, .i32⟩) main_call3_v0 h1 h2 h3).toBuf u : (⟨S256x4096, .i32⟩ : BufTy).Contents (Elt F)) = u := rfl
theorem ofBuf_main_c (h1 : main_c.ty = ⟨S_, .i32⟩) (h2 : main_c.space ≠ .host) (h3 : main_c.isScoped = false) (u : (TRef.of (T := ⟨S_, .i32⟩) main_c h1 h2 h3).ref.ty.Contents (Elt F)) :
    (TRef.of (T := ⟨S_, .i32⟩) main_c h1 h2 h3).ofBuf u = (u : (⟨S_, .i32⟩ : BufTy).Contents (Elt F)) := rfl
theorem toBuf_main_c (h1 : main_c.ty = ⟨S_, .i32⟩) (h2 : main_c.space ≠ .host) (h3 : main_c.isScoped = false) (u : (⟨S_, .i32⟩ : BufTy).Contents (Elt F)) :
    ((TRef.of (T := ⟨S_, .i32⟩) main_c h1 h2 h3).toBuf u : (⟨S_, .i32⟩ : BufTy).Contents (Elt F)) = u := rfl
theorem ofBuf_main_call3_v1 (h1 : main_call3_v1.ty = ⟨S256x4096, .i32⟩) (h2 : main_call3_v1.space ≠ .host) (h3 : main_call3_v1.isScoped = false) (u : (TRef.of (T := ⟨S256x4096, .i32⟩) main_call3_v1 h1 h2 h3).ref.ty.Contents (Elt F)) :
    (TRef.of (T := ⟨S256x4096, .i32⟩) main_call3_v1 h1 h2 h3).ofBuf u = (u : (⟨S256x4096, .i32⟩ : BufTy).Contents (Elt F)) := rfl
theorem toBuf_main_call3_v1 (h1 : main_call3_v1.ty = ⟨S256x4096, .i32⟩) (h2 : main_call3_v1.space ≠ .host) (h3 : main_call3_v1.isScoped = false) (u : (⟨S256x4096, .i32⟩ : BufTy).Contents (Elt F)) :
    ((TRef.of (T := ⟨S256x4096, .i32⟩) main_call3_v1 h1 h2 h3).toBuf u : (⟨S256x4096, .i32⟩ : BufTy).Contents (Elt F)) = u := rfl
theorem ofBuf_main_v4 (h1 : main_v4.ty = ⟨S256x4096, .i1⟩) (h2 : main_v4.space ≠ .host) (h3 : main_v4.isScoped = false) (u : (TRef.of (T := ⟨S256x4096, .i1⟩) main_v4 h1 h2 h3).ref.ty.Contents (Elt F)) :
    (TRef.of (T := ⟨S256x4096, .i1⟩) main_v4 h1 h2 h3).ofBuf u = (u : (⟨S256x4096, .i1⟩ : BufTy).Contents (Elt F)) := rfl
theorem toBuf_main_v4 (h1 : main_v4.ty = ⟨S256x4096, .i1⟩) (h2 : main_v4.space ≠ .host) (h3 : main_v4.isScoped = false) (u : (⟨S256x4096, .i1⟩ : BufTy).Contents (Elt F)) :
    ((TRef.of (T := ⟨S256x4096, .i1⟩) main_v4 h1 h2 h3).toBuf u : (⟨S256x4096, .i1⟩ : BufTy).Contents (Elt F)) = u := rfl
theorem ofBuf_main_v50 (h1 : main_v50.ty = ⟨S256x4096, .i32⟩) (h2 : main_v50.space ≠ .host) (h3 : main_v50.isScoped = false) (u : (TRef.of (T := ⟨S256x4096, .i32⟩) main_v50 h1 h2 h3).ref.ty.Contents (Elt F)) :
    (TRef.of (T := ⟨S256x4096, .i32⟩) main_v50 h1 h2 h3).ofBuf u = (u : (⟨S256x4096, .i32⟩ : BufTy).Contents (Elt F)) := rfl
theorem toBuf_main_v50 (h1 : main_v50.ty = ⟨S256x4096, .i32⟩) (h2 : main_v50.space ≠ .host) (h3 : main_v50.isScoped = false) (u : (⟨S256x4096, .i32⟩ : BufTy).Contents (Elt F)) :
    ((TRef.of (T := ⟨S256x4096, .i32⟩) main_v50 h1 h2 h3).toBuf u : (⟨S256x4096, .i32⟩ : BufTy).Contents (Elt F)) = u := rfl
theorem ofBuf_main_v51 (h1 : main_v51.ty = ⟨S256x4096, .i32⟩) (h2 : main_v51.space ≠ .host) (h3 : main_v51.isScoped = false) (u : (TRef.of (T := ⟨S256x4096, .i32⟩) main_v51 h1 h2 h3).ref.ty.Contents (Elt F)) :
    (TRef.of (T := ⟨S256x4096, .i32⟩) main_v51 h1 h2 h3).ofBuf u = (u : (⟨S256x4096, .i32⟩ : BufTy).Contents (Elt F)) := rfl
theorem toBuf_main_v51 (h1 : main_v51.ty = ⟨S256x4096, .i32⟩) (h2 : main_v51.space ≠ .host) (h3 : main_v51.isScoped = false) (u : (⟨S256x4096, .i32⟩ : BufTy).Contents (Elt F)) :
    ((TRef.of (T := ⟨S256x4096, .i32⟩) main_v51 h1 h2 h3).toBuf u : (⟨S256x4096, .i32⟩ : BufTy).Contents (Elt F)) = u := rfl
theorem ofBuf_main_call5_c (h1 : main_call5_c.ty = ⟨S_, .i32⟩) (h2 : main_call5_c.space ≠ .host) (h3 : main_call5_c.isScoped = false) (u : (TRef.of (T := ⟨S_, .i32⟩) main_call5_c h1 h2 h3).ref.ty.Contents (Elt F)) :
    (TRef.of (T := ⟨S_, .i32⟩) main_call5_c h1 h2 h3).ofBuf u = (u : (⟨S_, .i32⟩ : BufTy).Contents (Elt F)) := rfl
theorem toBuf_main_call5_c (h1 : main_call5_c.ty = ⟨S_, .i32⟩) (h2 : main_call5_c.space ≠ .host) (h3 : main_call5_c.isScoped = false) (u : (⟨S_, .i32⟩ : BufTy).Contents (Elt F)) :
    ((TRef.of (T := ⟨S_, .i32⟩) main_call5_c h1 h2 h3).toBuf u : (⟨S_, .i32⟩ : BufTy).Contents (Elt F)) = u := rfl
theorem ofBuf_main_call5_v0 (h1 : main_call5_v0.ty = ⟨S_, .i32⟩) (h2 : main_call5_v0.space ≠ .host) (h3 : main_call5_v0.isScoped = false) (u : (TRef.of (T := ⟨S_, .i32⟩) main_call5_v0 h1 h2 h3).ref.ty.Contents (Elt F)) :
    (TRef.of (T := ⟨S_, .i32⟩) main_call5_v0 h1 h2 h3).ofBuf u = (u : (⟨S_, .i32⟩ : BufTy).Contents (Elt F)) := rfl
theorem toBuf_main_call5_v0 (h1 : main_call5_v0.ty = ⟨S_, .i32⟩) (h2 : main_call5_v0.space ≠ .host) (h3 : main_call5_v0.isScoped = false) (u : (⟨S_, .i32⟩ : BufTy).Contents (Elt F)) :
    ((TRef.of (T := ⟨S_, .i32⟩) main_call5_v0 h1 h2 h3).toBuf u : (⟨S_, .i32⟩ : BufTy).Contents (Elt F)) = u := rfl
theorem ofBuf_main_v52 (h1 : main_v52.ty = ⟨S256x4096, .i32⟩) (h2 : main_v52.space ≠ .host) (h3 : main_v52.isScoped = false) (u : (TRef.of (T := ⟨S256x4096, .i32⟩) main_v52 h1 h2 h3).ref.ty.Contents (Elt F)) :
    (TRef.of (T := ⟨S256x4096, .i32⟩) main_v52 h1 h2 h3).ofBuf u = (u : (⟨S256x4096, .i32⟩ : BufTy).Contents (Elt F)) := rfl
theorem toBuf_main_v52 (h1 : main_v52.ty = ⟨S256x4096, .i32⟩) (h2 : main_v52.space ≠ .host) (h3 : main_v52.isScoped = false) (u : (⟨S256x4096, .i32⟩ : BufTy).Contents (Elt F)) :
    ((TRef.of (T := ⟨S256x4096, .i32⟩) main_v52 h1 h2 h3).toBuf u : (⟨S256x4096, .i32⟩ : BufTy).Contents (Elt F)) = u := rfl
theorem ofBuf_main_v53 (h1 : main_v53.ty = ⟨S256x4096, .i32⟩) (h2 : main_v53.space ≠ .host) (h3 : main_v53.isScoped = false) (u : (TRef.of (T := ⟨S256x4096, .i32⟩) main_v53 h1 h2 h3).ref.ty.Contents (Elt F)) :
    (TRef.of (T := ⟨S256x4096, .i32⟩) main_v53 h1 h2 h3).ofBuf u = (u : (⟨S256x4096, .i32⟩ : BufTy).Contents (Elt F)) := rfl
theorem toBuf_main_v53 (h1 : main_v53.ty = ⟨S256x4096, .i32⟩) (h2 : main_v53.space ≠ .host) (h3 : main_v53.isScoped = false) (u : (⟨S256x4096, .i32⟩ : BufTy).Contents (Elt F)) :
    ((TRef.of (T := ⟨S256x4096, .i32⟩) main_v53 h1 h2 h3).toBuf u : (⟨S256x4096, .i32⟩ : BufTy).Contents (Elt F)) = u := rfl
theorem ofBuf_main_c_19 (h1 : main_c_19.ty = ⟨S_, .i32⟩) (h2 : main_c_19.space ≠ .host) (h3 : main_c_19.isScoped = false) (u : (TRef.of (T := ⟨S_, .i32⟩) main_c_19 h1 h2 h3).ref.ty.Contents (Elt F)) :
    (TRef.of (T := ⟨S_, .i32⟩) main_c_19 h1 h2 h3).ofBuf u = (u : (⟨S_, .i32⟩ : BufTy).Contents (Elt F)) := rfl
theorem toBuf_main_c_19 (h1 : main_c_19.ty = ⟨S_, .i32⟩) (h2 : main_c_19.space ≠ .host) (h3 : main_c_19.isScoped = false) (u : (⟨S_, .i32⟩ : BufTy).Contents (Elt F)) :
    ((TRef.of (T := ⟨S_, .i32⟩) main_c_19 h1 h2 h3).toBuf u : (⟨S_, .i32⟩ : BufTy).Contents (Elt F)) = u := rfl
theorem ofBuf_main_call7_v0 (h1 : main_call7_v0.ty = ⟨S_, .i32⟩) (h2 : main_call7_v0.space ≠ .host) (h3 : main_call7_v0.isScoped = false) (u : (TRef.of (T := ⟨S_, .i32⟩) main_call7_v0 h1 h2 h3).ref.ty.Contents (Elt F)) :
    (TRef.of (T := ⟨S_, .i32⟩) main_call7_v0 h1 h2 h3).ofBuf u = (u : (⟨S_, .i32⟩ : BufTy).Contents (Elt F)) := rfl
theorem toBuf_main_call7_v0 (h1 : main_call7_v0.ty = ⟨S_, .i32⟩) (h2 : main_call7_v0.space ≠ .host) (h3 : main_call7_v0.isScoped = false) (u : (⟨S_, .i32⟩ : BufTy).Contents (Elt F)) :
    ((TRef.of (T := ⟨S_, .i32⟩) main_call7_v0 h1 h2 h3).toBuf u : (⟨S_, .i32⟩ : BufTy).Contents (Elt F)) = u := rfl
theorem ofBuf_main_call7_v1 (h1 : main_call7_v1.ty = ⟨S256x4096, .i32⟩) (h2 : main_call7_v1.space ≠ .host) (h3 : main_call7_v1.isScoped = false) (u : (TRef.of (T := ⟨S256x4096, .i32⟩) main_call7_v1 h1 h2 h3).ref.ty.Contents (Elt F)) :
    (TRef.of (T := ⟨S256x4096, .i32⟩) main_call7_v1 h1 h2 h3).ofBuf u = (u : (⟨S256x4096, .i32⟩ : BufTy).Contents (Elt F)) := rfl
theorem toBuf_main_call7_v1 (h1 : main_call7_v1.ty = ⟨S256x4096, .i32⟩) (h2 : main_call7_v1.space ≠ .host) (h3 : main_call7_v1.isScoped = false) (u : (⟨S256x4096, .i32⟩ : BufTy).Contents (Elt F)) :
    ((TRef.of (T := ⟨S256x4096, .i32⟩) main_call7_v1 h1 h2 h3).toBuf u : (⟨S256x4096, .i32⟩ : BufTy).Contents (Elt F)) = u := rfl
theorem ofBuf_main_v56 (h1 : main_v56.ty = ⟨S256x4096, .i32⟩) (h2 : main_v56.space ≠ .host) (h3 : main_v56.isScoped = false) (u : (TRef.of (T := ⟨S256x4096, .i32⟩) main_v56 h1 h2 h3).ref.ty.Contents (Elt F)) :
    (TRef.of (T := ⟨S256x4096, .i32⟩) main_v56 h1 h2 h3).ofBuf u = (u : (⟨S256x4096, .i32⟩ : BufTy).Contents (Elt F)) := rfl
theorem toBuf_main_v56 (h1 : main_v56.ty = ⟨S256x4096, .i32⟩) (h2 : main_v56.space ≠ .host) (h3 : main_v56.isScoped = false) (u : (⟨S256x4096, .i32⟩ : BufTy).Contents (Elt F)) :
    ((TRef.of (T := ⟨S256x4096, .i32⟩) main_v56 h1 h2 h3).toBuf u : (⟨S256x4096, .i32⟩ : BufTy).Contents (Elt F)) = u := rfl
theorem ofBuf_main_call7_v2 (h1 : main_call7_v2.ty = ⟨S256x4096, .i32⟩) (h2 : main_call7_v2.space ≠ .host) (h3 : main_call7_v2.isScoped = false) (u : (TRef.of (T := ⟨S256x4096, .i32⟩) main_call7_v2 h1 h2 h3).ref.ty.Contents (Elt F)) :
    (TRef.of (T := ⟨S256x4096, .i32⟩) main_call7_v2 h1 h2 h3).ofBuf u = (u : (⟨S256x4096, .i32⟩ : BufTy).Contents (Elt F)) := rfl
theorem toBuf_main_call7_v2 (h1 : main_call7_v2.ty = ⟨S256x4096, .i32⟩) (h2 : main_call7_v2.space ≠ .host) (h3 : main_call7_v2.isScoped = false) (u : (⟨S256x4096, .i32⟩ : BufTy).Contents (Elt F)) :
    ((TRef.of (T := ⟨S256x4096, .i32⟩) main_call7_v2 h1 h2 h3).toBuf u : (⟨S256x4096, .i32⟩ : BufTy).Contents (Elt F)) = u := rfl
theorem ofBuf_main_c_20 (h1 : main_c_20.ty = ⟨S_, .i32⟩) (h2 : main_c_20.space ≠ .host) (h3 : main_c_20.isScoped = false) (u : (TRef.of (T := ⟨S_, .i32⟩) main_c_20 h1 h2 h3).ref.ty.Contents (Elt F)) :
    (TRef.of (T := ⟨S_, .i32⟩) main_c_20 h1 h2 h3).ofBuf u = (u : (⟨S_, .i32⟩ : BufTy).Contents (Elt F)) := rfl
theorem toBuf_main_c_20 (h1 : main_c_20.ty = ⟨S_, .i32⟩) (h2 : main_c_20.space ≠ .host) (h3 : main_c_20.isScoped = false) (u : (⟨S_, .i32⟩ : BufTy).Contents (Elt F)) :
    ((TRef.of (T := ⟨S_, .i32⟩) main_c_20 h1 h2 h3).toBuf u : (⟨S_, .i32⟩ : BufTy).Contents (Elt F)) = u := rfl
theorem ofBuf_main_call7_v3 (h1 : main_call7_v3.ty = ⟨S_, .i32⟩) (h2 : main_call7_v3.space ≠ .host) (h3 : main_call7_v3.isScoped = false) (u : (TRef.of (T := ⟨S_, .i32⟩) main_call7_v3 h1 h2 h3).ref.ty.Contents (Elt F)) :
    (TRef.of (T := ⟨S_, .i32⟩) main_call7_v3 h1 h2 h3).ofBuf u = (u : (⟨S_, .i32⟩ : BufTy).Contents (Elt F)) := rfl
theorem toBuf_main_call7_v3 (h1 : main_call7_v3.ty = ⟨S_, .i32⟩) (h2 : main_call7_v3.space ≠ .host) (h3 : main_call7_v3.isScoped = false) (u : (⟨S_, .i32⟩ : BufTy).Contents (Elt F)) :
    ((TRef.of (T := ⟨S_, .i32⟩) main_call7_v3 h1 h2 h3).toBuf u : (⟨S_, .i32⟩ : BufTy).Contents (Elt F)) = u := rfl
theorem ofBuf_main_call7_v4 (h1 : main_call7_v4.ty = ⟨S256x4096, .i32⟩) (h2 : main_call7_v4.space ≠ .host) (h3 : main_call7_v4.isScoped = false) (u : (TRef.of (T := ⟨S256x4096, .i32⟩) main_call7_v4 h1 h2 h3).ref.ty.Contents (Elt F)) :
    (TRef.of (T := ⟨S256x4096, .i32⟩) main_call7_v4 h1 h2 h3).ofBuf u = (u : (⟨S256x4096, .i32⟩ : BufTy).Contents (Elt F)) := rfl
theorem toBuf_main_call7_v4 (h1 : main_call7_v4.ty = ⟨S256x4096, .i32⟩) (h2 : main_call7_v4.space ≠ .host) (h3 : main_call7_v4.isScoped = false) (u : (⟨S256x4096, .i32⟩ : BufTy).Contents (Elt F)) :
    ((TRef.of (T := ⟨S256x4096, .i32⟩) main_call7_v4 h1 h2 h3).toBuf u : (⟨S256x4096, .i32⟩ : BufTy).Contents (Elt F)) = u := rfl
theorem ofBuf_main_v60 (h1 : main_v60.ty = ⟨S256x4096, .i32⟩) (h2 : main_v60.space ≠ .host) (h3 : main_v60.isScoped = false) (u : (TRef.of (T := ⟨S256x4096, .i32⟩) main_v60 h1 h2 h3).ref.ty.Contents (Elt F)) :
    (TRef.of (T := ⟨S256x4096, .i32⟩) main_v60 h1 h2 h3).ofBuf u = (u : (⟨S256x4096, .i32⟩ : BufTy).Contents (Elt F)) := rfl
theorem toBuf_main_v60 (h1 : main_v60.ty = ⟨S256x4096, .i32⟩) (h2 : main_v60.space ≠ .host) (h3 : main_v60.isScoped = false) (u : (⟨S256x4096, .i32⟩ : BufTy).Contents (Elt F)) :
    ((TRef.of (T := ⟨S256x4096, .i32⟩) main_v60 h1 h2 h3).toBuf u : (⟨S256x4096, .i32⟩ : BufTy).Contents (Elt F)) = u := rfl
theorem ofBuf_main_call8_c (h1 : main_call8_c.ty = ⟨S_, .i32⟩) (h2 : main_call8_c.space ≠ .host) (h3 : main_call8_c.isScoped = false) (u : (TRef.of (T := ⟨S_, .i32⟩) main_call8_c h1 h2 h3).ref.ty.Contents (Elt F)) :
    (TRef.of (T := ⟨S_, .i32⟩) main_call8_c h1 h2 h3).ofBuf u = (u : (⟨S_, .i32⟩ : BufTy).Contents (Elt F)) := rfl
theorem toBuf_main_call8_c (h1 : main_call8_c.ty = ⟨S_, .i32⟩) (h2 : main_call8_c.space ≠ .host) (h3 : main_call8_c.isScoped = false) (u : (⟨S_, .i32⟩ : BufTy).Contents (Elt F)) :
    ((TRef.of (T := ⟨S_, .i32⟩) main_call8_c h1 h2 h3).toBuf u : (⟨S_, .i32⟩ : BufTy).Contents (Elt F)) = u := rfl
theorem ofBuf_main_call8_v0 (h1 : main_call8_v0.ty = ⟨S256x4096x1, .i32⟩) (h2 : main_call8_v0.space ≠ .host) (h3 : main_call8_v0.isScoped = false) (u : (TRef.of (T := ⟨S256x4096x1, .i32⟩) main_call8_v0 h1 h2 h3).ref.ty.Contents (Elt F)) :
    (TRef.of (T := ⟨S256x4096x1, .i32⟩) main_call8_v0 h1 h2 h3).ofBuf u = (u : (⟨S256x4096x1, .i32⟩ : BufTy).Contents (Elt F)) := rfl
theorem toBuf_main_call8_v0 (h1 : main_call8_v0.ty = ⟨S256x4096x1, .i32⟩) (h2 : main_call8_v0.space ≠ .host) (h3 : main_call8_v0.isScoped = false) (u : (⟨S256x4096x1, .i32⟩ : BufTy).Contents (Elt F)) :
    ((TRef.of (T := ⟨S256x4096x1, .i32⟩) main_call8_v0 h1 h2 h3).toBuf u : (⟨S256x4096x1, .i32⟩ : BufTy).Contents (Elt F)) = u := rfl
theorem ofBuf_main_v61 (h1 : main_v61.ty = ⟨S256x4096x1, .i32⟩) (h2 : main_v61.space ≠ .host) (h3 : main_v61.isScoped = false) (u : (TRef.of (T := ⟨S256x4096x1, .i32⟩) main_v61 h1 h2 h3).ref.ty.Contents (Elt F)) :
    (TRef.of (T := ⟨S256x4096x1, .i32⟩) main_v61 h1 h2 h3).ofBuf u = (u : (⟨S256x4096x1, .i32⟩ : BufTy).Contents (Elt F)) := rfl
theorem toBuf_main_v61 (h1 : main_v61.ty = ⟨S256x4096x1, .i32⟩) (h2 : main_v61.space ≠ .host) (h3 : main_v61.isScoped = false) (u : (⟨S256x4096x1, .i32⟩ : BufTy).Contents (Elt F)) :
    ((TRef.of (T := ⟨S256x4096x1, .i32⟩) main_v61 h1 h2 h3).toBuf u : (⟨S256x4096x1, .i32⟩ : BufTy).Contents (Elt F)) = u := rfl
theorem ofBuf_main_call8_v1 (h1 : main_call8_v1.ty = ⟨S256x4096x1, .i1⟩) (h2 : main_call8_v1.space ≠ .host) (h3 : main_call8_v1.isScoped = false) (u : (TRef.of (T := ⟨S256x4096x1, .i1⟩) main_call8_v1 h1 h2 h3).ref.ty.Contents (Elt F)) :
    (TRef.of (T := ⟨S256x4096x1, .i1⟩) main_call8_v1 h1 h2 h3).ofBuf u = (u : (⟨S256x4096x1, .i1⟩ : BufTy).Contents (Elt F)) := rfl
theorem toBuf_main_call8_v1 (h1 : main_call8_v1.ty = ⟨S256x4096x1, .i1⟩) (h2 : main_call8_v1.space ≠ .host) (h3 : main_call8_v1.isScoped = false) (u : (⟨S256x4096x1, .i1⟩ : BufTy).Contents (Elt F)) :
    ((TRef.of (T := ⟨S256x4096x1, .i1⟩) main_call8_v1 h1 h2 h3).toBuf u : (⟨S256x4096x1, .i1⟩ : BufTy).Contents (Elt F)) = u := rfl
theorem ofBuf_main_call8_c_0 (h1 : main_call8_c_0.ty = ⟨S_, .i32⟩) (h2 : main_call8_c_0.space ≠ .host) (h3 : main_call8_c_0.isScoped = false) (u : (TRef.of (T := ⟨S_, .i32⟩) main_call8_c_0 h1 h2 h3).ref.ty.Contents (Elt F)) :
    (TRef.of (T := ⟨S_, .i32⟩) main_call8_c_0 h1 h2 h3).ofBuf u = (u : (⟨S_, .i32⟩ : BufTy).Contents (Elt F)) := rfl
theorem toBuf_main_call8_c_0 (h1 : main_call8_c_0.ty = ⟨S_, .i32⟩) (h2 : main_call8_c_0.space ≠ .host) (h3 : main_call8_c_0.isScoped = false) (u : (⟨S_, .i32⟩ : BufTy).Contents (Elt F)) :
    ((TRef.of (T := ⟨S_, .i32⟩) main_call8_c_0 h1 h2 h3).toBuf u : (⟨S_, .i32⟩ : BufTy).Contents (Elt F)) = u := rfl
theorem ofBuf_main_call8_v2 (h1 : main_call8_v2.ty = ⟨S256x4096x1, .i32⟩) (h2 : main_call8_v2.space ≠ .host) (h3 : main_call8_v2.isScoped = false) (u : (TRef.of (T := ⟨S256x4096x1, .i32⟩) main_call8_v2 h1 h2 h3).ref.ty.Contents (Elt F)) :
    (TRef.of (T := ⟨S256x4096x1, .i32⟩) main_call8_v2 h1 h2 h3).ofBuf u = (u : (⟨S256x4096x1, .i32⟩ : BufTy).Contents (Elt F)) := rfl
theorem toBuf_main_call8_v2 (h1 : main_call8_v2.ty = ⟨S256x4096x1, .i32⟩) (h2 : main_call8_v2.space ≠ .host) (h3 : main_call8_v2.isScoped = false) (u : (⟨S256x4096x1, .i32⟩ : BufTy).Contents (Elt F)) :
    ((TRef.of (T := ⟨S256x4096x1, .i32⟩) main_call8_v2 h1 h2 h3).toBuf u : (⟨S256x4096x1, .i32⟩ : BufTy).Contents (Elt F)) = u := rfl
theorem ofBuf_main_call8_v3 (h1 : main_call8_v3.ty = ⟨S256x4096x1, .i32⟩) (h2 : main_call8_v3.space ≠ .host) (h3 : main_call8_v3.isScoped = false) (u : (TRef.of (T := ⟨S256x4096x1, .i32⟩) main_call8_v3 h1 h2 h3).ref.ty.Contents (Elt F)) :
    (TRef.of (T := ⟨S256x4096x1, .i32⟩) main_call8_v3 h1 h2 h3).ofBuf u = (u : (⟨S256x4096x1, .i32⟩ : BufTy).Contents (Elt F)) := rfl
theorem toBuf_main_call8_v3 (h1 : main_call8_v3.ty = ⟨S256x4096x1, .i32⟩) (h2 : main_call8_v3.space ≠ .host) (h3 : main_call8_v3.isScoped = false) (u : (⟨S256x4096x1, .i32⟩ : BufTy).Contents (Elt F)) :
    ((TRef.of (T := ⟨S256x4096x1, .i32⟩) main_call8_v3 h1 h2 h3).toBuf u : (⟨S256x4096x1, .i32⟩ : BufTy).Contents (Elt F)) = u := rfl
theorem ofBuf_main_call8_v4 (h1 : main_call8_v4.ty = ⟨S256x4096x1, .i32⟩) (h2 : main_call8_v4.space ≠ .host) (h3 : main_call8_v4.isScoped = false) (u : (TRef.of (T := ⟨S256x4096x1, .i32⟩) main_call8_v4 h1 h2 h3).ref.ty.Contents (Elt F)) :
    (TRef.of (T := ⟨S256x4096x1, .i32⟩) main_call8_v4 h1 h2 h3).ofBuf u = (u : (⟨S256x4096x1, .i32⟩ : BufTy).Contents (Elt F)) := rfl
theorem toBuf_main_call8_v4 (h1 : main_call8_v4.ty = ⟨S256x4096x1, .i32⟩) (h2 : main_call8_v4.space ≠ .host) (h3 : main_call8_v4.isScoped = false) (u : (⟨S256x4096x1, .i32⟩ : BufTy).Contents (Elt F)) :
    ((TRef.of (T := ⟨S256x4096x1, .i32⟩) main_call8_v4 h1 h2 h3).toBuf u : (⟨S256x4096x1, .i32⟩ : BufTy).Contents (Elt F)) = u := rfl
theorem ofBuf_main_call8_c_1 (h1 : main_call8_c_1.ty = ⟨S1, .i32⟩) (h2 : main_call8_c_1.space ≠ .host) (h3 : main_call8_c_1.isScoped = false) (u : (TRef.of (T := ⟨S1, .i32⟩) main_call8_c_1 h1 h2 h3).ref.ty.Contents (Elt F)) :
    (TRef.of (T := ⟨S1, .i32⟩) main_call8_c_1 h1 h2 h3).ofBuf u = (u : (⟨S1, .i32⟩ : BufTy).Contents (Elt F)) := rfl
theorem toBuf_main_call8_c_1 (h1 : main_call8_c_1.ty = ⟨S1, .i32⟩) (h2 : main_call8_c_1.space ≠ .host) (h3 : main_call8_c_1.isScoped = false) (u : (⟨S1, .i32⟩ : BufTy).Contents (Elt F)) :
    ((TRef.of (T := ⟨S1, .i32⟩) main_call8_c_1 h1 h2 h3).toBuf u : (⟨S1, .i32⟩ : BufTy).Contents (Elt F)) = u := rfl
theorem ofBuf_main_call8_c_2 (h1 : main_call8_c_2.ty = ⟨S_, .i32⟩) (h2 : main_call8_c_2.space ≠ .host) (h3 : main_call8_c_2.isScoped = false) (u : (TRef.of (T := ⟨S_, .i32⟩) main_call8_c_2 h1 h2 h3).ref.ty.Contents (Elt F)) :
    (TRef.of (T := ⟨S_, .i32⟩) main_call8_c_2 h1 h2 h3).ofBuf u = (u : (⟨S_, .i32⟩ : BufTy).Contents (Elt F)) := rfl
theorem toBuf_main_call8_c_2 (h1 : main_call8_c_2.ty = ⟨S_, .i32⟩) (h2 : main_call8_c_2.space ≠ .host) (h3 : main_call8_c_2.isScoped = false) (u : (⟨S_, .i32⟩ : BufTy).Contents (Elt F)) :
    ((TRef.of (T := ⟨S_, .i32⟩) main_call8_c_2 h1 h2 h3).toBuf u : (⟨S_, .i32⟩ : BufTy).Contents (Elt F)) = u := rfl
theorem ofBuf_main_call8_v5 (h1 : main_call8_v5.ty = ⟨S256x4096x1, .i32⟩) (h2 : main_call8_v5.space ≠ .host) (h3 : main_call8_v5.isScoped = false) (u : (TRef.of (T := ⟨S256x4096x1, .i32⟩) main_call8_v5 h1 h2 h3).ref.ty.Contents (Elt F)) :
    (TRef.of (T := ⟨S256x4096x1, .i32⟩) main_call8_v5 h1 h2 h3).ofBuf u = (u : (⟨S256x4096x1, .i32⟩ : BufTy).Contents (Elt F)) := rfl
theorem toBuf_main_call8_v5 (h1 : main_call8_v5.ty = ⟨S256x4096x1, .i32⟩) (h2 : main_call8_v5.space ≠ .host) (h3 : main_call8_v5.isScoped = false) (u : (⟨S256x4096x1, .i32⟩ : BufTy).Contents (Elt F)) :
    ((TRef.of (T := ⟨S256x4096x1, .i32⟩) main_call8_v5 h1 h2 h3).toBuf u : (⟨S256x4096x1, .i32⟩ : BufTy).Contents (Elt F)) = u := rfl
theorem ofBuf_main_call8_v6 (h1 : main_call8_v6.ty = ⟨S256x4096x1, .i1⟩) (h2 : main_call8_v6.space ≠ .host) (h3 : main_call8_v6.isScoped = false) (u : (TRef.of (T := ⟨S256x4096x1, .i1⟩) main_call8_v6 h1 h2 h3).ref.ty.Contents (Elt F)) :
    (TRef.of (T := ⟨S256x4096x1, .i1⟩) main_call8_v6 h1 h2 h3).ofBuf u = (u : (⟨S256x4096x1, .i1⟩ : BufTy).Contents (Elt F)) := rfl
theorem toBuf_main_call8_v6 (h1 : main_call8_v6.ty = ⟨S256x4096x1, .i1⟩) (h2 : main_call8_v6.space ≠ .host) (h3 : main_call8_v6.isScoped = false) (u : (⟨S256x4096x1, .i1⟩ : BufTy).Contents (Elt F)) :
    ((TRef.of (T := ⟨S256x4096x1, .i1⟩) main_call8_v6 h1 h2 h3).toBuf u : (⟨S256x4096x1, .i1⟩ : BufTy).Contents (Elt F)) = u := rfl
theorem ofBuf_main_call8_v7 (h1 : main_call8_v7.ty = ⟨S1x1x1, .i32⟩) (h2 : main_call8_v7.space ≠ .host) (h3 : main_call8_v7.isScoped = false) (u : (TRef.of (T := ⟨S1x1x1, .i32⟩) main_call8_v7 h1 h2 h3).ref.ty.Contents (Elt F)) :
    (TRef.of (T := ⟨S1x1x1, .i32⟩) main_call8_v7 h1 h2 h3).ofBuf u = (u : (⟨S1x1x1, .i32⟩ : BufTy).Contents (Elt F)) := rfl
theorem toBuf_main_call8_v7 (h1 : main_call8_v7.ty = ⟨S1x1x1, .i32⟩) (h2 : main_call8_v7.space ≠ .host) (h3 : main_call8_v7.isScoped = false) (u : (⟨S1x1x1, .i32⟩ : BufTy).Contents (Elt F)) :
    ((TRef.of (T := ⟨S1x1x1, .i32⟩) main_call8_v7 h1 h2 h3).toBuf u : (⟨S1x1x1, .i32⟩ : BufTy).Contents (Elt F)) = u := rfl
theorem ofBuf_main_call8_v8 (h1 : main_call8_v8.ty = ⟨S256x4096x1, .i32⟩) (h2 : main_call8_v8.space ≠ .host) (h3 : main_call8_v8.isScoped = false) (u : (TRef.of (T := ⟨S256x4096x1, .i32⟩) main_call8_v8 h1 h2 h3).ref.ty.Contents (Elt F)) :
    (TRef.of (T := ⟨S256x4096x1, .i32⟩) main_call8_v8 h1 h2 h3).ofBuf u = (u : (⟨S256x4096x1, .i32⟩ : BufTy).Contents (Elt F)) := rfl
theorem toBuf_main_call8_v8 (h1 : main_call8_v8.ty = ⟨S256x4096x1, .i32⟩) (h2 : main_call8_v8.space ≠ .host) (h3 : main_call8_v8.isScoped = false) (u : (⟨S256x4096x1, .i32⟩ : BufTy).Contents (Elt F)) :
    ((TRef.of (T := ⟨S256x4096x1, .i32⟩) main_call8_v8 h1 h2 h3).toBuf u : (⟨S256x4096x1, .i32⟩ : BufTy).Contents (Elt F)) = u := rfl
theorem ofBuf_main_call8_v9 (h1 : main_call8_v9.ty = ⟨S256x4096x1, .i1⟩) (h2 : main_call8_v9.space ≠ .host) (h3 : main_call8_v9.isScoped = false) (u : (TRef.of (T := ⟨S256x4096x1, .i1⟩) main_call8_v9 h1 h2 h3).ref.ty.Contents (Elt F)) :
    (TRef.of (T := ⟨S256x4096x1, .i1⟩) main_call8_v9 h1 h2 h3).ofBuf u = (u : (⟨S256x4096x1, .i1⟩ : BufTy).Contents (Elt F)) := rfl
theorem toBuf_main_call8_v9 (h1 : main_call8_v9.ty = ⟨S256x4096x1, .i1⟩) (h2 : main_call8_v9.space ≠ .host) (h3 : main_call8_v9.isScoped = false) (u : (⟨S256x4096x1, .i1⟩ : BufTy).Contents (Elt F)) :
    ((TRef.of (T := ⟨S256x4096x1, .i1⟩) main_call8_v9 h1 h2 h3).toBuf u : (⟨S256x4096x1, .i1⟩ : BufTy).Contents (Elt F)) = u := rfl
theorem ofBuf_main_call8_v10 (h1 : main_call8_v10.ty = ⟨S256x4096x1, .i1⟩) (h2 : main_call8_v10.space ≠ .host) (h3 : main_call8_v10.isScoped = false) (u : (TRef.of (T := ⟨S256x4096x1, .i1⟩) main_call8_v10 h1 h2 h3).ref.ty.Contents (Elt F)) :
    (TRef.of (T := ⟨S256x4096x1, .i1⟩) main_call8_v10 h1 h2 h3).ofBuf u = (u : (⟨S256x4096x1, .i1⟩ : BufTy).Contents (Elt F)) := rfl
theorem toBuf_main_call8_v10 (h1 : main_call8_v10.ty = ⟨S256x4096x1, .i1⟩) (h2 : main_call8_v10.space ≠ .host) (h3 : main_call8_v10.isScoped = false) (u : (⟨S256x4096x1, .i1⟩ : BufTy).Contents (Elt F)) :
    ((TRef.of (T := ⟨S256x4096x1, .i1⟩) main_call8_v10 h1 h2 h3).toBuf u : (⟨S256x4096x1, .i1⟩ : BufTy).Contents (Elt F)) = u := rfl
theorem ofBuf_main_call8_c_3 (h1 : main_call8_c_3.ty = ⟨S_, .i1⟩) (h2 : main_call8_c_3.space ≠ .host) (h3 : main_call8_c_3.isScoped = false) (u : (TRef.of (T := ⟨S_, .i1⟩) main_call8_c_3 h1 h2 h3).ref.ty.Contents (Elt F)) :
    (TRef.of (T := ⟨S_, .i1⟩) main_call8_c_3 h1 h2 h3).ofBuf u = (u : (⟨S_, .i1⟩ : BufTy).Contents (Elt F)) := rfl
theorem toBuf_main_call8_c_3 (h1 : main_call8_c_3.ty = ⟨S_, .i1⟩) (h2 : main_call8_c_3.space ≠ .host) (h3 : main_call8_c_3.isScoped = false) (u : (⟨S_, .i1⟩ : BufTy).Contents (Elt F)) :
    ((TRef.of (T := ⟨S_, .i1⟩) main_call8_c_3 h1 h2 h3).toBuf u : (⟨S_, .i1⟩ : BufTy).Contents (Elt F)) = u := rfl
theorem ofBuf_main_call8_v11 (h1 : main_call8_v11.ty = ⟨S256x4096, .i1⟩) (h2 : main_call8_v11.space ≠ .host) (h3 : main_call8_v11.isScoped = false) (u : (TRef.of (T := ⟨S256x4096, .i1⟩) main_call8_v11 h1 h2 h3).ref.ty.Contents (Elt F)) :
    (TRef.of (T := ⟨S256x4096, .i1⟩) main_call8_v11 h1 h2 h3).ofBuf u = (u : (⟨S256x4096, .i1⟩ : BufTy).Contents (Elt F)) := rfl
theorem toBuf_main_call8_v11 (h1 : main_call8_v11.ty = ⟨S256x4096, .i1⟩) (h2 : main_call8_v11.space ≠ .host) (h3 : main_call8_v11.isScoped = false) (u : (⟨S256x4096, .i1⟩ : BufTy).Contents (Elt F)) :
    ((TRef.of (T := ⟨S256x4096, .i1⟩) main_call8_v11 h1 h2 h3).toBuf u : (⟨S256x4096, .i1⟩ : BufTy).Contents (Elt F)) = u := rfl
theorem ofBuf_main_v47 (h1 : main_v47.ty = ⟨S256x4096x2, .f32⟩) (h2 : main_v47.space ≠ .host) (h3 : main_v47.isScoped = false) (u : (TRef.of (T := ⟨S256x4096x2, .f32⟩) main_v47 h1 h2 h3).ref.ty.Contents (Elt F)) :
    (TRef.of (T := ⟨S256x4096x2, .f32⟩) main_v47 h1 h2 h3).ofBuf u = (u : (⟨S256x4096x2, .f32⟩ : BufTy).Contents (Elt F)) := rfl
theorem toBuf_main_v47 (h1 : main_v47.ty = ⟨S256x4096x2, .f32⟩) (h2 : main_v47.space ≠ .host) (h3 : main_v47.isScoped = false) (u : (⟨S256x4096x2, .f32⟩ : BufTy).Contents (Elt F)) :
    ((TRef.of (T := ⟨S256x4096x2, .f32⟩) main_v47 h1 h2 h3).toBuf u : (⟨S256x4096x2, .f32⟩ : BufTy).Contents (Elt F)) = u := rfl
theorem ofBuf_main_call8_v12 (h1 : main_call8_v12.ty = ⟨S256x4096x2, .f32⟩) (h2 : main_call8_v12.space ≠ .host) (h3 : main_call8_v12.isScoped = false) (u : (TRef.of (T := ⟨S256x4096x2, .f32⟩) main_call8_v12 h1 h2 h3).ref.ty.Contents (Elt F)) :
    (TRef.of (T := ⟨S256x4096x2, .f32⟩) main_call8_v12 h1 h2 h3).ofBuf u = (u : (⟨S256x4096x2, .f32⟩ : BufTy).Contents (Elt F)) := rfl
theorem toBuf_main_call8_v12 (h1 : main_call8_v12.ty = ⟨S256x4096x2, .f32⟩) (h2 : main_call8_v12.space ≠ .host) (h3 : main_call8_v12.isScoped = false) (u : (⟨S256x4096x2, .f32⟩ : BufTy).Contents (Elt F)) :
    ((TRef.of (T := ⟨S256x4096x2, .f32⟩) main_call8_v12 h1 h2 h3).toBuf u : (⟨S256x4096x2, .f32⟩ : BufTy).Contents (Elt F)) = u := rfl
theorem ofBuf_main_call8_v13 (h1 : main_call8_v13.ty = ⟨S256x4096x2, .i1⟩) (h2 : main_call8_v13.space ≠ .host) (h3 : main_call8_v13.isScoped = false) (u : (TRef.of (T := ⟨S256x4096x2, .i1⟩) main_call8_v13 h1 h2 h3).ref.ty.Contents (Elt F)) :
    (TRef.of (T := ⟨S256x4096x2, .i1⟩) main_call8_v13 h1 h2 h3).ofBuf u = (u : (⟨S256x4096x2, .i1⟩ : BufTy).Contents (Elt F)) := rfl
theorem toBuf_main_call8_v13 (h1 : main_call8_v13.ty = ⟨S256x4096x2, .i1⟩) (h2 : main_call8_v13.space ≠ .host) (h3 : main_call8_v13.isScoped = false) (u : (⟨S256x4096x2, .i1⟩ : BufTy).Contents (Elt F)) :
    ((TRef.of (T := ⟨S256x4096x2, .i1⟩) main_call8_v13 h1 h2 h3).toBuf u : (⟨S256x4096x2, .i1⟩ : BufTy).Contents (Elt F)) = u := rfl
theorem ofBuf_main_call8_cst (h1 : main_call8_cst.ty = ⟨S_, .f32⟩) (h2 : main_call8_cst.space ≠ .host) (h3 : main_call8_cst.isScoped = false) (u : (TRef.of (T := ⟨S_, .f32⟩) main_call8_cst h1 h2 h3).ref.ty.Contents (Elt F)) :
    (TRef.of (T := ⟨S_, .f32⟩) main_call8_cst h1 h2 h3).ofBuf u = (u : (⟨S_, .f32⟩ : BufTy).Contents (Elt F)) := rfl
theorem toBuf_main_call8_cst (h1 : main_call8_cst.ty = ⟨S_, .f32⟩) (h2 : main_call8_cst.space ≠ .host) (h3 : main_call8_cst.isScoped = false) (u : (⟨S_, .f32⟩ : BufTy).Contents (Elt F)) :
    ((TRef.of (T := ⟨S_, .f32⟩) main_call8_cst h1 h2 h3).toBuf u : (⟨S_, .f32⟩ : BufTy).Contents (Elt F)) = u := rfl
theorem ofBuf_main_call8_v14 (h1 : main_call8_v14.ty = ⟨S256x4096x2, .f32⟩) (h2 : main_call8_v14.space ≠ .host) (h3 : main_call8_v14.isScoped = false) (u : (TRef.of (T := ⟨S256x4096x2, .f32⟩) main_call8_v14 h1 h2 h3).ref.ty.Contents (Elt F)) :
    (TRef.of (T := ⟨S256x4096x2, .f32⟩) main_call8_v14 h1 h2 h3).ofBuf u = (u : (⟨S256x4096x2, .f32⟩ : BufTy).Contents (Elt F)) := rfl
theorem toBuf_main_call8_v14 (h1 : main_call8_v14.ty = ⟨S256x4096x2, .f32⟩) (h2 : main_call8_v14.space ≠ .host) (h3 : main_call8_v14.isScoped = false) (u : (⟨S256x4096x2, .f32⟩ : BufTy).Contents (Elt F)) :
    ((TRef.of (T := ⟨S256x4096x2, .f32⟩) main_call8_v14 h1 h2 h3).toBuf u : (⟨S256x4096x2, .f32⟩ : BufTy).Contents (Elt F)) = u := rfl
theorem ofBuf_main_v62 (h1 : main_v62.ty = ⟨S256x4096x2, .f32⟩) (h2 : main_v62.space ≠ .host) (h3 : main_v62.isScoped = false) (u : (TRef.of (T := ⟨S256x4096x2, .f32⟩) main_v62 h1 h2 h3).ref.ty.Contents (Elt F)) :
    (TRef.of (T := ⟨S256x4096x2, .f32⟩) main_v62 h1 h2 h3).ofBuf u = (u : (⟨S256x4096x2, .f32⟩ : BufTy).Contents (Elt F)) := rfl
theorem toBuf_main_v62 (h1 : main_v62.ty = ⟨S256x4096x2, .f32⟩) (h2 : main_v62.space ≠ .host) (h3 : main_v62.isScoped = false) (u : (⟨S256x4096x2, .f32⟩ : BufTy).Contents (Elt F)) :
    ((TRef.of (T := ⟨S256x4096x2, .f32⟩) main_v62 h1 h2 h3).toBuf u : (⟨S256x4096x2, .f32⟩ : BufTy).Contents (Elt F)) = u := rfl

/-! ## One window from any contents

`V` is any buffer contents and `x0 … x3` any four arrays. If the buffers a window reads hold in `V` their stage values of
`x0 … x3` (an argument buffer: the array itself), then after the window a buffer it writes holds its own stage value. -/

section OneWindow

set_option maxRecDepth 8192 in
set_option maxHeartbeats 1000000 in
/-- Window 1's operations compose to the stage value of `main_v0`. -/
theorem s1_main_v0 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_arg1) = x1) :
    after s1 V (Proc.devRef .tc main_v0) = val_main_v0 (F := F) x1 := by
  simp only [s1]
  after_results_simp
  simp only [h0]
  rfl
set_option maxRecDepth 8192 in
set_option maxHeartbeats 1000000 in
/-- Window 1's operations compose to the stage value of `main_v1`. -/
theorem s1_main_v1 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_arg1) = x1) :
    after s1 V (Proc.devRef .tc main_v1) = val_main_v1 (F := F) x1 := by
  simp only [s1]
  after_results_simp
  simp only [h0]
  rfl
set_option maxRecDepth 8192 in
set_option maxHeartbeats 1000000 in
/-- Window 1's operations compose to the stage value of `main_v4`. -/
theorem s1_main_v4 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_arg1) = x1) :
    after s1 V (Proc.devRef .tc main_v4) = val_main_v4 (F := F) x1 := by
  simp only [s1]
  after_results_simp
  simp only [h0]
  rfl
set_option maxRecDepth 8192 in
set_option maxHeartbeats 1000000 in
/-- Window 1's operations compose to the stage value of `main_v5`. -/
theorem s1_main_v5 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_arg1) = x1) :
    after s1 V (Proc.devRef .tc main_v5) = val_main_v5 (F := F) x1 := by
  simp only [s1]
  after_results_simp
  simp only [h0]
  rfl
set_option maxRecDepth 8192 in
set_option maxHeartbeats 1000000 in
/-- Window 1's operations compose to the stage value of `main_v6`. -/
theorem s1_main_v6 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_arg1) = x1) :
    after s1 V (Proc.devRef .tc main_v6) = val_main_v6 (F := F) x1 := by
  simp only [s1]
  after_results_simp
  simp only [h0]
  rfl
set_option maxRecDepth 8192 in
set_option maxHeartbeats 1000000 in
/-- Window 2's operations compose to the stage value of `main_v19`. -/
theorem s2_main_v19 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v6) = val_main_v6 (F := F) x1) (h1 : V (Proc.devRef .tc main_v5) = val_main_v5 (F := F) x1) (h2 : V (Proc.devRef .tc main_v0) = val_main_v0 (F := F) x1) (h3 : V (Proc.devRef .tc main_arg0) = x0) :
    after s2 V (Proc.devRef .tc main_v19) = val_main_v19 (F := F) x0 x1 := by
  simp only [s2]
  after_results_simp
  simp only [ofBuf_main_cst_5, toBuf_main_cst_5, ofBuf_main_call0_v0, toBuf_main_call0_v0, ofBuf_main_v15, toBuf_main_v15, ofBuf_main_v18, toBuf_main_v18, ofBuf_main_v19, toBuf_main_v19]
  simp only [h0, h1, h2, h3]
  rfl
set_option maxRecDepth 8192 in
set_option maxHeartbeats 1000000 in
/-- Window 3's operations compose to the stage value of `main_v32`. -/
theorem s3_main_v32 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v6) = val_main_v6 (F := F) x1) (h1 : V (Proc.devRef .tc main_v5) = val_main_v5 (F := F) x1) (h2 : V (Proc.devRef .tc main_v0) = val_main_v0 (F := F) x1) (h3 : V (Proc.devRef .tc main_arg0) = x0) :
    after s3 V (Proc.devRef .tc main_v32) = val_main_v32 (F := F) x0 x1 := by
  simp only [s3]
  after_results_simp
  simp only [ofBuf_main_cst_10, toBuf_main_cst_10, ofBuf_main_call1_v0, toBuf_main_call1_v0, ofBuf_main_v28, toBuf_main_v28, ofBuf_main_v31, toBuf_main_v31, ofBuf_main_v32, toBuf_main_v32]
  simp only [h0, h1, h2, h3]
  rfl
set_option maxRecDepth 8192 in
set_option maxHeartbeats 1000000 in
/-- Window 4's operations compose to the stage value of `main_v46`. -/
theorem s4_main_v46 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_arg0) = x0) (h1 : V (Proc.devRef .tc main_v1) = val_main_v1 (F := F) x1) :
    after s4 V (Proc.devRef .tc main_v46) = val_main_v46 (F := F) x0 x1 := by
  simp only [s4]
  after_results_simp
  simp only [ofBuf_main_cst_11, toBuf_main_cst_11, ofBuf_main_call2_v0, toBuf_main_call2_v0, ofBuf_main_call2_v1, toBuf_main_call2_v1, ofBuf_main_v33, toBuf_main_v33, ofBuf_main_call2_v2, toBuf_main_call2_v2, ofBuf_main_cst_12, toBuf_main_cst_12, ofBuf_main_call2_v3, toBuf_main_call2_v3, ofBuf_main_call2_v4, toBuf_main_call2_v4, ofBuf_main_v34, toBuf_main_v34]
  simp only [h0, h1]
  rfl
set_option maxRecDepth 8192 in
set_option maxHeartbeats 1000000 in
/-- Window 5's operations compose to the stage value of `main_v47`. -/
theorem s5_main_v47 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_arg0) = x0) :
    after s5 V (Proc.devRef .tc main_v47) = val_main_v47 (F := F) x0 := by
  simp only [s5]
  after_results_simp
  simp only [h0]
  rfl
set_option maxRecDepth 8192 in
set_option maxHeartbeats 1000000 in
/-- Window 5's operations compose to the stage value of `main_v51`. -/
theorem s5_main_v51 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v4) = val_main_v4 (F := F) x1) :
    after s5 V (Proc.devRef .tc main_v51) = val_main_v51 (F := F) x1 := by
  simp only [s5]
  after_results_simp
  simp only [ofBuf_main_v49, toBuf_main_v49, ofBuf_main_call3_v0, toBuf_main_call3_v0, ofBuf_main_c, toBuf_main_c, ofBuf_main_call3_v1, toBuf_main_call3_v1, ofBuf_main_v4, toBuf_main_v4, ofBuf_main_v50, toBuf_main_v50, ofBuf_main_v51, toBuf_main_v51]
  simp only [h0]
  rfl
set_option maxRecDepth 8192 in
set_option maxHeartbeats 1000000 in
/-- Window 5's operations compose to the stage value of `main_call5_v0`. -/
theorem s5_main_call5_v0 (V : Valuation τ sig (Elt F)) (x0 x1 : (⟨S256x4096x9, .f32⟩ : BufTy).Contents (Elt F))
    (x2 x3 : (⟨S256x1x128x128, .f32⟩ : BufTy).Contents (Elt F)) :
    after s5 V (Proc.devRef .tc main_call5_v0) = val_main_call5_v0 (F := F) := by
  simp only [s5]
  after_results_simp
  simp only [ofBuf_main_call5_c, toBuf_main_call5_c, ofBuf_main_call5_v0, toBuf_main_call5_v0]
  rfl
set_option maxRecDepth 8192 in
set_option maxHeartbeats 1000000 in
/-- Window 6's operations compose to the stage value of `main_v52`. -/
theorem s6_main_v52 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_call5_v0) = val_main_call5_v0 (F := F)) (h1 : V (Proc.devRef .tc main_v51) = val_main_v51 (F := F) x1) :
    after s6 V (Proc.devRef .tc main_v52) = val_main_v52 (F := F) x1 := by
  simp only [s6]
  after_results_simp
  simp only [ofBuf_main_v51, toBuf_main_v51, ofBuf_main_call5_v0, toBuf_main_call5_v0, ofBuf_main_v52, toBuf_main_v52]
  simp only [h0, h1]
  rfl
set_option maxRecDepth 8192 in
set_option maxHeartbeats 1000000 in
/-- Window 7's operations compose to the stage value of `main_v54`. -/
theorem s7_main_v54 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v52) = val_main_v52 (F := F) x1) :
    after s7 V (Proc.devRef .tc main_v54) = val_main_v54 (F := F) x1 := by
  simp only [s7]
  after_results_simp
  simp only [ofBuf_main_v52, toBuf_main_v52, ofBuf_main_v53, toBuf_main_v53]
  simp only [h0]
  rfl
set_option maxRecDepth 8192 in
set_option maxHeartbeats 1000000 in
/-- Window 7's operations compose to the stage value of `main_v55`. -/
theorem s7_main_v55 (V : Valuation τ sig (Elt F)) (x0 x1 : (⟨S256x4096x9, .f32⟩ : BufTy).Contents (Elt F))
    (x2 x3 : (⟨S256x1x128x128, .f32⟩ : BufTy).Contents (Elt F)) :
    after s7 V (Proc.devRef .tc main_v55) = val_main_v55 (F := F) := by
  simp only [s7]
  after_results_simp
  rfl
set_option maxRecDepth 8192 in
set_option maxHeartbeats 1000000 in
/-- Window 8's operations compose to the stage value of `main_v56`. -/
theorem s8_main_v56 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v55) = val_main_v55 (F := F)) (h1 : V (Proc.devRef .tc main_v54) = val_main_v54 (F := F) x1) :
    after s8 V (Proc.devRef .tc main_v56) = val_main_v56 (F := F) x1 := by
  simp only [s8]
  after_results_simp
  rw [h0, h1]
  rfl
set_option maxRecDepth 8192 in
set_option maxHeartbeats 1000000 in
/-- Window 9's operations compose to the stage value of `main_v59`. -/
theorem s9_main_v59 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v56) = val_main_v56 (F := F) x1) (h1 : V (Proc.devRef .tc main_v4) = val_main_v4 (F := F) x1) :
    after s9 V (Proc.devRef .tc main_v59) = val_main_v59 (F := F) x1 := by
  simp only [s9]
  after_results_simp
  simp only [h0, h1]
  rfl
set_option maxRecDepth 8192 in
set_option maxHeartbeats 1000000 in
/-- Window 10's operations compose to the stage value of `main_call8_v4`. -/
theorem s10_main_call8_v4 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v56) = val_main_v56 (F := F) x1) :
    after s10 V (Proc.devRef .tc main_call8_v4) = val_main_call8_v4 (F := F) x1 := by
  simp only [s10]
  after_results_simp
  simp only [ofBuf_main_c_19, toBuf_main_c_19, ofBuf_main_call7_v0, toBuf_main_call7_v0, ofBuf_main_call7_v1, toBuf_main_call7_v1, ofBuf_main_v56, toBuf_main_v56, ofBuf_main_call7_v2, toBuf_main_call7_v2, ofBuf_main_c_20, toBuf_main_c_20, ofBuf_main_call7_v3, toBuf_main_call7_v3, ofBuf_main_call7_v4, toBuf_main_call7_v4, ofBuf_main_v60, toBuf_main_v60, ofBuf_main_call8_c, toBuf_main_call8_c, ofBuf_main_call8_v0, toBuf_main_call8_v0, ofBuf_main_v61, toBuf_main_v61, ofBuf_main_call8_v1, toBuf_main_call8_v1, ofBuf_main_call8_c_0, toBuf_main_call8_c_0, ofBuf_main_call8_v2, toBuf_main_call8_v2, ofBuf_main_call8_v3, toBuf_main_call8_v3, ofBuf_main_call8_v4, toBuf_main_call8_v4]
  simp only [h0]
  rfl
set_option maxRecDepth 8192 in
set_option maxHeartbeats 1000000 in
/-- Window 10's operations compose to the stage value of `main_call8_v10`. -/
theorem s10_main_call8_v10 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v56) = val_main_v56 (F := F) x1) :
    after s10 V (Proc.devRef .tc main_call8_v10) = val_main_call8_v10 (F := F) x1 := by
  simp only [s10]
  after_results_simp
  simp only [ofBuf_main_c_19, toBuf_main_c_19, ofBuf_main_call7_v0, toBuf_main_call7_v0, ofBuf_main_call7_v1, toBuf_main_call7_v1, ofBuf_main_v56, toBuf_main_v56, ofBuf_main_call7_v2, toBuf_main_call7_v2, ofBuf_main_c_20, toBuf_main_c_20, ofBuf_main_call7_v3, toBuf_main_call7_v3, ofBuf_main_call7_v4, toBuf_main_call7_v4, ofBuf_main_v60, toBuf_main_v60, ofBuf_main_call8_c, toBuf_main_call8_c, ofBuf_main_call8_v0, toBuf_main_call8_v0, ofBuf_main_v61, toBuf_main_v61, ofBuf_main_call8_v1, toBuf_main_call8_v1, ofBuf_main_call8_c_0, toBuf_main_call8_c_0, ofBuf_main_call8_v2, toBuf_main_call8_v2, ofBuf_main_call8_v3, toBuf_main_call8_v3, ofBuf_main_call8_v4, toBuf_main_call8_v4, ofBuf_main_call8_c_1, toBuf_main_call8_c_1, ofBuf_main_call8_c_2, toBuf_main_call8_c_2, ofBuf_main_call8_v5, toBuf_main_call8_v5, ofBuf_main_call8_v6, toBuf_main_call8_v6, ofBuf_main_call8_v7, toBuf_main_call8_v7, ofBuf_main_call8_v8, toBuf_main_call8_v8, ofBuf_main_call8_v9, toBuf_main_call8_v9, ofBuf_main_call8_v10, toBuf_main_call8_v10]
  simp only [h0]
  rfl
set_option maxRecDepth 8192 in
set_option maxHeartbeats 1000000 in
/-- Window 10's operations compose to the stage value of `main_call8_c_3`. -/
theorem s10_main_call8_c_3 (V : Valuation τ sig (Elt F)) (x0 x1 : (⟨S256x4096x9, .f32⟩ : BufTy).Contents (Elt F))
    (x2 x3 : (⟨S256x1x128x128, .f32⟩ : BufTy).Contents (Elt F)) :
    after s10 V (Proc.devRef .tc main_call8_c_3) = val_main_call8_c_3 (F := F) := by
  simp only [s10]
  after_results_simp
  simp only [ofBuf_main_call8_c_3, toBuf_main_call8_c_3]
  rfl
set_option maxRecDepth 8192 in
set_option maxHeartbeats 1000000 in
/-- Window 11's operations compose to the stage value of `main_call8_v11`. -/
theorem s11_main_call8_v11 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_call8_c_3) = val_main_call8_c_3 (F := F)) (h1 : V (Proc.devRef .tc main_call8_v10) = val_main_call8_v10 (F := F) x1) :
    after s11 V (Proc.devRef .tc main_call8_v11) = val_main_call8_v11 (F := F) x1 := by
  simp only [s11]
  after_results_simp
  simp only [ofBuf_main_call8_v10, toBuf_main_call8_v10, ofBuf_main_call8_c_3, toBuf_main_call8_c_3, ofBuf_main_call8_v11, toBuf_main_call8_v11]
  simp only [h0, h1]
  rfl
set_option maxRecDepth 8192 in
set_option maxHeartbeats 1000000 in
/-- Window 12's operations compose to the stage value of `main_call8_v12`. -/
theorem s12_main_call8_v12 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_call8_v4) = val_main_call8_v4 (F := F) x1) (h1 : V (Proc.devRef .tc main_v47) = val_main_v47 (F := F) x0) :
    after s12 V (Proc.devRef .tc main_call8_v12) = val_main_call8_v12 (F := F) x0 x1 := by
  simp only [s12]
  after_results_simp
  simp only [ofBuf_main_v47, toBuf_main_v47, ofBuf_main_call8_v4, toBuf_main_call8_v4, ofBuf_main_call8_v12, toBuf_main_call8_v12]
  simp only [h0, h1]
  rfl
set_option maxRecDepth 8192 in
set_option maxHeartbeats 1000000 in
/-- Window 13's operations compose to the stage value of `main_v62`. -/
theorem s13_main_v62 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_call8_v12) = val_main_call8_v12 (F := F) x0 x1) (h1 : V (Proc.devRef .tc main_call8_v11) = val_main_call8_v11 (F := F) x1) :
    after s13 V (Proc.devRef .tc main_v62) = val_main_v62 (F := F) x0 x1 := by
  simp only [s13]
  after_results_simp
  simp only [ofBuf_main_call8_v11, toBuf_main_call8_v11, ofBuf_main_call8_v13, toBuf_main_call8_v13, ofBuf_main_call8_cst, toBuf_main_call8_cst, ofBuf_main_call8_v14, toBuf_main_call8_v14, ofBuf_main_call8_v12, toBuf_main_call8_v12, ofBuf_main_v62, toBuf_main_v62]
  simp only [h0, h1]
  rfl
set_option maxRecDepth 8192 in
set_option maxHeartbeats 1000000 in
/-- Window 14's operations compose to the stage value of `main_v71`. -/
theorem s14_main_v71 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v59) = val_main_v59 (F := F) x1) (h1 : V (Proc.devRef .tc main_v62) = val_main_v62 (F := F) x0 x1) (h2 : V (Proc.devRef .tc main_v47) = val_main_v47 (F := F) x0) :
    after s14 V (Proc.devRef .tc main_v71) = val_main_v71 (F := F) x0 x1 := by
  simp only [s14]
  after_results_simp
  simp only [h0, h1, h2]
  rfl
set_option maxRecDepth 8192 in
set_option maxHeartbeats 1000000 in
/-- Window 15's operations compose to the stage value of `main_v75`. -/
theorem s15_main_v75 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_arg3) = x3) (h1 : V (Proc.devRef .tc main_arg2) = x2) :
    after s15 V (Proc.devRef .tc main_v75) = val_main_v75 (F := F) x2 x3 := by
  simp only [s15]
  after_results_simp
  simp only [h0, h1]
  rfl
set_option maxRecDepth 8192 in
set_option maxHeartbeats 1000000 in
/-- Window 16's operations compose to the stage value of `main_v82`. -/
theorem s16_main_v82 (V : Valuation τ sig (Elt F)) (x0 x1 : (⟨S256x4096x9, .f32⟩ : BufTy).Contents (Elt F))
    (x2 x3 : (⟨S256x1x128x128, .f32⟩ : BufTy).Contents (Elt F)) (h0 : V (Proc.devRef .tc main_v75) = val_main_v75 (F := F) x2 x3) (h1 : V (Proc.devRef .tc main_v71) = val_main_v71 (F := F) x0 x1) (h2 : V (Proc.devRef .tc main_v46) = val_main_v46 (F := F) x0 x1) (h3 : V (Proc.devRef .tc main_v32) = val_main_v32 (F := F) x0 x1) (h4 : V (Proc.devRef .tc main_v19) = val_main_v19 (F := F) x0 x1) :
    after s16 V (Proc.devRef .tc main_v82) = val_main_v82 (F := F) x0 x1 x2 x3 := by
  simp only [s16]
  after_results_simp
  simp only [h0, h1, h2, h3, h4]
  rfl

end OneWindow

/-! ## The buffers after each window -/

section Windows

variable (W : Valuation τ sig (Elt F))

/-- The four arguments' contents in `W`. -/
abbrev A0 : (⟨S256x4096x9, .f32⟩ : BufTy).Contents (Elt F) := W (Proc.devRef .tc main_arg0)
@[inherit_doc A0] abbrev A1 : (⟨S256x4096x9, .f32⟩ : BufTy).Contents (Elt F) := W (Proc.devRef .tc main_arg1)
@[inherit_doc A0] abbrev A2 : (⟨S256x1x128x128, .f32⟩ : BufTy).Contents (Elt F) := W (Proc.devRef .tc main_arg2)
@[inherit_doc A0] abbrev A3 : (⟨S256x1x128x128, .f32⟩ : BufTy).Contents (Elt F) := W (Proc.devRef .tc main_arg3)

/-- The contents before the first window. -/
def v0 : Valuation τ sig (Elt F) := W

theorem v0_main_arg0 : v0 W (Proc.devRef .tc main_arg0) = W (Proc.devRef .tc main_arg0) := rfl
theorem v0_main_arg1 : v0 W (Proc.devRef .tc main_arg1) = W (Proc.devRef .tc main_arg1) := rfl
theorem v0_main_arg2 : v0 W (Proc.devRef .tc main_arg2) = W (Proc.devRef .tc main_arg2) := rfl
theorem v0_main_arg3 : v0 W (Proc.devRef .tc main_arg3) = W (Proc.devRef .tc main_arg3) := rfl

/-- The contents after the first 1 window. -/
def v1 : Valuation τ sig (Elt F) := after s1 (v0 W)
/-- The buffers window 1 writes. -/
abbrev s1_W : List (Ref sig .tc) := [main_v0, main_v1, main_v2, main_cst, main_v3, main_v4, main_v5, main_cst_0, main_v6]
set_option maxRecDepth 8192 in
/-- Every operation of window 1 writes only a buffer of that list. -/
theorem s1_writes : (s1 : List (HloOp τ sig (Elt F))).Forall fun op => op.writes ⊆ (s1_W.map (Proc.devRef (τ := τ) .tc)).toFinset := by
  simp only [List.Forall]
  repeat' apply And.intro
  all_goals writes_in
/-- A buffer window 1 does not write keeps its contents through it. -/
theorem v1_keep (r : Ref sig .tc) (h : r ∉ s1_W) : v1 W (Proc.devRef .tc r) = v0 W (Proc.devRef .tc r) :=
  after_of_writes_sub s1 _ s1_writes h
theorem v1_main_arg0 : v1 W (Proc.devRef .tc main_arg0) = W (Proc.devRef .tc main_arg0) :=
  (v1_keep W main_arg0 (by decide)).trans (v0_main_arg0 W)
theorem v1_main_arg1 : v1 W (Proc.devRef .tc main_arg1) = W (Proc.devRef .tc main_arg1) :=
  (v1_keep W main_arg1 (by decide)).trans (v0_main_arg1 W)
theorem v1_main_arg2 : v1 W (Proc.devRef .tc main_arg2) = W (Proc.devRef .tc main_arg2) :=
  (v1_keep W main_arg2 (by decide)).trans (v0_main_arg2 W)
theorem v1_main_arg3 : v1 W (Proc.devRef .tc main_arg3) = W (Proc.devRef .tc main_arg3) :=
  (v1_keep W main_arg3 (by decide)).trans (v0_main_arg3 W)
theorem v1_main_v0 : v1 W (Proc.devRef .tc main_v0) = val_main_v0 (F := F) (A1 W) :=
  s1_main_v0 (v0 W) (A0 W) (A1 W) (A2 W) (A3 W) (v0_main_arg1 W)
theorem v1_main_v1 : v1 W (Proc.devRef .tc main_v1) = val_main_v1 (F := F) (A1 W) :=
  s1_main_v1 (v0 W) (A0 W) (A1 W) (A2 W) (A3 W) (v0_main_arg1 W)
theorem v1_main_v4 : v1 W (Proc.devRef .tc main_v4) = val_main_v4 (F := F) (A1 W) :=
  s1_main_v4 (v0 W) (A0 W) (A1 W) (A2 W) (A3 W) (v0_main_arg1 W)
theorem v1_main_v5 : v1 W (Proc.devRef .tc main_v5) = val_main_v5 (F := F) (A1 W) :=
  s1_main_v5 (v0 W) (A0 W) (A1 W) (A2 W) (A3 W) (v0_main_arg1 W)
theorem v1_main_v6 : v1 W (Proc.devRef .tc main_v6) = val_main_v6 (F := F) (A1 W) :=
  s1_main_v6 (v0 W) (A0 W) (A1 W) (A2 W) (A3 W) (v0_main_arg1 W)

/-- The contents after the first 2 windows. -/
def v2 : Valuation τ sig (Elt F) := after s2 (v1 W)
/-- The buffers window 2 writes. -/
abbrev s2_W : List (Ref sig .tc) := [main_v7, main_v8, main_v9, main_v10, main_v11, main_v12, main_v13, main_cst_1, main_v14, main_cst_2, main_v15, main_cst_3, main_v16, main_cst_4, main_v17, main_v18, main_cst_5, main_call0_v0, main_v19]
set_option maxRecDepth 8192 in
/-- Every operation of window 2 writes only a buffer of that list. -/
theorem s2_writes : (s2 : List (HloOp τ sig (Elt F))).Forall fun op => op.writes ⊆ (s2_W.map (Proc.devRef (τ := τ) .tc)).toFinset := by
  simp only [List.Forall]
  repeat' apply And.intro
  all_goals writes_in
/-- A buffer window 2 does not write keeps its contents through it. -/
theorem v2_keep (r : Ref sig .tc) (h : r ∉ s2_W) : v2 W (Proc.devRef .tc r) = v1 W (Proc.devRef .tc r) :=
  after_of_writes_sub s2 _ s2_writes h
theorem v2_main_arg0 : v2 W (Proc.devRef .tc main_arg0) = W (Proc.devRef .tc main_arg0) :=
  (v2_keep W main_arg0 (by decide)).trans (v1_main_arg0 W)
theorem v2_main_arg1 : v2 W (Proc.devRef .tc main_arg1) = W (Proc.devRef .tc main_arg1) :=
  (v2_keep W main_arg1 (by decide)).trans (v1_main_arg1 W)
theorem v2_main_arg2 : v2 W (Proc.devRef .tc main_arg2) = W (Proc.devRef .tc main_arg2) :=
  (v2_keep W main_arg2 (by decide)).trans (v1_main_arg2 W)
theorem v2_main_arg3 : v2 W (Proc.devRef .tc main_arg3) = W (Proc.devRef .tc main_arg3) :=
  (v2_keep W main_arg3 (by decide)).trans (v1_main_arg3 W)
theorem v2_main_v0 : v2 W (Proc.devRef .tc main_v0) = val_main_v0 (F := F) (A1 W) :=
  (v2_keep W main_v0 (by decide)).trans (v1_main_v0 W)
theorem v2_main_v1 : v2 W (Proc.devRef .tc main_v1) = val_main_v1 (F := F) (A1 W) :=
  (v2_keep W main_v1 (by decide)).trans (v1_main_v1 W)
theorem v2_main_v4 : v2 W (Proc.devRef .tc main_v4) = val_main_v4 (F := F) (A1 W) :=
  (v2_keep W main_v4 (by decide)).trans (v1_main_v4 W)
theorem v2_main_v5 : v2 W (Proc.devRef .tc main_v5) = val_main_v5 (F := F) (A1 W) :=
  (v2_keep W main_v5 (by decide)).trans (v1_main_v5 W)
theorem v2_main_v6 : v2 W (Proc.devRef .tc main_v6) = val_main_v6 (F := F) (A1 W) :=
  (v2_keep W main_v6 (by decide)).trans (v1_main_v6 W)
theorem v2_main_v19 : v2 W (Proc.devRef .tc main_v19) = val_main_v19 (F := F) (A0 W) (A1 W) :=
  s2_main_v19 (v1 W) (A0 W) (A1 W) (A2 W) (A3 W) (v1_main_v6 W) (v1_main_v5 W) (v1_main_v0 W) (v1_main_arg0 W)

/-- The contents after the first 3 windows. -/
def v3 : Valuation τ sig (Elt F) := after s3 (v2 W)
/-- The buffers window 3 writes. -/
abbrev s3_W : List (Ref sig .tc) := [main_v20, main_v21, main_v22, main_v23, main_v24, main_v25, main_v26, main_cst_6, main_v27, main_cst_7, main_v28, main_cst_8, main_v29, main_cst_9, main_v30, main_v31, main_cst_10, main_call1_v0, main_v32]
set_option maxRecDepth 8192 in
/-- Every operation of window 3 writes only a buffer of that list. -/
theorem s3_writes : (s3 : List (HloOp τ sig (Elt F))).Forall fun op => op.writes ⊆ (s3_W.map (Proc.devRef (τ := τ) .tc)).toFinset := by
  simp only [List.Forall]
  repeat' apply And.intro
  all_goals writes_in
/-- A buffer window 3 does not write keeps its contents through it. -/
theorem v3_keep (r : Ref sig .tc) (h : r ∉ s3_W) : v3 W (Proc.devRef .tc r) = v2 W (Proc.devRef .tc r) :=
  after_of_writes_sub s3 _ s3_writes h
theorem v3_main_arg0 : v3 W (Proc.devRef .tc main_arg0) = W (Proc.devRef .tc main_arg0) :=
  (v3_keep W main_arg0 (by decide)).trans (v2_main_arg0 W)
theorem v3_main_arg1 : v3 W (Proc.devRef .tc main_arg1) = W (Proc.devRef .tc main_arg1) :=
  (v3_keep W main_arg1 (by decide)).trans (v2_main_arg1 W)
theorem v3_main_arg2 : v3 W (Proc.devRef .tc main_arg2) = W (Proc.devRef .tc main_arg2) :=
  (v3_keep W main_arg2 (by decide)).trans (v2_main_arg2 W)
theorem v3_main_arg3 : v3 W (Proc.devRef .tc main_arg3) = W (Proc.devRef .tc main_arg3) :=
  (v3_keep W main_arg3 (by decide)).trans (v2_main_arg3 W)
theorem v3_main_v1 : v3 W (Proc.devRef .tc main_v1) = val_main_v1 (F := F) (A1 W) :=
  (v3_keep W main_v1 (by decide)).trans (v2_main_v1 W)
theorem v3_main_v4 : v3 W (Proc.devRef .tc main_v4) = val_main_v4 (F := F) (A1 W) :=
  (v3_keep W main_v4 (by decide)).trans (v2_main_v4 W)
theorem v3_main_v19 : v3 W (Proc.devRef .tc main_v19) = val_main_v19 (F := F) (A0 W) (A1 W) :=
  (v3_keep W main_v19 (by decide)).trans (v2_main_v19 W)
theorem v3_main_v32 : v3 W (Proc.devRef .tc main_v32) = val_main_v32 (F := F) (A0 W) (A1 W) :=
  s3_main_v32 (v2 W) (A0 W) (A1 W) (A2 W) (A3 W) (v2_main_v6 W) (v2_main_v5 W) (v2_main_v0 W) (v2_main_arg0 W)

/-- The contents after the first 4 windows. -/
def v4 : Valuation τ sig (Elt F) := after s4 (v3 W)
/-- The buffers window 4 writes. -/
abbrev s4_W : List (Ref sig .tc) := [main_v33, main_cst_11, main_cst_12, main_call2_v0, main_call2_v1, main_call2_v2, main_call2_v3, main_call2_v4, main_v34, main_v35, main_v36, main_cst_13, main_v37, main_v38, main_cst_14, main_v39, main_v40, main_v41, main_v42, main_v43, main_v44, main_cst_15, main_v45, main_cst_16, main_v46]
set_option maxRecDepth 8192 in
/-- Every operation of window 4 writes only a buffer of that list. -/
theorem s4_writes : (s4 : List (HloOp τ sig (Elt F))).Forall fun op => op.writes ⊆ (s4_W.map (Proc.devRef (τ := τ) .tc)).toFinset := by
  simp only [List.Forall]
  repeat' apply And.intro
  all_goals writes_in
/-- A buffer window 4 does not write keeps its contents through it. -/
theorem v4_keep (r : Ref sig .tc) (h : r ∉ s4_W) : v4 W (Proc.devRef .tc r) = v3 W (Proc.devRef .tc r) :=
  after_of_writes_sub s4 _ s4_writes h
theorem v4_main_arg0 : v4 W (Proc.devRef .tc main_arg0) = W (Proc.devRef .tc main_arg0) :=
  (v4_keep W main_arg0 (by decide)).trans (v3_main_arg0 W)
theorem v4_main_arg1 : v4 W (Proc.devRef .tc main_arg1) = W (Proc.devRef .tc main_arg1) :=
  (v4_keep W main_arg1 (by decide)).trans (v3_main_arg1 W)
theorem v4_main_arg2 : v4 W (Proc.devRef .tc main_arg2) = W (Proc.devRef .tc main_arg2) :=
  (v4_keep W main_arg2 (by decide)).trans (v3_main_arg2 W)
theorem v4_main_arg3 : v4 W (Proc.devRef .tc main_arg3) = W (Proc.devRef .tc main_arg3) :=
  (v4_keep W main_arg3 (by decide)).trans (v3_main_arg3 W)
theorem v4_main_v4 : v4 W (Proc.devRef .tc main_v4) = val_main_v4 (F := F) (A1 W) :=
  (v4_keep W main_v4 (by decide)).trans (v3_main_v4 W)
theorem v4_main_v19 : v4 W (Proc.devRef .tc main_v19) = val_main_v19 (F := F) (A0 W) (A1 W) :=
  (v4_keep W main_v19 (by decide)).trans (v3_main_v19 W)
theorem v4_main_v32 : v4 W (Proc.devRef .tc main_v32) = val_main_v32 (F := F) (A0 W) (A1 W) :=
  (v4_keep W main_v32 (by decide)).trans (v3_main_v32 W)
theorem v4_main_v46 : v4 W (Proc.devRef .tc main_v46) = val_main_v46 (F := F) (A0 W) (A1 W) :=
  s4_main_v46 (v3 W) (A0 W) (A1 W) (A2 W) (A3 W) (v3_main_arg0 W) (v3_main_v1 W)

/-- The contents after the first 5 windows. -/
def v5 : Valuation τ sig (Elt F) := after s5 (v4 W)
/-- The buffers window 5 writes. -/
abbrev s5_W : List (Ref sig .tc) := [main_v47, main_v48, main_v49, main_c, main_call3_v0, main_call3_v1, main_v50, main_v51, main_call5_c, main_call5_v0]
set_option maxRecDepth 8192 in
/-- Every operation of window 5 writes only a buffer of that list. -/
theorem s5_writes : (s5 : List (HloOp τ sig (Elt F))).Forall fun op => op.writes ⊆ (s5_W.map (Proc.devRef (τ := τ) .tc)).toFinset := by
  simp only [List.Forall]
  repeat' apply And.intro
  all_goals writes_in
/-- A buffer window 5 does not write keeps its contents through it. -/
theorem v5_keep (r : Ref sig .tc) (h : r ∉ s5_W) : v5 W (Proc.devRef .tc r) = v4 W (Proc.devRef .tc r) :=
  after_of_writes_sub s5 _ s5_writes h
theorem v5_main_arg0 : v5 W (Proc.devRef .tc main_arg0) = W (Proc.devRef .tc main_arg0) :=
  (v5_keep W main_arg0 (by decide)).trans (v4_main_arg0 W)
theorem v5_main_arg1 : v5 W (Proc.devRef .tc main_arg1) = W (Proc.devRef .tc main_arg1) :=
  (v5_keep W main_arg1 (by decide)).trans (v4_main_arg1 W)
theorem v5_main_arg2 : v5 W (Proc.devRef .tc main_arg2) = W (Proc.devRef .tc main_arg2) :=
  (v5_keep W main_arg2 (by decide)).trans (v4_main_arg2 W)
theorem v5_main_arg3 : v5 W (Proc.devRef .tc main_arg3) = W (Proc.devRef .tc main_arg3) :=
  (v5_keep W main_arg3 (by decide)).trans (v4_main_arg3 W)
theorem v5_main_v4 : v5 W (Proc.devRef .tc main_v4) = val_main_v4 (F := F) (A1 W) :=
  (v5_keep W main_v4 (by decide)).trans (v4_main_v4 W)
theorem v5_main_v19 : v5 W (Proc.devRef .tc main_v19) = val_main_v19 (F := F) (A0 W) (A1 W) :=
  (v5_keep W main_v19 (by decide)).trans (v4_main_v19 W)
theorem v5_main_v32 : v5 W (Proc.devRef .tc main_v32) = val_main_v32 (F := F) (A0 W) (A1 W) :=
  (v5_keep W main_v32 (by decide)).trans (v4_main_v32 W)
theorem v5_main_v46 : v5 W (Proc.devRef .tc main_v46) = val_main_v46 (F := F) (A0 W) (A1 W) :=
  (v5_keep W main_v46 (by decide)).trans (v4_main_v46 W)
theorem v5_main_v47 : v5 W (Proc.devRef .tc main_v47) = val_main_v47 (F := F) (A0 W) :=
  s5_main_v47 (v4 W) (A0 W) (A1 W) (A2 W) (A3 W) (v4_main_arg0 W)
theorem v5_main_v51 : v5 W (Proc.devRef .tc main_v51) = val_main_v51 (F := F) (A1 W) :=
  s5_main_v51 (v4 W) (A0 W) (A1 W) (A2 W) (A3 W) (v4_main_v4 W)
theorem v5_main_call5_v0 : v5 W (Proc.devRef .tc main_call5_v0) = val_main_call5_v0 (F := F) :=
  s5_main_call5_v0 (v4 W) (A0 W) (A1 W) (A2 W) (A3 W)

/-- The contents after the first 6 windows. -/
def v6 : Valuation τ sig (Elt F) := after s6 (v5 W)
/-- The buffers window 6 writes. -/
abbrev s6_W : List (Ref sig .tc) := [main_v52]
set_option maxRecDepth 8192 in
/-- Every operation of window 6 writes only a buffer of that list. -/
theorem s6_writes : (s6 : List (HloOp τ sig (Elt F))).Forall fun op => op.writes ⊆ (s6_W.map (Proc.devRef (τ := τ) .tc)).toFinset := by
  simp only [List.Forall]
  repeat' apply And.intro
  all_goals writes_in
/-- A buffer window 6 does not write keeps its contents through it. -/
theorem v6_keep (r : Ref sig .tc) (h : r ∉ s6_W) : v6 W (Proc.devRef .tc r) = v5 W (Proc.devRef .tc r) :=
  after_of_writes_sub s6 _ s6_writes h
theorem v6_main_arg0 : v6 W (Proc.devRef .tc main_arg0) = W (Proc.devRef .tc main_arg0) :=
  (v6_keep W main_arg0 (by decide)).trans (v5_main_arg0 W)
theorem v6_main_arg1 : v6 W (Proc.devRef .tc main_arg1) = W (Proc.devRef .tc main_arg1) :=
  (v6_keep W main_arg1 (by decide)).trans (v5_main_arg1 W)
theorem v6_main_arg2 : v6 W (Proc.devRef .tc main_arg2) = W (Proc.devRef .tc main_arg2) :=
  (v6_keep W main_arg2 (by decide)).trans (v5_main_arg2 W)
theorem v6_main_arg3 : v6 W (Proc.devRef .tc main_arg3) = W (Proc.devRef .tc main_arg3) :=
  (v6_keep W main_arg3 (by decide)).trans (v5_main_arg3 W)
theorem v6_main_v4 : v6 W (Proc.devRef .tc main_v4) = val_main_v4 (F := F) (A1 W) :=
  (v6_keep W main_v4 (by decide)).trans (v5_main_v4 W)
theorem v6_main_v19 : v6 W (Proc.devRef .tc main_v19) = val_main_v19 (F := F) (A0 W) (A1 W) :=
  (v6_keep W main_v19 (by decide)).trans (v5_main_v19 W)
theorem v6_main_v32 : v6 W (Proc.devRef .tc main_v32) = val_main_v32 (F := F) (A0 W) (A1 W) :=
  (v6_keep W main_v32 (by decide)).trans (v5_main_v32 W)
theorem v6_main_v46 : v6 W (Proc.devRef .tc main_v46) = val_main_v46 (F := F) (A0 W) (A1 W) :=
  (v6_keep W main_v46 (by decide)).trans (v5_main_v46 W)
theorem v6_main_v47 : v6 W (Proc.devRef .tc main_v47) = val_main_v47 (F := F) (A0 W) :=
  (v6_keep W main_v47 (by decide)).trans (v5_main_v47 W)
theorem v6_main_v52 : v6 W (Proc.devRef .tc main_v52) = val_main_v52 (F := F) (A1 W) :=
  s6_main_v52 (v5 W) (A0 W) (A1 W) (A2 W) (A3 W) (v5_main_call5_v0 W) (v5_main_v51 W)

/-- The contents after the first 7 windows. -/
def v7 : Valuation τ sig (Elt F) := after s7 (v6 W)
/-- The buffers window 7 writes. -/
abbrev s7_W : List (Ref sig .tc) := [main_v53, main_v54, main_c_17, main_v55]
set_option maxRecDepth 8192 in
/-- Every operation of window 7 writes only a buffer of that list. -/
theorem s7_writes : (s7 : List (HloOp τ sig (Elt F))).Forall fun op => op.writes ⊆ (s7_W.map (Proc.devRef (τ := τ) .tc)).toFinset := by
  simp only [List.Forall]
  repeat' apply And.intro
  all_goals writes_in
/-- A buffer window 7 does not write keeps its contents through it. -/
theorem v7_keep (r : Ref sig .tc) (h : r ∉ s7_W) : v7 W (Proc.devRef .tc r) = v6 W (Proc.devRef .tc r) :=
  after_of_writes_sub s7 _ s7_writes h
theorem v7_main_arg0 : v7 W (Proc.devRef .tc main_arg0) = W (Proc.devRef .tc main_arg0) :=
  (v7_keep W main_arg0 (by decide)).trans (v6_main_arg0 W)
theorem v7_main_arg1 : v7 W (Proc.devRef .tc main_arg1) = W (Proc.devRef .tc main_arg1) :=
  (v7_keep W main_arg1 (by decide)).trans (v6_main_arg1 W)
theorem v7_main_arg2 : v7 W (Proc.devRef .tc main_arg2) = W (Proc.devRef .tc main_arg2) :=
  (v7_keep W main_arg2 (by decide)).trans (v6_main_arg2 W)
theorem v7_main_arg3 : v7 W (Proc.devRef .tc main_arg3) = W (Proc.devRef .tc main_arg3) :=
  (v7_keep W main_arg3 (by decide)).trans (v6_main_arg3 W)
theorem v7_main_v4 : v7 W (Proc.devRef .tc main_v4) = val_main_v4 (F := F) (A1 W) :=
  (v7_keep W main_v4 (by decide)).trans (v6_main_v4 W)
theorem v7_main_v19 : v7 W (Proc.devRef .tc main_v19) = val_main_v19 (F := F) (A0 W) (A1 W) :=
  (v7_keep W main_v19 (by decide)).trans (v6_main_v19 W)
theorem v7_main_v32 : v7 W (Proc.devRef .tc main_v32) = val_main_v32 (F := F) (A0 W) (A1 W) :=
  (v7_keep W main_v32 (by decide)).trans (v6_main_v32 W)
theorem v7_main_v46 : v7 W (Proc.devRef .tc main_v46) = val_main_v46 (F := F) (A0 W) (A1 W) :=
  (v7_keep W main_v46 (by decide)).trans (v6_main_v46 W)
theorem v7_main_v47 : v7 W (Proc.devRef .tc main_v47) = val_main_v47 (F := F) (A0 W) :=
  (v7_keep W main_v47 (by decide)).trans (v6_main_v47 W)
theorem v7_main_v54 : v7 W (Proc.devRef .tc main_v54) = val_main_v54 (F := F) (A1 W) :=
  s7_main_v54 (v6 W) (A0 W) (A1 W) (A2 W) (A3 W) (v6_main_v52 W)
theorem v7_main_v55 : v7 W (Proc.devRef .tc main_v55) = val_main_v55 (F := F) :=
  s7_main_v55 (v6 W) (A0 W) (A1 W) (A2 W) (A3 W)

/-- The contents after the first 8 windows. -/
def v8 : Valuation τ sig (Elt F) := after s8 (v7 W)
/-- The buffers window 8 writes. -/
abbrev s8_W : List (Ref sig .tc) := [main_v56]
set_option maxRecDepth 8192 in
/-- Every operation of window 8 writes only a buffer of that list. -/
theorem s8_writes : (s8 : List (HloOp τ sig (Elt F))).Forall fun op => op.writes ⊆ (s8_W.map (Proc.devRef (τ := τ) .tc)).toFinset := by
  simp only [List.Forall]
  repeat' apply And.intro
  all_goals writes_in
/-- A buffer window 8 does not write keeps its contents through it. -/
theorem v8_keep (r : Ref sig .tc) (h : r ∉ s8_W) : v8 W (Proc.devRef .tc r) = v7 W (Proc.devRef .tc r) :=
  after_of_writes_sub s8 _ s8_writes h
theorem v8_main_arg0 : v8 W (Proc.devRef .tc main_arg0) = W (Proc.devRef .tc main_arg0) :=
  (v8_keep W main_arg0 (by decide)).trans (v7_main_arg0 W)
theorem v8_main_arg1 : v8 W (Proc.devRef .tc main_arg1) = W (Proc.devRef .tc main_arg1) :=
  (v8_keep W main_arg1 (by decide)).trans (v7_main_arg1 W)
theorem v8_main_arg2 : v8 W (Proc.devRef .tc main_arg2) = W (Proc.devRef .tc main_arg2) :=
  (v8_keep W main_arg2 (by decide)).trans (v7_main_arg2 W)
theorem v8_main_arg3 : v8 W (Proc.devRef .tc main_arg3) = W (Proc.devRef .tc main_arg3) :=
  (v8_keep W main_arg3 (by decide)).trans (v7_main_arg3 W)
theorem v8_main_v4 : v8 W (Proc.devRef .tc main_v4) = val_main_v4 (F := F) (A1 W) :=
  (v8_keep W main_v4 (by decide)).trans (v7_main_v4 W)
theorem v8_main_v19 : v8 W (Proc.devRef .tc main_v19) = val_main_v19 (F := F) (A0 W) (A1 W) :=
  (v8_keep W main_v19 (by decide)).trans (v7_main_v19 W)
theorem v8_main_v32 : v8 W (Proc.devRef .tc main_v32) = val_main_v32 (F := F) (A0 W) (A1 W) :=
  (v8_keep W main_v32 (by decide)).trans (v7_main_v32 W)
theorem v8_main_v46 : v8 W (Proc.devRef .tc main_v46) = val_main_v46 (F := F) (A0 W) (A1 W) :=
  (v8_keep W main_v46 (by decide)).trans (v7_main_v46 W)
theorem v8_main_v47 : v8 W (Proc.devRef .tc main_v47) = val_main_v47 (F := F) (A0 W) :=
  (v8_keep W main_v47 (by decide)).trans (v7_main_v47 W)
theorem v8_main_v56 : v8 W (Proc.devRef .tc main_v56) = val_main_v56 (F := F) (A1 W) :=
  s8_main_v56 (v7 W) (A0 W) (A1 W) (A2 W) (A3 W) (v7_main_v55 W) (v7_main_v54 W)

/-- The contents after the first 9 windows. -/
def v9 : Valuation τ sig (Elt F) := after s9 (v8 W)
/-- The buffers window 9 writes. -/
abbrev s9_W : List (Ref sig .tc) := [main_c_18, main_v57, main_v58, main_v59]
set_option maxRecDepth 8192 in
/-- Every operation of window 9 writes only a buffer of that list. -/
theorem s9_writes : (s9 : List (HloOp τ sig (Elt F))).Forall fun op => op.writes ⊆ (s9_W.map (Proc.devRef (τ := τ) .tc)).toFinset := by
  simp only [List.Forall]
  repeat' apply And.intro
  all_goals writes_in
/-- A buffer window 9 does not write keeps its contents through it. -/
theorem v9_keep (r : Ref sig .tc) (h : r ∉ s9_W) : v9 W (Proc.devRef .tc r) = v8 W (Proc.devRef .tc r) :=
  after_of_writes_sub s9 _ s9_writes h
theorem v9_main_arg0 : v9 W (Proc.devRef .tc main_arg0) = W (Proc.devRef .tc main_arg0) :=
  (v9_keep W main_arg0 (by decide)).trans (v8_main_arg0 W)
theorem v9_main_arg1 : v9 W (Proc.devRef .tc main_arg1) = W (Proc.devRef .tc main_arg1) :=
  (v9_keep W main_arg1 (by decide)).trans (v8_main_arg1 W)
theorem v9_main_arg2 : v9 W (Proc.devRef .tc main_arg2) = W (Proc.devRef .tc main_arg2) :=
  (v9_keep W main_arg2 (by decide)).trans (v8_main_arg2 W)
theorem v9_main_arg3 : v9 W (Proc.devRef .tc main_arg3) = W (Proc.devRef .tc main_arg3) :=
  (v9_keep W main_arg3 (by decide)).trans (v8_main_arg3 W)
theorem v9_main_v19 : v9 W (Proc.devRef .tc main_v19) = val_main_v19 (F := F) (A0 W) (A1 W) :=
  (v9_keep W main_v19 (by decide)).trans (v8_main_v19 W)
theorem v9_main_v32 : v9 W (Proc.devRef .tc main_v32) = val_main_v32 (F := F) (A0 W) (A1 W) :=
  (v9_keep W main_v32 (by decide)).trans (v8_main_v32 W)
theorem v9_main_v46 : v9 W (Proc.devRef .tc main_v46) = val_main_v46 (F := F) (A0 W) (A1 W) :=
  (v9_keep W main_v46 (by decide)).trans (v8_main_v46 W)
theorem v9_main_v47 : v9 W (Proc.devRef .tc main_v47) = val_main_v47 (F := F) (A0 W) :=
  (v9_keep W main_v47 (by decide)).trans (v8_main_v47 W)
theorem v9_main_v56 : v9 W (Proc.devRef .tc main_v56) = val_main_v56 (F := F) (A1 W) :=
  (v9_keep W main_v56 (by decide)).trans (v8_main_v56 W)
theorem v9_main_v59 : v9 W (Proc.devRef .tc main_v59) = val_main_v59 (F := F) (A1 W) :=
  s9_main_v59 (v8 W) (A0 W) (A1 W) (A2 W) (A3 W) (v8_main_v56 W) (v8_main_v4 W)

/-- The contents after the first 10 windows. -/
def v10 : Valuation τ sig (Elt F) := after s10 (v9 W)
/-- The buffers window 10 writes. -/
abbrev s10_W : List (Ref sig .tc) := [main_c_19, main_c_20, main_call7_v0, main_call7_v1, main_call7_v2, main_call7_v3, main_call7_v4, main_v60, main_v61, main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3]
set_option maxRecDepth 8192 in
/-- Every operation of window 10 writes only a buffer of that list. -/
theorem s10_writes : (s10 : List (HloOp τ sig (Elt F))).Forall fun op => op.writes ⊆ (s10_W.map (Proc.devRef (τ := τ) .tc)).toFinset := by
  simp only [List.Forall]
  repeat' apply And.intro
  all_goals writes_in
/-- A buffer window 10 does not write keeps its contents through it. -/
theorem v10_keep (r : Ref sig .tc) (h : r ∉ s10_W) : v10 W (Proc.devRef .tc r) = v9 W (Proc.devRef .tc r) :=
  after_of_writes_sub s10 _ s10_writes h
theorem v10_main_arg0 : v10 W (Proc.devRef .tc main_arg0) = W (Proc.devRef .tc main_arg0) :=
  (v10_keep W main_arg0 (by decide)).trans (v9_main_arg0 W)
theorem v10_main_arg1 : v10 W (Proc.devRef .tc main_arg1) = W (Proc.devRef .tc main_arg1) :=
  (v10_keep W main_arg1 (by decide)).trans (v9_main_arg1 W)
theorem v10_main_arg2 : v10 W (Proc.devRef .tc main_arg2) = W (Proc.devRef .tc main_arg2) :=
  (v10_keep W main_arg2 (by decide)).trans (v9_main_arg2 W)
theorem v10_main_arg3 : v10 W (Proc.devRef .tc main_arg3) = W (Proc.devRef .tc main_arg3) :=
  (v10_keep W main_arg3 (by decide)).trans (v9_main_arg3 W)
theorem v10_main_v19 : v10 W (Proc.devRef .tc main_v19) = val_main_v19 (F := F) (A0 W) (A1 W) :=
  (v10_keep W main_v19 (by decide)).trans (v9_main_v19 W)
theorem v10_main_v32 : v10 W (Proc.devRef .tc main_v32) = val_main_v32 (F := F) (A0 W) (A1 W) :=
  (v10_keep W main_v32 (by decide)).trans (v9_main_v32 W)
theorem v10_main_v46 : v10 W (Proc.devRef .tc main_v46) = val_main_v46 (F := F) (A0 W) (A1 W) :=
  (v10_keep W main_v46 (by decide)).trans (v9_main_v46 W)
theorem v10_main_v47 : v10 W (Proc.devRef .tc main_v47) = val_main_v47 (F := F) (A0 W) :=
  (v10_keep W main_v47 (by decide)).trans (v9_main_v47 W)
theorem v10_main_v59 : v10 W (Proc.devRef .tc main_v59) = val_main_v59 (F := F) (A1 W) :=
  (v10_keep W main_v59 (by decide)).trans (v9_main_v59 W)
theorem v10_main_call8_v4 : v10 W (Proc.devRef .tc main_call8_v4) = val_main_call8_v4 (F := F) (A1 W) :=
  s10_main_call8_v4 (v9 W) (A0 W) (A1 W) (A2 W) (A3 W) (v9_main_v56 W)
theorem v10_main_call8_v10 : v10 W (Proc.devRef .tc main_call8_v10) = val_main_call8_v10 (F := F) (A1 W) :=
  s10_main_call8_v10 (v9 W) (A0 W) (A1 W) (A2 W) (A3 W) (v9_main_v56 W)
theorem v10_main_call8_c_3 : v10 W (Proc.devRef .tc main_call8_c_3) = val_main_call8_c_3 (F := F) :=
  s10_main_call8_c_3 (v9 W) (A0 W) (A1 W) (A2 W) (A3 W)

/-- The contents after the first 11 windows. -/
def v11 : Valuation τ sig (Elt F) := after s11 (v10 W)
/-- The buffers window 11 writes. -/
abbrev s11_W : List (Ref sig .tc) := [main_call8_v11]
set_option maxRecDepth 8192 in
/-- Every operation of window 11 writes only a buffer of that list. -/
theorem s11_writes : (s11 : List (HloOp τ sig (Elt F))).Forall fun op => op.writes ⊆ (s11_W.map (Proc.devRef (τ := τ) .tc)).toFinset := by
  simp only [List.Forall]
  repeat' apply And.intro
  all_goals writes_in
/-- A buffer window 11 does not write keeps its contents through it. -/
theorem v11_keep (r : Ref sig .tc) (h : r ∉ s11_W) : v11 W (Proc.devRef .tc r) = v10 W (Proc.devRef .tc r) :=
  after_of_writes_sub s11 _ s11_writes h
theorem v11_main_arg0 : v11 W (Proc.devRef .tc main_arg0) = W (Proc.devRef .tc main_arg0) :=
  (v11_keep W main_arg0 (by decide)).trans (v10_main_arg0 W)
theorem v11_main_arg1 : v11 W (Proc.devRef .tc main_arg1) = W (Proc.devRef .tc main_arg1) :=
  (v11_keep W main_arg1 (by decide)).trans (v10_main_arg1 W)
theorem v11_main_arg2 : v11 W (Proc.devRef .tc main_arg2) = W (Proc.devRef .tc main_arg2) :=
  (v11_keep W main_arg2 (by decide)).trans (v10_main_arg2 W)
theorem v11_main_arg3 : v11 W (Proc.devRef .tc main_arg3) = W (Proc.devRef .tc main_arg3) :=
  (v11_keep W main_arg3 (by decide)).trans (v10_main_arg3 W)
theorem v11_main_v19 : v11 W (Proc.devRef .tc main_v19) = val_main_v19 (F := F) (A0 W) (A1 W) :=
  (v11_keep W main_v19 (by decide)).trans (v10_main_v19 W)
theorem v11_main_v32 : v11 W (Proc.devRef .tc main_v32) = val_main_v32 (F := F) (A0 W) (A1 W) :=
  (v11_keep W main_v32 (by decide)).trans (v10_main_v32 W)
theorem v11_main_v46 : v11 W (Proc.devRef .tc main_v46) = val_main_v46 (F := F) (A0 W) (A1 W) :=
  (v11_keep W main_v46 (by decide)).trans (v10_main_v46 W)
theorem v11_main_v47 : v11 W (Proc.devRef .tc main_v47) = val_main_v47 (F := F) (A0 W) :=
  (v11_keep W main_v47 (by decide)).trans (v10_main_v47 W)
theorem v11_main_v59 : v11 W (Proc.devRef .tc main_v59) = val_main_v59 (F := F) (A1 W) :=
  (v11_keep W main_v59 (by decide)).trans (v10_main_v59 W)
theorem v11_main_call8_v4 : v11 W (Proc.devRef .tc main_call8_v4) = val_main_call8_v4 (F := F) (A1 W) :=
  (v11_keep W main_call8_v4 (by decide)).trans (v10_main_call8_v4 W)
theorem v11_main_call8_v11 : v11 W (Proc.devRef .tc main_call8_v11) = val_main_call8_v11 (F := F) (A1 W) :=
  s11_main_call8_v11 (v10 W) (A0 W) (A1 W) (A2 W) (A3 W) (v10_main_call8_c_3 W) (v10_main_call8_v10 W)

/-- The contents after the first 12 windows. -/
def v12 : Valuation τ sig (Elt F) := after s12 (v11 W)
/-- The buffers window 12 writes. -/
abbrev s12_W : List (Ref sig .tc) := [main_call8_v12]
set_option maxRecDepth 8192 in
/-- Every operation of window 12 writes only a buffer of that list. -/
theorem s12_writes : (s12 : List (HloOp τ sig (Elt F))).Forall fun op => op.writes ⊆ (s12_W.map (Proc.devRef (τ := τ) .tc)).toFinset := by
  simp only [List.Forall]
  repeat' apply And.intro
  all_goals writes_in
/-- A buffer window 12 does not write keeps its contents through it. -/
theorem v12_keep (r : Ref sig .tc) (h : r ∉ s12_W) : v12 W (Proc.devRef .tc r) = v11 W (Proc.devRef .tc r) :=
  after_of_writes_sub s12 _ s12_writes h
theorem v12_main_arg0 : v12 W (Proc.devRef .tc main_arg0) = W (Proc.devRef .tc main_arg0) :=
  (v12_keep W main_arg0 (by decide)).trans (v11_main_arg0 W)
theorem v12_main_arg1 : v12 W (Proc.devRef .tc main_arg1) = W (Proc.devRef .tc main_arg1) :=
  (v12_keep W main_arg1 (by decide)).trans (v11_main_arg1 W)
theorem v12_main_arg2 : v12 W (Proc.devRef .tc main_arg2) = W (Proc.devRef .tc main_arg2) :=
  (v12_keep W main_arg2 (by decide)).trans (v11_main_arg2 W)
theorem v12_main_arg3 : v12 W (Proc.devRef .tc main_arg3) = W (Proc.devRef .tc main_arg3) :=
  (v12_keep W main_arg3 (by decide)).trans (v11_main_arg3 W)
theorem v12_main_v19 : v12 W (Proc.devRef .tc main_v19) = val_main_v19 (F := F) (A0 W) (A1 W) :=
  (v12_keep W main_v19 (by decide)).trans (v11_main_v19 W)
theorem v12_main_v32 : v12 W (Proc.devRef .tc main_v32) = val_main_v32 (F := F) (A0 W) (A1 W) :=
  (v12_keep W main_v32 (by decide)).trans (v11_main_v32 W)
theorem v12_main_v46 : v12 W (Proc.devRef .tc main_v46) = val_main_v46 (F := F) (A0 W) (A1 W) :=
  (v12_keep W main_v46 (by decide)).trans (v11_main_v46 W)
theorem v12_main_v47 : v12 W (Proc.devRef .tc main_v47) = val_main_v47 (F := F) (A0 W) :=
  (v12_keep W main_v47 (by decide)).trans (v11_main_v47 W)
theorem v12_main_v59 : v12 W (Proc.devRef .tc main_v59) = val_main_v59 (F := F) (A1 W) :=
  (v12_keep W main_v59 (by decide)).trans (v11_main_v59 W)
theorem v12_main_call8_v11 : v12 W (Proc.devRef .tc main_call8_v11) = val_main_call8_v11 (F := F) (A1 W) :=
  (v12_keep W main_call8_v11 (by decide)).trans (v11_main_call8_v11 W)
theorem v12_main_call8_v12 : v12 W (Proc.devRef .tc main_call8_v12) = val_main_call8_v12 (F := F) (A0 W) (A1 W) :=
  s12_main_call8_v12 (v11 W) (A0 W) (A1 W) (A2 W) (A3 W) (v11_main_call8_v4 W) (v11_main_v47 W)

/-- The contents after the first 13 windows. -/
def v13 : Valuation τ sig (Elt F) := after s13 (v12 W)
/-- The buffers window 13 writes. -/
abbrev s13_W : List (Ref sig .tc) := [main_call8_v13, main_call8_cst, main_call8_v14, main_v62]
set_option maxRecDepth 8192 in
/-- Every operation of window 13 writes only a buffer of that list. -/
theorem s13_writes : (s13 : List (HloOp τ sig (Elt F))).Forall fun op => op.writes ⊆ (s13_W.map (Proc.devRef (τ := τ) .tc)).toFinset := by
  simp only [List.Forall]
  repeat' apply And.intro
  all_goals writes_in
/-- A buffer window 13 does not write keeps its contents through it. -/
theorem v13_keep (r : Ref sig .tc) (h : r ∉ s13_W) : v13 W (Proc.devRef .tc r) = v12 W (Proc.devRef .tc r) :=
  after_of_writes_sub s13 _ s13_writes h
theorem v13_main_arg0 : v13 W (Proc.devRef .tc main_arg0) = W (Proc.devRef .tc main_arg0) :=
  (v13_keep W main_arg0 (by decide)).trans (v12_main_arg0 W)
theorem v13_main_arg1 : v13 W (Proc.devRef .tc main_arg1) = W (Proc.devRef .tc main_arg1) :=
  (v13_keep W main_arg1 (by decide)).trans (v12_main_arg1 W)
theorem v13_main_arg2 : v13 W (Proc.devRef .tc main_arg2) = W (Proc.devRef .tc main_arg2) :=
  (v13_keep W main_arg2 (by decide)).trans (v12_main_arg2 W)
theorem v13_main_arg3 : v13 W (Proc.devRef .tc main_arg3) = W (Proc.devRef .tc main_arg3) :=
  (v13_keep W main_arg3 (by decide)).trans (v12_main_arg3 W)
theorem v13_main_v19 : v13 W (Proc.devRef .tc main_v19) = val_main_v19 (F := F) (A0 W) (A1 W) :=
  (v13_keep W main_v19 (by decide)).trans (v12_main_v19 W)
theorem v13_main_v32 : v13 W (Proc.devRef .tc main_v32) = val_main_v32 (F := F) (A0 W) (A1 W) :=
  (v13_keep W main_v32 (by decide)).trans (v12_main_v32 W)
theorem v13_main_v46 : v13 W (Proc.devRef .tc main_v46) = val_main_v46 (F := F) (A0 W) (A1 W) :=
  (v13_keep W main_v46 (by decide)).trans (v12_main_v46 W)
theorem v13_main_v47 : v13 W (Proc.devRef .tc main_v47) = val_main_v47 (F := F) (A0 W) :=
  (v13_keep W main_v47 (by decide)).trans (v12_main_v47 W)
theorem v13_main_v59 : v13 W (Proc.devRef .tc main_v59) = val_main_v59 (F := F) (A1 W) :=
  (v13_keep W main_v59 (by decide)).trans (v12_main_v59 W)
theorem v13_main_v62 : v13 W (Proc.devRef .tc main_v62) = val_main_v62 (F := F) (A0 W) (A1 W) :=
  s13_main_v62 (v12 W) (A0 W) (A1 W) (A2 W) (A3 W) (v12_main_call8_v12 W) (v12_main_call8_v11 W)

/-- The contents after the first 14 windows. -/
def v14 : Valuation τ sig (Elt F) := after s14 (v13 W)
/-- The buffers window 14 writes. -/
abbrev s14_W : List (Ref sig .tc) := [main_v63, main_v64, main_cst_21, main_v65, main_cst_22, main_v66, main_v67, main_v68, main_v69, main_cst_23, main_v70, main_cst_24, main_v71]
set_option maxRecDepth 8192 in
/-- Every operation of window 14 writes only a buffer of that list. -/
theorem s14_writes : (s14 : List (HloOp τ sig (Elt F))).Forall fun op => op.writes ⊆ (s14_W.map (Proc.devRef (τ := τ) .tc)).toFinset := by
  simp only [List.Forall]
  repeat' apply And.intro
  all_goals writes_in
/-- A buffer window 14 does not write keeps its contents through it. -/
theorem v14_keep (r : Ref sig .tc) (h : r ∉ s14_W) : v14 W (Proc.devRef .tc r) = v13 W (Proc.devRef .tc r) :=
  after_of_writes_sub s14 _ s14_writes h
theorem v14_main_arg0 : v14 W (Proc.devRef .tc main_arg0) = W (Proc.devRef .tc main_arg0) :=
  (v14_keep W main_arg0 (by decide)).trans (v13_main_arg0 W)
theorem v14_main_arg1 : v14 W (Proc.devRef .tc main_arg1) = W (Proc.devRef .tc main_arg1) :=
  (v14_keep W main_arg1 (by decide)).trans (v13_main_arg1 W)
theorem v14_main_arg2 : v14 W (Proc.devRef .tc main_arg2) = W (Proc.devRef .tc main_arg2) :=
  (v14_keep W main_arg2 (by decide)).trans (v13_main_arg2 W)
theorem v14_main_arg3 : v14 W (Proc.devRef .tc main_arg3) = W (Proc.devRef .tc main_arg3) :=
  (v14_keep W main_arg3 (by decide)).trans (v13_main_arg3 W)
theorem v14_main_v19 : v14 W (Proc.devRef .tc main_v19) = val_main_v19 (F := F) (A0 W) (A1 W) :=
  (v14_keep W main_v19 (by decide)).trans (v13_main_v19 W)
theorem v14_main_v32 : v14 W (Proc.devRef .tc main_v32) = val_main_v32 (F := F) (A0 W) (A1 W) :=
  (v14_keep W main_v32 (by decide)).trans (v13_main_v32 W)
theorem v14_main_v46 : v14 W (Proc.devRef .tc main_v46) = val_main_v46 (F := F) (A0 W) (A1 W) :=
  (v14_keep W main_v46 (by decide)).trans (v13_main_v46 W)
theorem v14_main_v71 : v14 W (Proc.devRef .tc main_v71) = val_main_v71 (F := F) (A0 W) (A1 W) :=
  s14_main_v71 (v13 W) (A0 W) (A1 W) (A2 W) (A3 W) (v13_main_v59 W) (v13_main_v62 W) (v13_main_v47 W)

/-- The contents after the first 15 windows. -/
def v15 : Valuation τ sig (Elt F) := after s15 (v14 W)
/-- The buffers window 15 writes. -/
abbrev s15_W : List (Ref sig .tc) := [main_v72, main_v73, main_cst_25, main_v74, main_cst_26, main_v75]
set_option maxRecDepth 8192 in
/-- Every operation of window 15 writes only a buffer of that list. -/
theorem s15_writes : (s15 : List (HloOp τ sig (Elt F))).Forall fun op => op.writes ⊆ (s15_W.map (Proc.devRef (τ := τ) .tc)).toFinset := by
  simp only [List.Forall]
  repeat' apply And.intro
  all_goals writes_in
/-- A buffer window 15 does not write keeps its contents through it. -/
theorem v15_keep (r : Ref sig .tc) (h : r ∉ s15_W) : v15 W (Proc.devRef .tc r) = v14 W (Proc.devRef .tc r) :=
  after_of_writes_sub s15 _ s15_writes h
theorem v15_main_arg0 : v15 W (Proc.devRef .tc main_arg0) = W (Proc.devRef .tc main_arg0) :=
  (v15_keep W main_arg0 (by decide)).trans (v14_main_arg0 W)
theorem v15_main_arg1 : v15 W (Proc.devRef .tc main_arg1) = W (Proc.devRef .tc main_arg1) :=
  (v15_keep W main_arg1 (by decide)).trans (v14_main_arg1 W)
theorem v15_main_arg2 : v15 W (Proc.devRef .tc main_arg2) = W (Proc.devRef .tc main_arg2) :=
  (v15_keep W main_arg2 (by decide)).trans (v14_main_arg2 W)
theorem v15_main_arg3 : v15 W (Proc.devRef .tc main_arg3) = W (Proc.devRef .tc main_arg3) :=
  (v15_keep W main_arg3 (by decide)).trans (v14_main_arg3 W)
theorem v15_main_v19 : v15 W (Proc.devRef .tc main_v19) = val_main_v19 (F := F) (A0 W) (A1 W) :=
  (v15_keep W main_v19 (by decide)).trans (v14_main_v19 W)
theorem v15_main_v32 : v15 W (Proc.devRef .tc main_v32) = val_main_v32 (F := F) (A0 W) (A1 W) :=
  (v15_keep W main_v32 (by decide)).trans (v14_main_v32 W)
theorem v15_main_v46 : v15 W (Proc.devRef .tc main_v46) = val_main_v46 (F := F) (A0 W) (A1 W) :=
  (v15_keep W main_v46 (by decide)).trans (v14_main_v46 W)
theorem v15_main_v71 : v15 W (Proc.devRef .tc main_v71) = val_main_v71 (F := F) (A0 W) (A1 W) :=
  (v15_keep W main_v71 (by decide)).trans (v14_main_v71 W)
theorem v15_main_v75 : v15 W (Proc.devRef .tc main_v75) = val_main_v75 (F := F) (A2 W) (A3 W) :=
  s15_main_v75 (v14 W) (A0 W) (A1 W) (A2 W) (A3 W) (v14_main_arg3 W) (v14_main_arg2 W)

/-- The contents after the first 16 windows. -/
def v16 : Valuation τ sig (Elt F) := after s16 (v15 W)
/-- The buffers window 16 writes. -/
abbrev s16_W : List (Ref sig .tc) := [main_v76, main_cst_27, main_v77, main_v78, main_cst_28, main_v79, main_v80, main_cst_29, main_v81, main_v82]
set_option maxRecDepth 8192 in
/-- Every operation of window 16 writes only a buffer of that list. -/
theorem s16_writes : (s16 : List (HloOp τ sig (Elt F))).Forall fun op => op.writes ⊆ (s16_W.map (Proc.devRef (τ := τ) .tc)).toFinset := by
  simp only [List.Forall]
  repeat' apply And.intro
  all_goals writes_in
/-- A buffer window 16 does not write keeps its contents through it. -/
theorem v16_keep (r : Ref sig .tc) (h : r ∉ s16_W) : v16 W (Proc.devRef .tc r) = v15 W (Proc.devRef .tc r) :=
  after_of_writes_sub s16 _ s16_writes h
theorem v16_main_arg0 : v16 W (Proc.devRef .tc main_arg0) = W (Proc.devRef .tc main_arg0) :=
  (v16_keep W main_arg0 (by decide)).trans (v15_main_arg0 W)
theorem v16_main_arg1 : v16 W (Proc.devRef .tc main_arg1) = W (Proc.devRef .tc main_arg1) :=
  (v16_keep W main_arg1 (by decide)).trans (v15_main_arg1 W)
theorem v16_main_arg2 : v16 W (Proc.devRef .tc main_arg2) = W (Proc.devRef .tc main_arg2) :=
  (v16_keep W main_arg2 (by decide)).trans (v15_main_arg2 W)
theorem v16_main_arg3 : v16 W (Proc.devRef .tc main_arg3) = W (Proc.devRef .tc main_arg3) :=
  (v16_keep W main_arg3 (by decide)).trans (v15_main_arg3 W)
theorem v16_main_v82 : v16 W (Proc.devRef .tc main_v82) = val_main_v82 (F := F) (A0 W) (A1 W) (A2 W) (A3 W) :=
  s16_main_v82 (v15 W) (A0 W) (A1 W) (A2 W) (A3 W) (v15_main_v75 W) (v15_main_v71 W) (v15_main_v46 W) (v15_main_v32 W) (v15_main_v19 W)

/-- The whole line from `W` is the windows, in order, from `W`. -/
theorem after_ops : after (ops : List (HloOp τ sig (Elt F))) W = v16 W := by
  rw [ops_eq]
  simp only [after_app]
  rfl

end Windows

/-! ## The run -/

/-- On every device, from any memory with zero counters, every weakly fair execution of the reference terminates with
    the result buffer at the last stage value of the arguments' launch contents and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
          = val_main_v82 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v82).trans ((congrFun (after_ops (launchContents m c)) _).trans (v16_main_v82 (launchContents m c))),
       (h c main_arg0).trans ((congrFun (after_ops (launchContents m c)) _).trans (v16_main_arg0 (launchContents m c))),
       (h c main_arg1).trans ((congrFun (after_ops (launchContents m c)) _).trans (v16_main_arg1 (launchContents m c))),
       (h c main_arg2).trans ((congrFun (after_ops (launchContents m c)) _).trans (v16_main_arg2 (launchContents m c))),
       (h c main_arg3).trans ((congrFun (after_ops (launchContents m c)) _).trans (v16_main_arg3 (launchContents m c)))⟩)
    (run_seq scopedRefs_eq scopedSems_eq defs main (fun _ => ops) main_eq (fun _ => ops_sub) m ρ)

end Cert.ReferenceIdeal.RefRun

end
-- ==== Proof.lean ====
/-
  The certificate: a curve-detection loss — masked L1 on coordinates and widths, a cross-entropy on validity, a
  continuity term between each valid slot and the next valid one, and a reconstruction error — computed by two
  accumulating kernels between stretches of host operations, against the plain array program.

  On the extended reals both programs compute one closing function of six totals. The kernels' totals are sums over grid
  points of block sums; the reference's are sums over whole arrays; the two agree because addition of extended reals is
  commutative and associative (no finiteness of the inputs is used), because the kernel's `· ½` is the reference's `/ 2`
  and its `0 − x` the reference's `−x` on every extended real, and because the mask bit zero-extended and read signed is
  the bit read unsigned. The index bookkeeping that finds each slot's next valid slot is the same host computation in
  both programs and is compared as a whole, never opened.

  The three frames: the kernel's two are the generated frame certificates; the reference's is its run with the result
  dropped. The ideal pass rewrote nothing, so `preserves` is trivial.
-/
import proofs.«162210_j73057393705419_2_alg».proof.Defs
import proofs.«162210_j73057393705419_2_alg».proof.Proof.Gen.Kernel
import proofs.«162210_j73057393705419_2_alg».proof.Proof.Gen.Kernel.Frame
import proofs.«162210_j73057393705419_2_alg».proof.Proof.Gen.KernelIdeal
import proofs.«162210_j73057393705419_2_alg».proof.Proof.Gen.KernelIdeal.Frame
import proofs.«162210_j73057393705419_2_alg».proof.Proof.Gen.ReferenceIdeal
import proofs.«162210_j73057393705419_2_alg».proof.Proof.Gen.Pre_finite_inputs
import proofs.«162210_j73057393705419_2_alg».proof.Proof.KRun
import proofs.«162210_j73057393705419_2_alg».proof.Proof.Bridge
import proofs.«162210_j73057393705419_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end at one value: the kernel's result buffer at the last segment boundary's contents, which is
    the reference's result term of arguments that agree. -/
theorem algebraic : Cert.algebraic_KernelIdeal_ReferenceIdeal := by
  intro m ρ m' ρ' _ hagree
  refine ⟨fun c => Cert.KernelIdeal.Gen.W18 m ρ c (Proc.devRef .tc Cert.KernelIdeal.main_v49),
    Cert.KernelIdeal.KRun.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Cert.KernelIdeal.Bridge.result_agree m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
